-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x1024x1024 : Shape := ⟨4, ![16, 3, 1024, 1024]⟩
abbrev S16x1x1024x1024 : Shape := ⟨4, ![16, 1, 1024, 1024]⟩
abbrev S_ : Shape := ⟨0, ![]⟩

class Facts : Prop where
  bcast_S_S16x3x1024x1024 : S_.BroadcastsInDim S16x3x1024x1024 (![] : Fin 0 → Fin S16x3x1024x1024.rank)
  reducesTo_S16x3x1024x1024_S_d0_1_2_3 : S16x3x1024x1024.ReducesTo [0, 1, 2, 3] S_
  h_S_ : 0 < S_.numel
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_

variable [Facts]

def fn {F : FTy → Type} [FloatOps F] (main_arg0 : FVec F S16x3x1024x1024 .f32) (main_arg1 : FVec F S16x3x1024x1024 .f32) (main_arg2 : FVec F S16x1x1024x1024 .f32) : IVec S_ 1 :=
  let main_v0 : FVec F S16x3x1024x1024 .f32 := Host.absf main_arg0
  let main_cst : FVec F S_ .f32 := constant S_ .f32 0x7F800000#32
  let main_v1 : FVec F S16x3x1024x1024 .f32 := broadcastInDim S16x3x1024x1024 ![] bcast_S_S16x3x1024x1024 main_cst
  let main_v2 : IVec S16x3x1024x1024 1 := cmpf .olt main_v0 main_v1
  let main_c : IVec S_ 1 := constantI S_ 1 1#1
  let main_v3 : IVec S_ 1 := (fun x v => Host.reduce IntOp.andi x v reducesTo_S16x3x1024x1024_S_d0_1_2_3 h_S_) main_v2 main_c
  let main_v4 : FVec F S16x3x1024x1024 .f32 := Host.absf main_arg1
  let main_cst_0 : FVec F S_ .f32 := constant S_ .f32 0x7F800000#32
  let main_v5 : FVec F S16x3x1024x1024 .f32 := broadcastInDim S16x3x1024x1024 ![] bcast_S_S16x3x1024x1024 main_cst_0
  let main_v6 : IVec S16x3x1024x1024 1 := cmpf .olt main_v4 main_v5
  let main_c_1 : IVec S_ 1 := constantI S_ 1 1#1
  let main_v7 : IVec S_ 1 := (fun x v => Host.reduce IntOp.andi x v reducesTo_S16x3x1024x1024_S_d0_1_2_3 h_S_) main_v6 main_c_1
  let main_v8 : IVec S_ 1 := andi main_v3 main_v7
  let main_v9 : FVec F S16x1x1024x1024 .f32 := Host.absf main_arg2
  let main_cst_2 : FVec F S_ .f32 := constant S_ .f32 0x7F800000#32
  let main_v10 : FVec F S16x1x1024x1024 .f32 := broadcastInDim S16x1x1024x1024 ![] bcast_S_S16x1x1024x1024 main_cst_2
  let main_v11 : IVec S16x1x1024x1024 1 := cmpf .olt main_v9 main_v10
  let main_c_3 : IVec S_ 1 := constantI S_ 1 1#1
  let main_v12 : IVec S_ 1 := (fun x v => Host.reduce IntOp.andi x v reducesTo_S16x1x1024x1024_S_d0_1_2_3 h_S_) main_v11 main_c_3
  let main_v13 : IVec S_ 1 := andi main_v8 main_v12
  main_v13
-- ==== Kernel.lean ====
abbrev S16x3x1024x1024 : Shape := ⟨4, ![16, 3, 1024, 1024]⟩
abbrev S16x1x1024x1024 : Shape := ⟨4, ![16, 1, 1024, 1024]⟩
abbrev S5 : Shape := ⟨1, ![5]⟩
abbrev S8x8x16x5 : Shape := ⟨4, ![8, 8, 16, 5]⟩
abbrev S16x3x128x128 : Shape := ⟨4, ![16, 3, 128, 128]⟩
abbrev S16x1x128x128 : Shape := ⟨4, ![16, 1, 128, 128]⟩
abbrev S1x1x16x5 : Shape := ⟨4, ![1, 1, 16, 5]⟩
abbrev S16x128x128 : Shape := ⟨3, ![16, 128, 128]⟩
abbrev S16x128x64x2 : Shape := ⟨4, ![16, 128, 64, 2]⟩
abbrev S16x128x64 : Shape := ⟨3, ![16, 128, 64]⟩
abbrev S16x64x2x64 : Shape := ⟨4, ![16, 64, 2, 64]⟩
abbrev S16x64x64 : Shape := ⟨3, ![16, 64, 64]⟩
abbrev S16x64 : Shape := ⟨2, ![16, 64]⟩
abbrev S16 : Shape := ⟨1, ![16]⟩
abbrev S16x64x32x2 : Shape := ⟨4, ![16, 64, 32, 2]⟩
abbrev S16x64x32 : Shape := ⟨3, ![16, 64, 32]⟩
abbrev S16x32x2x32 : Shape := ⟨4, ![16, 32, 2, 32]⟩
abbrev S16x32x32 : Shape := ⟨3, ![16, 32, 32]⟩
abbrev S16x32 : Shape := ⟨2, ![16, 32]⟩
abbrev S16x32x16x2 : Shape := ⟨4, ![16, 32, 16, 2]⟩
abbrev S16x32x16 : Shape := ⟨3, ![16, 32, 16]⟩
abbrev S16x16x2x16 : Shape := ⟨4, ![16, 16, 2, 16]⟩
abbrev S16x16x16 : Shape := ⟨3, ![16, 16, 16]⟩
abbrev S16x16 : Shape := ⟨2, ![16, 16]⟩
abbrev S16x16x8x2 : Shape := ⟨4, ![16, 16, 8, 2]⟩
abbrev S16x16x8 : Shape := ⟨3, ![16, 16, 8]⟩
abbrev S16x8x2x8 : Shape := ⟨4, ![16, 8, 2, 8]⟩
abbrev S16x8x8 : Shape := ⟨3, ![16, 8, 8]⟩
abbrev S16x8 : Shape := ⟨2, ![16, 8]⟩
abbrev S16x8x4x2 : Shape := ⟨4, ![16, 8, 4, 2]⟩
abbrev S16x8x4 : Shape := ⟨3, ![16, 8, 4]⟩
abbrev S16x4x2x4 : Shape := ⟨4, ![16, 4, 2, 4]⟩
abbrev S16x4x4 : Shape := ⟨3, ![16, 4, 4]⟩
abbrev S16x4 : Shape := ⟨2, ![16, 4]⟩
abbrev S16x1 : Shape := ⟨2, ![16, 1]⟩
abbrev S16x5 : Shape := ⟨2, ![16, 5]⟩
abbrev S_ : Shape := ⟨0, ![]⟩
abbrev S1x5 : Shape := ⟨2, ![1, 5]⟩

abbrev nBuf : Space → Nat
  | .hbm => 77
  | .vmem => 10
  | .smem => 0
  | _ => 0

abbrev bufTy : (tb : Table) → Fin (tcTables nBuf tb) → BufTy
  | .hbm, ⟨0, _⟩ => ⟨S16x3x1024x1024, .f32⟩
  | .hbm, ⟨1, _⟩ => ⟨S16x3x1024x1024, .f32⟩
  | .hbm, ⟨2, _⟩ => ⟨S16x1x1024x1024, .f32⟩
  | .hbm, ⟨3, _⟩ => ⟨S5, .f32⟩
  | .hbm, ⟨4, _⟩ => ⟨S5, .f32⟩
  | .hbm, ⟨5, _⟩ => ⟨S8x8x16x5, .f32⟩
  | .hbm, ⟨6, _⟩ => ⟨S8x8x16x5, .f32⟩
  | .hbm, ⟨7, _⟩ => ⟨S_, .f32⟩
  | .hbm, ⟨8, _⟩ => ⟨S16x5, .f32⟩
  | .hbm, ⟨9, _⟩ => ⟨S_, .f32⟩
  | .hbm, ⟨10, _⟩ => ⟨S16x5, .f32⟩
  | .hbm, ⟨11, _⟩ => ⟨S5, .f32⟩
  | .hbm, ⟨12, _⟩ => ⟨S_, .f32⟩
  | .hbm, ⟨13, _⟩ => ⟨S16x5, .f32⟩
  | .hbm, ⟨14, _⟩ => ⟨S16x5, .f32⟩
  | .hbm, ⟨15, _⟩ => ⟨S16x5, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16, .f32⟩
  | .hbm, ⟨22, _⟩ => ⟨S16x1, .f32⟩
  | .hbm, ⟨23, _⟩ => ⟨S_, .f32⟩
  | .hbm, ⟨24, _⟩ => ⟨S16x1, .f32⟩
  | .hbm, ⟨25, _⟩ => ⟨S16x1, .f32⟩
  | .hbm, ⟨26, _⟩ => ⟨S5, .f32⟩
  | .hbm, ⟨27, _⟩ => ⟨S5, .f32⟩
  | .hbm, ⟨28, _⟩ => ⟨S16x5, .f32⟩
  | .hbm, ⟨29, _⟩ => ⟨S16x5, .f32⟩
  | .hbm, ⟨30, _⟩ => ⟨S1x5, .f32⟩
  | .hbm, ⟨31, _⟩ => ⟨S16x5, .f32⟩
  | .hbm, ⟨32, _⟩ => ⟨S16x5, .f32⟩
  | .hbm, ⟨33, _⟩ => ⟨S_, .f32⟩
  | .hbm, ⟨34, _⟩ => ⟨S16, .f32⟩
  | .hbm, ⟨35, _⟩ => ⟨S5, .f32⟩
  | .hbm, ⟨36, _⟩ => ⟨S_, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S16, .f32⟩
  | .hbm, ⟨41, _⟩ => ⟨S5, .f32⟩
  | .hbm, ⟨42, _⟩ => ⟨S_, .f32⟩
  | .hbm, ⟨43, _⟩ => ⟨S16x5, .f32⟩
  | .hbm, ⟨44, _⟩ => ⟨S16x5, .f32⟩
  | .hbm, ⟨45, _⟩ => ⟨S16x5, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S16, .f32⟩
  | .hbm, ⟨52, _⟩ => ⟨S16x1, .f32⟩
  | .hbm, ⟨53, _⟩ => ⟨S_, .f32⟩
  | .hbm, ⟨54, _⟩ => ⟨S16x1, .f32⟩
  | .hbm, ⟨55, _⟩ => ⟨S16x1, .f32⟩
  | .hbm, ⟨56, _⟩ => ⟨S5, .f32⟩
  | .hbm, ⟨57, _⟩ => ⟨S5, .f32⟩
  | .hbm, ⟨58, _⟩ => ⟨S16x5, .f32⟩
  | .hbm, ⟨59, _⟩ => ⟨S16x5, .f32⟩
  | .hbm, ⟨60, _⟩ => ⟨S1x5, .f32⟩
  | .hbm, ⟨61, _⟩ => ⟨S16x5, .f32⟩
  | .hbm, ⟨62, _⟩ => ⟨S16x5, .f32⟩
  | .hbm, ⟨63, _⟩ => ⟨S_, .f32⟩
  | .hbm, ⟨64, _⟩ => ⟨S16, .f32⟩
  | .hbm, ⟨65, _⟩ => ⟨S5, .f32⟩
  | .hbm, ⟨66, _⟩ => ⟨S_, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S16, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .local _ .vmem, ⟨0, _⟩ => ⟨S16x3x128x128, .f32⟩
  | .local _ .vmem, ⟨1, _⟩ => ⟨S16x3x128x128, .f32⟩
  | .local _ .vmem, ⟨2, _⟩ => ⟨S16x3x128x128, .f32⟩
  | .local _ .vmem, ⟨3, _⟩ => ⟨S16x3x128x128, .f32⟩
  | .local _ .vmem, ⟨4, _⟩ => ⟨S16x1x128x128, .f32⟩
  | .local _ .vmem, ⟨5, _⟩ => ⟨S16x1x128x128, .f32⟩
  | .local _ .vmem, ⟨6, _⟩ => ⟨S1x1x16x5, .f32⟩
  | .local _ .vmem, ⟨7, _⟩ => ⟨S1x1x16x5, .f32⟩
  | .local _ .vmem, ⟨8, _⟩ => ⟨S1x1x16x5, .f32⟩
  | .local _ .vmem, ⟨9, _⟩ => ⟨S1x1x16x5, .f32⟩
  | _, _ => ⟨S16x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0_0 : Ref sig .tc := ⟨.hbm, 5, rfl⟩
abbrev main_v0_1 : Ref sig .tc := ⟨.hbm, 6, rfl⟩
abbrev main_cst_1 : Ref sig .tc := ⟨.hbm, 7, rfl⟩
abbrev main_v1 : Ref sig .tc := ⟨.hbm, 8, rfl⟩
abbrev main_cst_2 : Ref sig .tc := ⟨.hbm, 9, rfl⟩
abbrev main_v2 : Ref sig .tc := ⟨.hbm, 10, rfl⟩
abbrev main_v3 : Ref sig .tc := ⟨.hbm, 11, rfl⟩
abbrev main_cst_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_cst_5 : Ref sig .tc := ⟨.hbm, 18, rfl⟩
abbrev main_v8 : Ref sig .tc := ⟨.hbm, 19, rfl⟩
abbrev main_cst_6 : Ref sig .tc := ⟨.hbm, 20, rfl⟩
abbrev main_v9 : Ref sig .tc := ⟨.hbm, 21, rfl⟩
abbrev main_v10 : Ref sig .tc := ⟨.hbm, 22, rfl⟩
abbrev main_cst_7 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_cst_9 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_11 : Ref sig .tc := ⟨.hbm, 46, rfl⟩
abbrev main_v30 : Ref sig .tc := ⟨.hbm, 47, rfl⟩
abbrev main_cst_12 : Ref sig .tc := ⟨.hbm, 48, rfl⟩
abbrev main_v31 : Ref sig .tc := ⟨.hbm, 49, rfl⟩
abbrev main_cst_13 : Ref sig .tc := ⟨.hbm, 50, rfl⟩
abbrev main_v32 : Ref sig .tc := ⟨.hbm, 51, rfl⟩
abbrev main_v33 : Ref sig .tc := ⟨.hbm, 52, rfl⟩
abbrev main_cst_14 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_15 : Ref sig .tc := ⟨.hbm, 63, rfl⟩
abbrev main_v43 : Ref sig .tc := ⟨.hbm, 64, rfl⟩
abbrev main_v44 : Ref sig .tc := ⟨.hbm, 65, rfl⟩
abbrev main_cst_16 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_17 : Ref sig .tc := ⟨.hbm, 73, rfl⟩
abbrev main_v51 : Ref sig .tc := ⟨.hbm, 74, rfl⟩
abbrev main_cst_18 : Ref sig .tc := ⟨.hbm, 75, rfl⟩
abbrev main_v52 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x3x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x3x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S16x3x128x128_S16x3x128x128_0_0_0_0 : ∀ a, (![0, 0, 0, 0] : Fin 4 → Nat) a + S16x3x128x128.size a ≤ S16x3x128x128.size a
  h_S16x3x128x128 : 0 < S16x3x128x128.numel
  inb_S16x1x128x128_S16x1x128x128_0_0_0_0 : ∀ a, (![0, 0, 0, 0] : Fin 4 → Nat) a + S16x1x128x128.size a ≤ S16x1x128x128.size a
  h_S16x1x128x128 : 0 < S16x1x128x128.numel
  shapeCasts_S16x1x128x128_S16x128x128 : S16x1x128x128.ShapeCasts S16x128x128
  reduces_S16x3x128x128_S16x128x128 : S16x3x128x128.Reduces [1] S16x128x128
  natLt_1_32 : 1 < 32
  shapeCasts_S16x128x128_S16x128x64x2 : S16x128x128.ShapeCasts S16x128x64x2
  reduces_S16x128x64x2_S16x128x64 : S16x128x64x2.Reduces [3] S16x128x64
  shapeCasts_S16x128x64_S16x64x2x64 : S16x128x64.ShapeCasts S16x64x2x64
  reduces_S16x64x2x64_S16x64x64 : S16x64x2x64.Reduces [2] S16x64x64
  reduces_S16x64x64_S16x64 : S16x64x64.Reduces [2] S16x64
  reduces_S16x64_S16 : S16x64.Reduces [1] S16
  shapeCasts_S16x64x64_S16x64x32x2 : S16x64x64.ShapeCasts S16x64x32x2
  reduces_S16x64x32x2_S16x64x32 : S16x64x32x2.Reduces [3] S16x64x32
  shapeCasts_S16x64x32_S16x32x2x32 : S16x64x32.ShapeCasts S16x32x2x32
  reduces_S16x32x2x32_S16x32x32 : S16x32x2x32.Reduces [2] S16x32x32
  reduces_S16x32x32_S16x32 : S16x32x32.Reduces [2] S16x32
  reduces_S16x32_S16 : S16x32.Reduces [1] S16
  shapeCasts_S16x32x32_S16x32x16x2 : S16x32x32.ShapeCasts S16x32x16x2
  reduces_S16x32x16x2_S16x32x16 : S16x32x16x2.Reduces [3] S16x32x16
  shapeCasts_S16x32x16_S16x16x2x16 : S16x32x16.ShapeCasts S16x16x2x16
  reduces_S16x16x2x16_S16x16x16 : S16x16x2x16.Reduces [2] S16x16x16
  reduces_S16x16x16_S16x16 : S16x16x16.Reduces [2] S16x16
  reduces_S16x16_S16 : S16x16.Reduces [1] S16
  shapeCasts_S16x16x16_S16x16x8x2 : S16x16x16.ShapeCasts S16x16x8x2
  reduces_S16x16x8x2_S16x16x8 : S16x16x8x2.Reduces [3] S16x16x8
  shapeCasts_S16x16x8_S16x8x2x8 : S16x16x8.ShapeCasts S16x8x2x8
  reduces_S16x8x2x8_S16x8x8 : S16x8x2x8.Reduces [2] S16x8x8
  reduces_S16x8x8_S16x8 : S16x8x8.Reduces [2] S16x8
  reduces_S16x8_S16 : S16x8.Reduces [1] S16
  shapeCasts_S16x8x8_S16x8x4x2 : S16x8x8.ShapeCasts S16x8x4x2
  reduces_S16x8x4x2_S16x8x4 : S16x8x4x2.Reduces [3] S16x8x4
  shapeCasts_S16x8x4_S16x4x2x4 : S16x8x4.ShapeCasts S16x4x2x4
  reduces_S16x4x2x4_S16x4x4 : S16x4x2x4.Reduces [2] S16x4x4
  reduces_S16x4x4_S16x4 : S16x4x4.Reduces [2] S16x4
  reduces_S16x4_S16 : S16x4.Reduces [1] S16
  shapeCasts_S16_S16x1 : S16.ShapeCasts S16x1
  concatenates_S16x1_S16x1_S16x1_S16x1_S16x1_S16x5_d1 : Shape.Concatenates [S16x1, S16x1, S16x1, S16x1, S16x1] S16x5 1
  shapeCasts_S16x5_S1x1x16x5 : S16x5.ShapeCasts S1x1x16x5
  inb_S1x1x16x5_S1x1x16x5_0_0_0_0 : ∀ a, (![0, 0, 0, 0] : Fin 4 → Nat) a + S1x1x16x5.size a ≤ S1x1x16x5.size a
  h_S1x1x16x5 : 0 < S1x1x16x5.numel
  reducesTo_S8x8x16x5_S16x5_d0_1 : S8x8x16x5.ReducesTo [0, 1] S16x5
  h_S_ : 0 < S_.numel
  bcast_S_S16x5 : S_.BroadcastsInDim S16x5 (![] : Fin 0 → Fin S16x5.rank)
  reducesTo_S5_S_d0 : S5.ReducesTo [0] S_
  reducesTo_S16x5_S16_d1 : S16x5.ReducesTo [1] S16
  bcast_S16_S16x1_0 : S16.BroadcastsInDim S16x1 (![0] : Fin 1 → Fin S16x1.rank)
  bcast_S_S16x1 : S_.BroadcastsInDim S16x1 (![] : Fin 0 → Fin S16x1.rank)
  bcast_S_S5 : S_.BroadcastsInDim S5 (![] : Fin 0 → Fin S5.rank)
  bcast_S16x1_S16x5_0_1 : S16x1.BroadcastsInDim S16x5 (![0, 1] : Fin 2 → Fin S16x5.rank)
  bcast_S5_S1x5_1 : S5.BroadcastsInDim S1x5 (![1] : Fin 1 → Fin S1x5.rank)
  bcast_S1x5_S16x5_0_1 : S1x5.BroadcastsInDim S16x5 (![0, 1] : Fin 2 → Fin S16x5.rank)
  bcast_S_S16 : S_.BroadcastsInDim S16 (![] : Fin 0 → Fin S16.rank)
  reducesTo_S16_S_d0 : S16.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3x128x128.size a ≤ S16x3x1024x1024.size a
  hwx0_0 : ∀ i : grid0.Coords, EltTy.bits .f32 = 32 ∨ (Rect.block (s := S16x3x1024x1024) S16x3x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x3x128x128.size a ≤ S16x3x1024x1024.size a
  hwx0_1 : ∀ i : grid0.Coords, EltTy.bits .f32 = 32 ∨ (Rect.block (s := S16x3x1024x1024) S16x3x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1x128x128.size a ≤ S16x1x1024x1024.size a
  hwx0_2 : ∀ i : grid0.Coords, EltTy.bits .f32 = 32 ∨ (Rect.block (s := S16x1x1024x1024) S16x1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16x5.size a ≤ S8x8x16x5.size a
  hwx0_3 : ∀ i : grid0.Coords, EltTy.bits .f32 = 32 ∨ (Rect.block (s := S8x8x16x5) S1x1x16x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x16x5.size a ≤ S8x8x16x5.size a
  hwx0_4 : ∀ i : grid0.Coords, EltTy.bits .f32 = 32 ∨ (Rect.block (s := S8x8x16x5) S1x1x16x5.size (cc0_transform_4 i) (hinb0_4 i)).WholeWords (EltTy.packing .f32)

variable [Facts₀]

abbrev win0_0 : Pipeline.Window sig grid0 :=
  Pipeline.Window.ofSpec (Memref.whole main_arg0) S16x3x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x3x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x16x5.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x16x5.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x3x1024x1024 : Shape := ⟨4, ![16, 3, 1024, 1024]⟩
abbrev S16x1x1024x1024 : Shape := ⟨4, ![16, 1, 1024, 1024]⟩
abbrev S5 : Shape := ⟨1, ![5]⟩
abbrev S16x1024x1024 : Shape := ⟨3, ![16, 1024, 1024]⟩
abbrev S_ : Shape := ⟨0, ![]⟩
abbrev S16x512x2x512x2 : Shape := ⟨5, ![16, 512, 2, 512, 2]⟩
abbrev S16x512x512 : Shape := ⟨3, ![16, 512, 512]⟩
abbrev S16 : Shape := ⟨1, ![16]⟩
abbrev S16x256x2x256x2 : Shape := ⟨5, ![16, 256, 2, 256, 2]⟩
abbrev S16x256x256 : Shape := ⟨3, ![16, 256, 256]⟩
abbrev S16x128x2x128x2 : Shape := ⟨5, ![16, 128, 2, 128, 2]⟩
abbrev S16x128x128 : Shape := ⟨3, ![16, 128, 128]⟩
abbrev S16x64x2x64x2 : Shape := ⟨5, ![16, 64, 2, 64, 2]⟩
abbrev S16x64x64 : Shape := ⟨3, ![16, 64, 64]⟩
abbrev S16x32x2x32x2 : Shape := ⟨5, ![16, 32, 2, 32, 2]⟩
abbrev S16x32x32 : Shape := ⟨3, ![16, 32, 32]⟩
abbrev S16x1 : Shape := ⟨2, ![16, 1]⟩
abbrev S16x5 : Shape := ⟨2, ![16, 5]⟩
abbrev S1x5 : Shape := ⟨2, ![1, 5]⟩

abbrev nBuf : Space → Nat
  | .hbm => 154
  | .vmem => 0
  | .smem => 0
  | _ => 0

abbrev hbmTy0_0 (i : Nat) : BufTy := match i % 128 with
  | 0 => ⟨S16x3x1024x1024, .f32⟩
  | 1 => ⟨S16x3x1024x1024, .f32⟩
  | 2 => ⟨S16x1x1024x1024, .f32⟩
  | 3 => ⟨S5, .f32⟩
  | 4 => ⟨S5, .f32⟩
  | 5 => ⟨S16x1024x1024, .f32⟩
  | 6 => ⟨S_, .f32⟩
  | 7 => ⟨S16x1024x1024, .f32⟩
  | 8 => ⟨S_, .f32⟩
  | 9 => ⟨S16x1024x1024, .f32⟩
  | 10 => ⟨S16x1024x1024, .f32⟩
  | 11 => ⟨S16x1024x1024, .f32⟩
  | 12 => ⟨S_, .f32⟩
  | 13 => ⟨S16x1024x1024, .f32⟩
  | 14 => ⟨S_, .f32⟩
  | 15 => ⟨S16x1024x1024, .f32⟩
  | 16 => ⟨S16x1024x1024, .f32⟩
  | 17 => ⟨S16x1024x1024, .f32⟩
  | 18 => ⟨S_, .f32⟩
  | 19 => ⟨S16x1024x1024, .f32⟩
  | 20 => ⟨S16x1024x1024, .i1⟩
  | 21 => ⟨S16x1024x1024, .f32⟩
  | 22 => ⟨S16x512x2x512x2, .f32⟩
  | 23 => ⟨S_, .f32⟩
  | 24 => ⟨S16x512x512, .f32⟩
  | 25 => ⟨S_, .f32⟩
  | 26 => ⟨S16, .f32⟩
  | 27 => ⟨S16x256x2x256x2, .f32⟩
  | 28 => ⟨S_, .f32⟩
  | 29 => ⟨S16x256x256, .f32⟩
  | 30 => ⟨S_, .f32⟩
  | 31 => ⟨S16, .f32⟩
  | 32 => ⟨S16x128x2x128x2, .f32⟩
  | 33 => ⟨S_, .f32⟩
  | 34 => ⟨S16x128x128, .f32⟩
  | 35 => ⟨S_, .f32⟩
  | 36 => ⟨S16, .f32⟩
  | 37 => ⟨S16x64x2x64x2, .f32⟩
  | 38 => ⟨S_, .f32⟩
  | 39 => ⟨S16x64x64, .f32⟩
  | 40 => ⟨S_, .f32⟩
  | 41 => ⟨S16, .f32⟩
  | 42 => ⟨S16x32x2x32x2, .f32⟩
  | 43 => ⟨S_, .f32⟩
  | 44 => ⟨S16x32x32, .f32⟩
  | 45 => ⟨S_, .f32⟩
  | 46 => ⟨S16, .f32⟩
  | 47 => ⟨S16x1, .f32⟩
  | 48 => ⟨S16x1, .f32⟩
  | 49 => ⟨S16x1, .f32⟩
  | 50 => ⟨S16x1, .f32⟩
  | 51 => ⟨S16x1, .f32⟩
  | 52 => ⟨S16x5, .f32⟩
  | 53 => ⟨S5, .f32⟩
  | 54 => ⟨S_, .f32⟩
  | 55 => ⟨S16x5, .f32⟩
  | 56 => ⟨S16x5, .f32⟩
  | 57 => ⟨S16x5, .f32⟩
  | 58 => ⟨S_, .f32⟩
  | 59 => ⟨S_, .f32⟩
  | 60 => ⟨S_, .f32⟩
  | 61 => ⟨S_, .f32⟩
  | 62 => ⟨S_, .f32⟩
  | 63 => ⟨S16, .f32⟩
  | 64 => ⟨S16x1, .f32⟩
  | 65 => ⟨S_, .f32⟩
  | 66 => ⟨S16x1, .f32⟩
  | 67 => ⟨S16x1, .f32⟩
  | 68 => ⟨S5, .f32⟩
  | 69 => ⟨S5, .f32⟩
  | 70 => ⟨S16x5, .f32⟩
  | 71 => ⟨S16x5, .f32⟩
  | 72 => ⟨S1x5, .f32⟩
  | 73 => ⟨S16x5, .f32⟩
  | 74 => ⟨S16x5, .f32⟩
  | 75 => ⟨S_, .f32⟩
  | 76 => ⟨S16, .f32⟩
  | 77 => ⟨S5, .f32⟩
  | 78 => ⟨S_, .f32⟩
  | 79 => ⟨S_, .f32⟩
  | 80 => ⟨S16, .f32⟩
  | 81 => ⟨S16, .f32⟩
  | 82 => ⟨S16, .f32⟩
  | 83 => ⟨S_, .f32⟩
  | 84 => ⟨S16x1024x1024, .f32⟩
  | 85 => ⟨S16x1024x1024, .i1⟩
  | 86 => ⟨S16x1024x1024, .f32⟩
  | 87 => ⟨S16x512x2x512x2, .f32⟩
  | 88 => ⟨S_, .f32⟩
  | 89 => ⟨S16x512x512, .f32⟩
  | 90 => ⟨S_, .f32⟩
  | 91 => ⟨S16, .f32⟩
  | 92 => ⟨S16x256x2x256x2, .f32⟩
  | 93 => ⟨S_, .f32⟩
  | 94 => ⟨S16x256x256, .f32⟩
  | 95 => ⟨S_, .f32⟩
  | 96 => ⟨S16, .f32⟩
  | 97 => ⟨S16x128x2x128x2, .f32⟩
  | 98 => ⟨S_, .f32⟩
  | 99 => ⟨S16x128x128, .f32⟩
  | 100 => ⟨S_, .f32⟩
  | 101 => ⟨S16, .f32⟩
  | 102 => ⟨S16x64x2x64x2, .f32⟩
  | 103 => ⟨S_, .f32⟩
  | 104 => ⟨S16x64x64, .f32⟩
  | 105 => ⟨S_, .f32⟩
  | 106 => ⟨S16, .f32⟩
  | 107 => ⟨S16x32x2x32x2, .f32⟩
  | 108 => ⟨S_, .f32⟩
  | 109 => ⟨S16x32x32, .f32⟩
  | 110 => ⟨S_, .f32⟩
  | 111 => ⟨S16, .f32⟩
  | 112 => ⟨S16x1, .f32⟩
  | 113 => ⟨S16x1, .f32⟩
  | 114 => ⟨S16x1, .f32⟩
  | 115 => ⟨S16x1, .f32⟩
  | 116 => ⟨S16x1, .f32⟩
  | 117 => ⟨S16x5, .f32⟩
  | 118 => ⟨S5, .f32⟩
  | 119 => ⟨S_, .f32⟩
  | 120 => ⟨S16x5, .f32⟩
  | 121 => ⟨S16x5, .f32⟩
  | 122 => ⟨S16x5, .f32⟩
  | 123 => ⟨S_, .f32⟩
  | 124 => ⟨S_, .f32⟩
  | 125 => ⟨S_, .f32⟩
  | 126 => ⟨S_, .f32⟩
  | 127 => ⟨S_, .f32⟩
  | _ => ⟨S16x3x1024x1024, .f32⟩

abbrev hbmTy0_1 (i : Nat) : BufTy := match i % 128 with
  | 0 => ⟨S16, .f32⟩
  | 1 => ⟨S16x1, .f32⟩
  | 2 => ⟨S_, .f32⟩
  | 3 => ⟨S16x1, .f32⟩
  | 4 => ⟨S16x1, .f32⟩
  | 5 => ⟨S5, .f32⟩
  | 6 => ⟨S5, .f32⟩
  | 7 => ⟨S16x5, .f32⟩
  | 8 => ⟨S16x5, .f32⟩
  | 9 => ⟨S1x5, .f32⟩
  | 10 => ⟨S16x5, .f32⟩
  | 11 => ⟨S16x5, .f32⟩
  | 12 => ⟨S_, .f32⟩
  | 13 => ⟨S16, .f32⟩
  | 14 => ⟨S5, .f32⟩
  | 15 => ⟨S_, .f32⟩
  | 16 => ⟨S_, .f32⟩
  | 17 => ⟨S16, .f32⟩
  | 18 => ⟨S16, .f32⟩
  | 19 => ⟨S16, .f32⟩
  | 20 => ⟨S16, .f32⟩
  | 21 => ⟨S16, .f32⟩
  | 22 => ⟨S_, .f32⟩
  | 23 => ⟨S_, .f32⟩
  | 24 => ⟨S_, .f32⟩
  | 25 => ⟨S_, .f32⟩
  | _ => ⟨S16x3x1024x1024, .f32⟩

abbrev hbmTy (i : Nat) : BufTy := match i / 128 with
  | 0 => hbmTy0_0 i
  | 1 => hbmTy0_1 i
  | _ => ⟨S16x3x1024x1024, .f32⟩

abbrev bufTy : (tb : Table) → Fin (tcTables nBuf tb) → BufTy
  | .hbm, ⟨i, _⟩ => hbmTy i
  | _, _ => ⟨S16x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_cst_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_cst_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_6 : Ref sig .tc := ⟨.hbm, 23, rfl⟩
abbrev main_v13 : Ref sig .tc := ⟨.hbm, 24, rfl⟩
abbrev main_cst_7 : Ref sig .tc := ⟨.hbm, 25, rfl⟩
abbrev main_v14 : Ref sig .tc := ⟨.hbm, 26, rfl⟩
abbrev main_v15 : Ref sig .tc := ⟨.hbm, 27, rfl⟩
abbrev main_cst_8 : Ref sig .tc := ⟨.hbm, 28, rfl⟩
abbrev main_v16 : Ref sig .tc := ⟨.hbm, 29, rfl⟩
abbrev main_cst_9 : Ref sig .tc := ⟨.hbm, 30, rfl⟩
abbrev main_v17 : Ref sig .tc := ⟨.hbm, 31, rfl⟩
abbrev main_v18 : Ref sig .tc := ⟨.hbm, 32, rfl⟩
abbrev main_cst_10 : Ref sig .tc := ⟨.hbm, 33, rfl⟩
abbrev main_v19 : Ref sig .tc := ⟨.hbm, 34, rfl⟩
abbrev main_cst_11 : Ref sig .tc := ⟨.hbm, 35, rfl⟩
abbrev main_v20 : Ref sig .tc := ⟨.hbm, 36, rfl⟩
abbrev main_v21 : Ref sig .tc := ⟨.hbm, 37, rfl⟩
abbrev main_cst_12 : Ref sig .tc := ⟨.hbm, 38, rfl⟩
abbrev main_v22 : Ref sig .tc := ⟨.hbm, 39, rfl⟩
abbrev main_cst_13 : Ref sig .tc := ⟨.hbm, 40, rfl⟩
abbrev main_v23 : Ref sig .tc := ⟨.hbm, 41, rfl⟩
abbrev main_v24 : Ref sig .tc := ⟨.hbm, 42, rfl⟩
abbrev main_cst_14 : Ref sig .tc := ⟨.hbm, 43, rfl⟩
abbrev main_v25 : Ref sig .tc := ⟨.hbm, 44, rfl⟩
abbrev main_cst_15 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_16 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_17 : Ref sig .tc := ⟨.hbm, 58, rfl⟩
abbrev main_v37 : Ref sig .tc := ⟨.hbm, 59, rfl⟩
abbrev main_cst_18 : Ref sig .tc := ⟨.hbm, 60, rfl⟩
abbrev main_v38 : Ref sig .tc := ⟨.hbm, 61, rfl⟩
abbrev main_cst_19 : Ref sig .tc := ⟨.hbm, 62, rfl⟩
abbrev main_v39 : Ref sig .tc := ⟨.hbm, 63, rfl⟩
abbrev main_v40 : Ref sig .tc := ⟨.hbm, 64, rfl⟩
abbrev main_cst_20 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_21 : Ref sig .tc := ⟨.hbm, 75, rfl⟩
abbrev main_v50 : Ref sig .tc := ⟨.hbm, 76, rfl⟩
abbrev main_v51 : Ref sig .tc := ⟨.hbm, 77, rfl⟩
abbrev main_cst_22 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_23 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_24 : Ref sig .tc := ⟨.hbm, 88, rfl⟩
abbrev main_v60 : Ref sig .tc := ⟨.hbm, 89, rfl⟩
abbrev main_cst_25 : Ref sig .tc := ⟨.hbm, 90, rfl⟩
abbrev main_v61 : Ref sig .tc := ⟨.hbm, 91, rfl⟩
abbrev main_v62 : Ref sig .tc := ⟨.hbm, 92, rfl⟩
abbrev main_cst_26 : Ref sig .tc := ⟨.hbm, 93, rfl⟩
abbrev main_v63 : Ref sig .tc := ⟨.hbm, 94, rfl⟩
abbrev main_cst_27 : Ref sig .tc := ⟨.hbm, 95, rfl⟩
abbrev main_v64 : Ref sig .tc := ⟨.hbm, 96, rfl⟩
abbrev main_v65 : Ref sig .tc := ⟨.hbm, 97, rfl⟩
abbrev main_cst_28 : Ref sig .tc := ⟨.hbm, 98, rfl⟩
abbrev main_v66 : Ref sig .tc := ⟨.hbm, 99, rfl⟩
abbrev main_cst_29 : Ref sig .tc := ⟨.hbm, 100, rfl⟩
abbrev main_v67 : Ref sig .tc := ⟨.hbm, 101, rfl⟩
abbrev main_v68 : Ref sig .tc := ⟨.hbm, 102, rfl⟩
abbrev main_cst_30 : Ref sig .tc := ⟨.hbm, 103, rfl⟩
abbrev main_v69 : Ref sig .tc := ⟨.hbm, 104, rfl⟩
abbrev main_cst_31 : Ref sig .tc := ⟨.hbm, 105, rfl⟩
abbrev main_v70 : Ref sig .tc := ⟨.hbm, 106, rfl⟩
abbrev main_v71 : Ref sig .tc := ⟨.hbm, 107, rfl⟩
abbrev main_cst_32 : Ref sig .tc := ⟨.hbm, 108, rfl⟩
abbrev main_v72 : Ref sig .tc := ⟨.hbm, 109, rfl⟩
abbrev main_cst_33 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_34 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_35 : Ref sig .tc := ⟨.hbm, 123, rfl⟩
abbrev main_v84 : Ref sig .tc := ⟨.hbm, 124, rfl⟩
abbrev main_cst_36 : Ref sig .tc := ⟨.hbm, 125, rfl⟩
abbrev main_v85 : Ref sig .tc := ⟨.hbm, 126, rfl⟩
abbrev main_cst_37 : Ref sig .tc := ⟨.hbm, 127, rfl⟩
abbrev main_v86 : Ref sig .tc := ⟨.hbm, 128, rfl⟩
abbrev main_v87 : Ref sig .tc := ⟨.hbm, 129, rfl⟩
abbrev main_cst_38 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_39 : Ref sig .tc := ⟨.hbm, 140, rfl⟩
abbrev main_v97 : Ref sig .tc := ⟨.hbm, 141, rfl⟩
abbrev main_v98 : Ref sig .tc := ⟨.hbm, 142, rfl⟩
abbrev main_cst_40 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_41 : Ref sig .tc := ⟨.hbm, 150, rfl⟩
abbrev main_v105 : Ref sig .tc := ⟨.hbm, 151, rfl⟩
abbrev main_cst_42 : Ref sig .tc := ⟨.hbm, 152, rfl⟩
abbrev main_v106 : Ref sig .tc := ⟨.hbm, 153, rfl⟩

abbrev nD : Nat := 1
abbrev τ : Topo := Topo.v7x

variable {F : FTy → Type} [FloatOps F]

class Facts₀ : Prop where
  shapeCasts_S16x1x1024x1024_S16x1024x1024 : S16x1x1024x1024.ShapeCasts S16x1024x1024
  reducesTo_S16x3x1024x1024_S16x1024x1024_d1 : S16x3x1024x1024.ReducesTo [1] S16x1024x1024
  h_S_ : 0 < S_.numel
  bcast_S_S16x1024x1024 : S_.BroadcastsInDim S16x1024x1024 (![] : Fin 0 → Fin S16x1024x1024.rank)
  shapeCasts_S16x1024x1024_S16x512x2x512x2 : S16x1024x1024.ShapeCasts S16x512x2x512x2
  reducesTo_S16x512x2x512x2_S16x512x512_d2_4 : S16x512x2x512x2.ReducesTo [2, 4] S16x512x512
  reducesTo_S16x512x512_S16_d1_2 : S16x512x512.ReducesTo [1, 2] S16
  shapeCasts_S16x512x512_S16x256x2x256x2 : S16x512x512.ShapeCasts S16x256x2x256x2
  reducesTo_S16x256x2x256x2_S16x256x256_d2_4 : S16x256x2x256x2.ReducesTo [2, 4] S16x256x256
  reducesTo_S16x256x256_S16_d1_2 : S16x256x256.ReducesTo [1, 2] S16
  shapeCasts_S16x256x256_S16x128x2x128x2 : S16x256x256.ShapeCasts S16x128x2x128x2
  reducesTo_S16x128x2x128x2_S16x128x128_d2_4 : S16x128x2x128x2.ReducesTo [2, 4] S16x128x128
  reducesTo_S16x128x128_S16_d1_2 : S16x128x128.ReducesTo [1, 2] S16
  shapeCasts_S16x128x128_S16x64x2x64x2 : S16x128x128.ShapeCasts S16x64x2x64x2
  reducesTo_S16x64x2x64x2_S16x64x64_d2_4 : S16x64x2x64x2.ReducesTo [2, 4] S16x64x64
  reducesTo_S16x64x64_S16_d1_2 : S16x64x64.ReducesTo [1, 2] S16
  shapeCasts_S16x64x64_S16x32x2x32x2 : S16x64x64.ShapeCasts S16x32x2x32x2
  reducesTo_S16x32x2x32x2_S16x32x32_d2_4 : S16x32x2x32x2.ReducesTo [2, 4] S16x32x32
  reducesTo_S16x32x32_S16_d1_2 : S16x32x32.ReducesTo [1, 2] S16
  bcast_S16_S16x1_0 : S16.BroadcastsInDim S16x1 (![0] : Fin 1 → Fin S16x1.rank)
  concatenates_S16x1_S16x1_S16x1_S16x1_S16x1_S16x5_d1 : Shape.Concatenates [S16x1, S16x1, S16x1, S16x1, S16x1] S16x5 1
  bcast_S_S16x5 : S_.BroadcastsInDim S16x5 (![] : Fin 0 → Fin S16x5.rank)
  reducesTo_S5_S_d0 : S5.ReducesTo [0] S_
  reducesTo_S16x5_S16_d1 : S16x5.ReducesTo [1] S16
  bcast_S_S16x1 : S_.BroadcastsInDim S16x1 (![] : Fin 0 → Fin S16x1.rank)
  bcast_S_S5 : S_.BroadcastsInDim S5 (![] : Fin 0 → Fin S5.rank)
  bcast_S16x1_S16x5_0_1 : S16x1.BroadcastsInDim S16x5 (![0, 1] : Fin 2 → Fin S16x5.rank)
  bcast_S5_S1x5_1 : S5.BroadcastsInDim S1x5 (![1] : Fin 1 → Fin S1x5.rank)
  bcast_S1x5_S16x5_0_1 : S1x5.BroadcastsInDim S16x5 (![0, 1] : Fin 2 → Fin S16x5.rank)
  bcast_S_S16 : S_.BroadcastsInDim S16 (![] : Fin 0 → Fin S16.rank)
  reducesTo_S16_S_d0 : S16.ReducesTo [0] S_

variable [Facts₀]

class Facts : Prop extends Facts₀ where

variable [Facts]
-- ==== Proof.FrameKernel.lean ====
/-
  The frame run of `Kernel`: @main is two host operations, one pipelined region over an 8 x 8 grid, then seventy
  host operations. The region stages three input arrays and two output arrays, two buffers each. Its body reads the
  three input blocks whole, reads each output block (the value is dropped) and overwrites each output block whole.
  This module gives the contents of the arrays when the region is entered, the block of every window at a grid
  point, what the body leaves in the two output buffers as a function of the three input blocks, the body's triple,
  the proof data of the pipeline, and from the library's frame run the statement that the three argument arrays end
  as they started.
-/
import proofs.«150682_j40690520163157_2_alg».proof.Proof.Gen.Kernel.Launch
import proofs.«150682_j40690520163157_2_alg».proof.Proof.Gen.Kernel.Skeleton
import proofs.«150682_j40690520163157_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- terms over the list of seventy host operations exceed the default budget
set_option maxHeartbeats 40000000

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The buffers of core `c` once the two host operations before the region have run on the initial memory. -/
abbrev V0 (c : Dev nD) : Valuation τ sig (Elt F) := StableHlo.after (List.flatten [hostOps0]) (fun b => m (c, b))
/-- `V0` at a TensorCore reference. -/
abbrev V (c : Dev nD) (b : Ref sig .tc) : Buf (Elt F) ((c : Thread nD τ).loc b) := V0 m c (Proc.devRef .tc b)

/-- Neither stretch of host operations allocates a buffer. -/
theorem hostOps0_fresh : (hostOps0 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [List.Forall]; repeat' constructor

/-- @main is: the first stretch, the region, and then the second stretch as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Every operation after the region touches only unscoped TensorCore references; nothing being prefetched, each of those
    is an array of the pipeline or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp hostOps1_fresh) op hop

/-- No operation of a list writes reference `r`. -/
abbrev Spares (ops : List (HloOp τ sig (Elt F))) (r : Ref sig .tc) : Prop :=
  ops.Forall fun op => Proc.devRef .tc r ∉ op.writes

/-- Each operation writes exactly its own result buffer, and no result buffer of either stretch is one of the five arrays
    the region stages: the three arguments and the region's two results. -/
theorem spares0_arg0 : Spares (F := F) hostOps0 main_arg0 := by
  simp only [Spares, hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem spares0_arg1 : Spares (F := F) hostOps0 main_arg1 := by
  simp only [Spares, hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem spares0_arg2 : Spares (F := F) hostOps0 main_arg2 := by
  simp only [Spares, hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 40000000 in
theorem spares1_arg0 : Spares (F := F) hostOps1 main_arg0 := by
  simp only [Spares, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 40000000 in
theorem spares1_arg1 : Spares (F := F) hostOps1 main_arg1 := by
  simp only [Spares, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 40000000 in
theorem spares1_arg2 : Spares (F := F) hostOps1 main_arg2 := by
  simp only [Spares, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 40000000 in
theorem spares1_v0_0 : Spares (F := F) hostOps1 main_v0_0 := by
  simp only [Spares, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 40000000 in
theorem spares1_v0_1 : Spares (F := F) hostOps1 main_v0_1 := by
  simp only [Spares, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So the operations after the region write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := by simpa using hops
  fin_cases w
  · exact (List.forall_iff_forall_mem.mp spares1_arg0) op hop
  · exact (List.forall_iff_forall_mem.mp spares1_arg1) op hop
  · exact (List.forall_iff_forall_mem.mp spares1_arg2) op hop
  · exact (List.forall_iff_forall_mem.mp spares1_v0_0) op hop
  · exact (List.forall_iff_forall_mem.mp spares1_v0_1) op hop

/-- The region finds each argument array as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simpa only [List.flatten_cons, List.flatten_nil, List.append_nil] using spares0_arg0 (F := F)))
theorem V_main_arg1 (c : Dev nD) : V m c main_arg1 = m ((c : Thread nD τ).loc main_arg1) :=
  StableHlo.after_of_forall_not_mem (b := Proc.devRef .tc main_arg1) _ _ (List.forall_iff_forall_mem.mp (by
    simpa only [List.flatten_cons, List.flatten_nil, List.append_nil] using spares0_arg1 (F := F)))
theorem V_main_arg2 (c : Dev nD) : V m c main_arg2 = m ((c : Thread nD τ).loc main_arg2) :=
  StableHlo.after_of_forall_not_mem (b := Proc.devRef .tc main_arg2) _ _ (List.forall_iff_forall_mem.mp (by
    simpa only [List.flatten_cons, List.flatten_nil, List.append_nil] using spares0_arg2 (F := F)))

/-! ## The argument arrays at the end -/

/-- Each argument array is an INPUT window's array: the pipeline never writes it back, so in a final state of a frame run it
    holds what the proof data's array held at entry, which is what the region found, which is what was launched. -/
theorem args_kept (dats : (p : Fin 1) → (c : Dev nD) → Dat τ (Elt F) Unit ℕ (UR sig nD τ) ℕ (cfgs p) c)
    (hA : ∀ c w, (dats 0 c).A w = V m c (Pipeline.arrRef spec0 w))
    {V' : (c : Dev nD) → (b : Ref sig .tc) → Buf (Elt F) ((c.tc : Thread nD τ).loc b)} {r : PUnit × MemSt nD τ sig (Elt F)}
    (h : Pipeline.FramePost cfgs dats 0 V' r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats 0 c).arrAt_in 0 rfl _).trans ((hA c 0).trans (V_main_arg0 m c))),
   ((h c).1 1).trans (((dats 0 c).arrAt_in 1 rfl _).trans ((hA c 1).trans (V_main_arg1 m c))),
   ((h c).1 2).trans (((dats 0 c).arrAt_in 2 rfl _).trans ((hA c 2).trans (V_main_arg2 m c)))⟩

/-- The same, array by array, as equations on the proof data: after all 64 points the array of input window `k` is the launched
    argument `k`. -/
theorem W_main_arg0 (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrAt 0 (cfgs 0).N = m ((c.tc : Thread nD τ).loc main_arg0) :=
  ((dats 0 c).arrAt_in 0 rfl _).trans ((hA c 0).trans (V_main_arg0 m c))
theorem W_main_arg1 (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrAt 1 (cfgs 0).N = m ((c.tc : Thread nD τ).loc main_arg1) :=
  ((dats 0 c).arrAt_in 1 rfl _).trans ((hA c 1).trans (V_main_arg1 m c))
theorem W_main_arg2 (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrAt 2 (cfgs 0).N = m ((c.tc : Thread nD τ).loc main_arg2) :=
  ((dats 0 c).arrAt_in 2 rfl _).trans ((hA c 2).trans (V_main_arg2 m c))

/-- A frame run's post, read at the three argument arrays, is the frame claim's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => args_kept m dats hA h c) h

/-! ## The blocks -/

/-- The block of window `w` at grid point `t`, cut from the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The current staging buffer of an input window holds the window's block at every point, whether the point fetched it or
    an earlier one did: the window is never idle and never cut, and the body leaves the block where it is. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- The body's three loads and two stores each go through the rectangle that is the whole block. -/
abbrev rIn3 : Rect S16x3x128x128 := Rect.unit (s := S16x3x128x128) ![0, 0, 0, 0] S16x3x128x128.size inb_S16x3x128x128_S16x3x128x128_0_0_0_0
abbrev rIn1 : Rect S16x1x128x128 := Rect.unit (s := S16x1x128x128) ![0, 0, 0, 0] S16x1x128x128.size inb_S16x1x128x128_S16x1x128x128_0_0_0_0
abbrev rOut : Rect S1x1x16x5 := Rect.unit (s := S1x1x16x5) ![0, 0, 0, 0] S1x1x16x5.size inb_S1x1x16x5_S1x1x16x5_0_0_0_0

/-- What the body leaves in the first output buffer when the input buffers read `x0 x1 x2`: the one store's payload, over
    the values the first part computes from the loads of `x0` and `x2` and the second part from those. -/
def out0_3 (x0 : Vec F S16x3x128x128 .f32) (x1 : Vec F S16x3x128x128 .f32) (x2 : Vec F S16x1x128x128 .f32) : Vec F S1x1x16x5 .f32 :=
  View.canon [⟨rOut, k0_pay1 (k0_pay6 (View.ld x0 rIn3) (View.ld x2 rIn1))
    (k0_pay10 (k0_pay4 (View.ld x0 rIn3) (View.ld x2 rIn1))) (k0_pay14 (k0_pay4 (View.ld x0 rIn3) (View.ld x2 rIn1)))
    (k0_pay16 (k0_pay4 (View.ld x0 rIn3) (View.ld x2 rIn1))) (k0_pay18 (k0_pay4 (View.ld x0 rIn3) (View.ld x2 rIn1)))⟩]

/-- The second output buffer: the same over the loads of `x1` and `x2`. -/
def out0_4 (x0 : Vec F S16x3x128x128 .f32) (x1 : Vec F S16x3x128x128 .f32) (x2 : Vec F S16x1x128x128 .f32) : Vec F S1x1x16x5 .f32 :=
  View.canon [⟨rOut, k0_pay2 (k0_pay7 (View.ld x1 rIn3) (View.ld x2 rIn1))
    (k0_pay11 (k0_pay5 (View.ld x1 rIn3) (View.ld x2 rIn1))) (k0_pay15 (k0_pay5 (View.ld x1 rIn3) (View.ld x2 rIn1)))
    (k0_pay17 (k0_pay5 (View.ld x1 rIn3) (View.ld x2 rIn1))) (k0_pay19 (k0_pay5 (View.ld x1 rIn3) (View.ld x2 rIn1)))⟩]

/-- One store through the whole-block rectangle covers the 1 x 1 x 16 x 5 buffer. -/
theorem cover_out (p0 : Vec F S1x1x16x5 .f32) (y : S1x1x16x5.Idx) :
    ∃ pc ∈ ([⟨rOut, p0⟩] : List (View.Piece (Elt F) S1x1x16x5 .f32)), y ∈ pc.1.set :=
  View.cover_of_tiled [⟨rOut, p0⟩] S1x1x16x5.size (by rfl) y

/-! ## The body's triple -/

set_option maxHeartbeats 4000000 in
/-- The body on five whole staging buffers — the inputs reading `x0 x1 x2`, the outputs holding anything — runs to a state
    with the inputs untouched and the outputs at `out0_3 x0 x1 x2` and `out0_4 x0 x1 x2`: three loads, then for each output a load whose value is
    dropped and a store that covers the block. -/
theorem sound_kernel (c : Dev nD) (E : Set ℕ) (i : grid0.Coords)
    (arg2 : Memref sig .tc .vmem S16x3x128x128 .f32) (harg2 : arg2.IsWhole) (arg3 : Memref sig .tc .vmem S16x3x128x128 .f32) (harg3 : arg3.IsWhole)
    (arg4 : Memref sig .tc .vmem S16x1x128x128 .f32) (harg4 : arg4.IsWhole) (arg5 : Memref sig .tc .vmem S1x1x16x5 .f32) (harg5 : arg5.IsWhole)
    (arg6 : Memref sig .tc .vmem S1x1x16x5 .f32) (harg6 : arg6.IsWhole)
    (x0 : Vec F S16x3x128x128 .f32) (x1 : Vec F S16x3x128x128 .f32) (x2 : Vec F S16x1x128x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)) -∗ K ⟨⟩))
      ⊢ wp frame (wpE (defs₀ (F := F)) Variants.none c none) E (cc0__fractal_count_kernel i arg2 harg2 arg3 harg3 arg4 harg4 arg5 harg5 arg6 harg6) K := by
  simp only [cc0__fractal_count_kernel_eq_skeleton]; unfold cc0__fractal_count_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_out _)
  iexists _; isplitr
  swap; · iexact H4
  ipureintro
  exact View.read_writes_eq_canon _ _ _ (cover_out _)

/-! ## The pipeline's proof data -/

/-- On core `c`: the five arrays as the region finds them; after the body at point `t` an input's buffer still at its block and
    an output's at `out0_3` / `out0_4` of the three input blocks; the invariant is the library's for a body with nothing of its own
    (the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 0 t) (iblk m c 1 t) (iblk m c 2 t)
  Φ _ := Pipeline.ΦA spec0 c
  q _ := fullShare
  owed _ := 0

/-- The proof data's arrays are the region-entry contents (the structure projected; the host prefix is not unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]
theorem after0_4 (c : Dev nD) (t : Fin cfg0.N) :
    (dats m 0 c).after 4 t = out0_4 (iblk m c 0 t) (iblk m c 1 t) (iblk m c 2 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is handed at point `t`: the invariant, what the core owes, and the five current staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the input buffers hold their blocks, so the body's triple applies with those as `x0 x1 x2`; the invariant and
    the owed amount are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values and any initial memory with zero counters, every weakly fair execution of @main on the TensorCores
    terminates, and in every final state each array of the pipeline holds what the library computes from the proof data and
    every other unscoped buffer what the seventy operations after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of `Kernel`, at any float instance: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.FrameKernelIdeal.lean ====
/-
  The frame run of `KernelIdeal`: @main is two host operations, one pipelined region over an 8 x 8 grid, then seventy
  host operations. The region stages three input arrays and two output arrays, two buffers each. Its body reads the
  three input blocks whole, reads each output block (the value is dropped) and overwrites each output block whole.
  This module gives the contents of the arrays when the region is entered, the block of every window at a grid
  point, what the body leaves in the two output buffers as a function of the three input blocks, the body's triple,
  the proof data of the pipeline, and from the library's frame run the statement that the three argument arrays end
  as they started.
-/
import proofs.«150682_j40690520163157_2_alg».proof.Proof.Gen.KernelIdeal.Launch
import proofs.«150682_j40690520163157_2_alg».proof.Proof.Gen.KernelIdeal.Skeleton
import proofs.«150682_j40690520163157_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- terms over the list of seventy host operations exceed the default budget
set_option maxHeartbeats 40000000

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The buffers of core `c` once the two host operations before the region have run on the initial memory. -/
abbrev V0 (c : Dev nD) : Valuation τ sig (Elt F) := StableHlo.after (List.flatten [hostOps0]) (fun b => m (c, b))
/-- `V0` at a TensorCore reference. -/
abbrev V (c : Dev nD) (b : Ref sig .tc) : Buf (Elt F) ((c : Thread nD τ).loc b) := V0 m c (Proc.devRef .tc b)

/-- Neither stretch of host operations allocates a buffer. -/
theorem hostOps0_fresh : (hostOps0 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [List.Forall]; repeat' constructor

/-- @main is: the first stretch, the region, and then the second stretch as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Every operation after the region touches only unscoped TensorCore references; nothing being prefetched, each of those
    is an array of the pipeline or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp hostOps1_fresh) op hop

/-- No operation of a list writes reference `r`. -/
abbrev Spares (ops : List (HloOp τ sig (Elt F))) (r : Ref sig .tc) : Prop :=
  ops.Forall fun op => Proc.devRef .tc r ∉ op.writes

/-- Each operation writes exactly its own result buffer, and no result buffer of either stretch is one of the five arrays
    the region stages: the three arguments and the region's two results. -/
theorem spares0_arg0 : Spares (F := F) hostOps0 main_arg0 := by
  simp only [Spares, hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem spares0_arg1 : Spares (F := F) hostOps0 main_arg1 := by
  simp only [Spares, hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem spares0_arg2 : Spares (F := F) hostOps0 main_arg2 := by
  simp only [Spares, hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 40000000 in
theorem spares1_arg0 : Spares (F := F) hostOps1 main_arg0 := by
  simp only [Spares, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 40000000 in
theorem spares1_arg1 : Spares (F := F) hostOps1 main_arg1 := by
  simp only [Spares, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 40000000 in
theorem spares1_arg2 : Spares (F := F) hostOps1 main_arg2 := by
  simp only [Spares, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 40000000 in
theorem spares1_v0_0 : Spares (F := F) hostOps1 main_v0_0 := by
  simp only [Spares, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 40000000 in
theorem spares1_v0_1 : Spares (F := F) hostOps1 main_v0_1 := by
  simp only [Spares, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So the operations after the region write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := by simpa using hops
  fin_cases w
  · exact (List.forall_iff_forall_mem.mp spares1_arg0) op hop
  · exact (List.forall_iff_forall_mem.mp spares1_arg1) op hop
  · exact (List.forall_iff_forall_mem.mp spares1_arg2) op hop
  · exact (List.forall_iff_forall_mem.mp spares1_v0_0) op hop
  · exact (List.forall_iff_forall_mem.mp spares1_v0_1) op hop

/-- The region finds each argument array as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simpa only [List.flatten_cons, List.flatten_nil, List.append_nil] using spares0_arg0 (F := F)))
theorem V_main_arg1 (c : Dev nD) : V m c main_arg1 = m ((c : Thread nD τ).loc main_arg1) :=
  StableHlo.after_of_forall_not_mem (b := Proc.devRef .tc main_arg1) _ _ (List.forall_iff_forall_mem.mp (by
    simpa only [List.flatten_cons, List.flatten_nil, List.append_nil] using spares0_arg1 (F := F)))
theorem V_main_arg2 (c : Dev nD) : V m c main_arg2 = m ((c : Thread nD τ).loc main_arg2) :=
  StableHlo.after_of_forall_not_mem (b := Proc.devRef .tc main_arg2) _ _ (List.forall_iff_forall_mem.mp (by
    simpa only [List.flatten_cons, List.flatten_nil, List.append_nil] using spares0_arg2 (F := F)))

/-! ## The argument arrays at the end -/

/-- Each argument array is an INPUT window's array: the pipeline never writes it back, so in a final state of a frame run it
    holds what the proof data's array held at entry, which is what the region found, which is what was launched. -/
theorem args_kept (dats : (p : Fin 1) → (c : Dev nD) → Dat τ (Elt F) Unit ℕ (UR sig nD τ) ℕ (cfgs p) c)
    (hA : ∀ c w, (dats 0 c).A w = V m c (Pipeline.arrRef spec0 w))
    {V' : (c : Dev nD) → (b : Ref sig .tc) → Buf (Elt F) ((c.tc : Thread nD τ).loc b)} {r : PUnit × MemSt nD τ sig (Elt F)}
    (h : Pipeline.FramePost cfgs dats 0 V' r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats 0 c).arrAt_in 0 rfl _).trans ((hA c 0).trans (V_main_arg0 m c))),
   ((h c).1 1).trans (((dats 0 c).arrAt_in 1 rfl _).trans ((hA c 1).trans (V_main_arg1 m c))),
   ((h c).1 2).trans (((dats 0 c).arrAt_in 2 rfl _).trans ((hA c 2).trans (V_main_arg2 m c)))⟩

/-- The same, array by array, as equations on the proof data: after all 64 points the array of input window `k` is the launched
    argument `k`. -/
theorem W_main_arg0 (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrAt 0 (cfgs 0).N = m ((c.tc : Thread nD τ).loc main_arg0) :=
  ((dats 0 c).arrAt_in 0 rfl _).trans ((hA c 0).trans (V_main_arg0 m c))
theorem W_main_arg1 (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrAt 1 (cfgs 0).N = m ((c.tc : Thread nD τ).loc main_arg1) :=
  ((dats 0 c).arrAt_in 1 rfl _).trans ((hA c 1).trans (V_main_arg1 m c))
theorem W_main_arg2 (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrAt 2 (cfgs 0).N = m ((c.tc : Thread nD τ).loc main_arg2) :=
  ((dats 0 c).arrAt_in 2 rfl _).trans ((hA c 2).trans (V_main_arg2 m c))

/-- A frame run's post, read at the three argument arrays, is the frame claim's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => args_kept m dats hA h c) h

/-! ## The blocks -/

/-- The block of window `w` at grid point `t`, cut from the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The current staging buffer of an input window holds the window's block at every point, whether the point fetched it or
    an earlier one did: the window is never idle and never cut, and the body leaves the block where it is. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- The body's three loads and two stores each go through the rectangle that is the whole block. -/
abbrev rIn3 : Rect S16x3x128x128 := Rect.unit (s := S16x3x128x128) ![0, 0, 0, 0] S16x3x128x128.size inb_S16x3x128x128_S16x3x128x128_0_0_0_0
abbrev rIn1 : Rect S16x1x128x128 := Rect.unit (s := S16x1x128x128) ![0, 0, 0, 0] S16x1x128x128.size inb_S16x1x128x128_S16x1x128x128_0_0_0_0
abbrev rOut : Rect S1x1x16x5 := Rect.unit (s := S1x1x16x5) ![0, 0, 0, 0] S1x1x16x5.size inb_S1x1x16x5_S1x1x16x5_0_0_0_0

/-- What the body leaves in the first output buffer when the input buffers read `x0 x1 x2`: the one store's payload, over
    the values the first part computes from the loads of `x0` and `x2` and the second part from those. -/
def out0_3 (x0 : Vec F S16x3x128x128 .f32) (x1 : Vec F S16x3x128x128 .f32) (x2 : Vec F S16x1x128x128 .f32) : Vec F S1x1x16x5 .f32 :=
  View.canon [⟨rOut, k0_pay1 (k0_pay6 (View.ld x0 rIn3) (View.ld x2 rIn1))
    (k0_pay10 (k0_pay4 (View.ld x0 rIn3) (View.ld x2 rIn1))) (k0_pay14 (k0_pay4 (View.ld x0 rIn3) (View.ld x2 rIn1)))
    (k0_pay16 (k0_pay4 (View.ld x0 rIn3) (View.ld x2 rIn1))) (k0_pay18 (k0_pay4 (View.ld x0 rIn3) (View.ld x2 rIn1)))⟩]

/-- The second output buffer: the same over the loads of `x1` and `x2`. -/
def out0_4 (x0 : Vec F S16x3x128x128 .f32) (x1 : Vec F S16x3x128x128 .f32) (x2 : Vec F S16x1x128x128 .f32) : Vec F S1x1x16x5 .f32 :=
  View.canon [⟨rOut, k0_pay2 (k0_pay7 (View.ld x1 rIn3) (View.ld x2 rIn1))
    (k0_pay11 (k0_pay5 (View.ld x1 rIn3) (View.ld x2 rIn1))) (k0_pay15 (k0_pay5 (View.ld x1 rIn3) (View.ld x2 rIn1)))
    (k0_pay17 (k0_pay5 (View.ld x1 rIn3) (View.ld x2 rIn1))) (k0_pay19 (k0_pay5 (View.ld x1 rIn3) (View.ld x2 rIn1)))⟩]

/-- One store through the whole-block rectangle covers the 1 x 1 x 16 x 5 buffer. -/
theorem cover_out (p0 : Vec F S1x1x16x5 .f32) (y : S1x1x16x5.Idx) :
    ∃ pc ∈ ([⟨rOut, p0⟩] : List (View.Piece (Elt F) S1x1x16x5 .f32)), y ∈ pc.1.set :=
  View.cover_of_tiled [⟨rOut, p0⟩] S1x1x16x5.size (by rfl) y

/-! ## The body's triple -/

set_option maxHeartbeats 4000000 in
/-- The body on five whole staging buffers — the inputs reading `x0 x1 x2`, the outputs holding anything — runs to a state
    with the inputs untouched and the outputs at `out0_3 x0 x1 x2` and `out0_4 x0 x1 x2`: three loads, then for each output a load whose value is
    dropped and a store that covers the block. -/
theorem sound_kernel (c : Dev nD) (E : Set ℕ) (i : grid0.Coords)
    (arg2 : Memref sig .tc .vmem S16x3x128x128 .f32) (harg2 : arg2.IsWhole) (arg3 : Memref sig .tc .vmem S16x3x128x128 .f32) (harg3 : arg3.IsWhole)
    (arg4 : Memref sig .tc .vmem S16x1x128x128 .f32) (harg4 : arg4.IsWhole) (arg5 : Memref sig .tc .vmem S1x1x16x5 .f32) (harg5 : arg5.IsWhole)
    (arg6 : Memref sig .tc .vmem S1x1x16x5 .f32) (harg6 : arg6.IsWhole)
    (x0 : Vec F S16x3x128x128 .f32) (x1 : Vec F S16x3x128x128 .f32) (x2 : Vec F S16x1x128x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)) -∗ K ⟨⟩))
      ⊢ wp frame (wpE (defs₀ (F := F)) Variants.none c none) E (cc0__fractal_count_kernel i arg2 harg2 arg3 harg3 arg4 harg4 arg5 harg5 arg6 harg6) K := by
  simp only [cc0__fractal_count_kernel_eq_skeleton]; unfold cc0__fractal_count_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_out _)
  iexists _; isplitr
  swap; · iexact H4
  ipureintro
  exact View.read_writes_eq_canon _ _ _ (cover_out _)

/-! ## The pipeline's proof data -/

/-- On core `c`: the five arrays as the region finds them; after the body at point `t` an input's buffer still at its block and
    an output's at `out0_3` / `out0_4` of the three input blocks; the invariant is the library's for a body with nothing of its own
    (the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 0 t) (iblk m c 1 t) (iblk m c 2 t)
  Φ _ := Pipeline.ΦA spec0 c
  q _ := fullShare
  owed _ := 0

/-- The proof data's arrays are the region-entry contents (the structure projected; the host prefix is not unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]
theorem after0_4 (c : Dev nD) (t : Fin cfg0.N) :
    (dats m 0 c).after 4 t = out0_4 (iblk m c 0 t) (iblk m c 1 t) (iblk m c 2 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is handed at point `t`: the invariant, what the core owes, and the five current staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the input buffers hold their blocks, so the body's triple applies with those as `x0 x1 x2`; the invariant and
    the owed amount are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values and any initial memory with zero counters, every weakly fair execution of @main on the TensorCores
    terminates, and in every final state each array of the pipeline holds what the library computes from the proof data and
    every other unscoped buffer what the seventy operations after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of `KernelIdeal`, at any float instance: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.Spec.lean ====
/-
  The mathematics both programs compute, free of either program's text.

  A sample of the batch is an image of extended reals indexed by two naturals. One step of box counting replaces the
  image by its 2×2 maxima (`pool`); `pyr x L` is the image after `L` steps, so that `pyr x L h w` is the maximum of `x`
  over the box of side `2^L` whose corner is `(2^L h, 2^L w)`; `boxes x L n` adds the `n × n` entries of that image: the
  number of occupied boxes of side `2^L` when `x` is an indicator. The one law the certificate rests on: boxes of side
  `2^L` never straddle tiles whose side is a multiple of `2^L`, so the count over the whole image is the sum over the
  tiles of the counts of each tile alone (`boxes_tiles`). Only commutativity and associativity of `+` are used, so the
  law holds on the extended reals with no finiteness assumption.
-/
import Idealize.ShloMosaic.PureOps.Ideal
import Idealize.ShloMosaic.Lib.ValueIdx

noncomputable section

open scoped BigOperators

namespace Cert.Spec

open Idealize.ShloMosaic Idealize.ShloMosaic.ValueIdx

/-- One sample: an image indexed by row and column. -/
abbrev Img := ℕ → ℕ → EReal

/-- The 2×2 maximum: entry `(h, w)` is the largest of the four entries of the box with corner `(2h, 2w)`. -/
def pool (x : Img) : Img := fun h w =>
  max (max (x (2 * h) (2 * w)) (x (2 * h) (2 * w + 1))) (max (x (2 * h + 1) (2 * w)) (x (2 * h + 1) (2 * w + 1)))

/-- `L` steps of pooling. -/
def pyr (x : Img) : ℕ → Img
  | 0 => x
  | L + 1 => pool (pyr x L)

/-- The image seen from the corner `(a, b)`. -/
def shift (x : Img) (a b : ℕ) : Img := fun h w => x (a + h) (b + w)

/-- The sum of the `n × n` entries of the image after `L` steps of pooling. -/
def boxes (x : Img) (L n : ℕ) : EReal := ∑ h ∈ Finset.range n, ∑ w ∈ Finset.range n, pyr x L h w

theorem pool_shift (x : Img) (a b : ℕ) : pool (shift x (2 * a) (2 * b)) = shift (pool x) a b := by
  funext h w
  simp only [pool, shift]
  rw [show 2 * a + 2 * h = 2 * (a + h) by ring, show 2 * b + 2 * w = 2 * (b + w) by ring,
    show 2 * a + (2 * h + 1) = 2 * (a + h) + 1 by ring, show 2 * b + (2 * w + 1) = 2 * (b + w) + 1 by ring]

/-- Pooling `L` times commutes with moving the corner by multiples of `2^L`. -/
theorem pyr_shift (x : Img) (L a b : ℕ) : pyr (shift x (2 ^ L * a) (2 ^ L * b)) L = shift (pyr x L) a b := by
  induction L generalizing a b with
  | zero => simp [pyr]
  | succ L ih =>
    show pool (pyr (shift x (2 ^ (L + 1) * a) (2 ^ (L + 1) * b)) L) = shift (pool (pyr x L)) a b
    rw [show 2 ^ (L + 1) * a = 2 ^ L * (2 * a) by ring, show 2 ^ (L + 1) * b = 2 ^ L * (2 * b) by ring, ih, pool_shift]

/-- A sum over `k * n` consecutive naturals, cut into `k` runs of `n`. -/
theorem sum_range_mul {M : Type*} [AddCommMonoid M] (f : ℕ → M) (k n : ℕ) :
    ∑ H ∈ Finset.range (k * n), f H = ∑ i ∈ Finset.range k, ∑ h ∈ Finset.range n, f (n * i + h) := by
  induction k with
  | zero => simp
  | succ k ih =>
    rw [Finset.sum_range_succ, ← ih, show (k + 1) * n = k * n + n by ring, Finset.sum_range_add]
    congr 1
    refine Finset.sum_congr rfl fun h _ => ?_
    rw [Nat.mul_comm k n]

/-- THE LAW: an image of side `k * n` boxes of side `2^L`, cut into `k × k` tiles of `n × n` boxes each: the boxes of the
    whole are the boxes of the tiles. -/
theorem boxes_tiles (x : Img) (L k n : ℕ) :
    ∑ i ∈ Finset.range k, ∑ j ∈ Finset.range k, boxes (shift x (2 ^ L * (n * i)) (2 ^ L * (n * j))) L n
      = boxes x L (k * n) := by
  unfold boxes
  simp only [pyr_shift, shift]
  rw [sum_range_mul (fun H => ∑ W ∈ Finset.range (k * n), pyr x L H W) k n]
  refine Finset.sum_congr rfl fun i _ => ?_
  rw [Finset.sum_comm]
  refine Finset.sum_congr rfl fun h _ => ?_
  rw [sum_range_mul (fun W => pyr x L (n * i + h) W) k n]

/-- The threshold: `1` where the value exceeds one half, else `0` (a comparison's bit read as an unsigned integer). -/
def thr (v : EReal) : EReal :=
  FloatOps.uitofp (F := Ideal) .f32 (FloatOps.cmpf (F := Ideal) (φ := .f32) .ogt v (Ideal.ofBits .f32 0x3F000000#32))

/-- The same bit widened to 32 bits and read as a signed integer is the same number. -/
theorem sitofp_extui (c : BitVec 1) :
    FloatOps.sitofp (F := Ideal) .f32 (c.setWidth 32) = FloatOps.uitofp (F := Ideal) .f32 c := by
  rcases BitVec.eq_zero_or_eq_one c with h | h <;> subst h <;> rfl

/-- The thresholded picture of sample `b`: the mean of the three channels times the mask, against one half; outside the
    1024 × 1024 frame it is `0` (never read). -/
def pixel (a : (⟨4, ![16, 3, 1024, 1024]⟩ : Shape).Idx → EReal) (mk : (⟨4, ![16, 1, 1024, 1024]⟩ : Shape).Idx → EReal)
    (b : Fin 16) : Img := fun h w =>
  if hh : h < 1024 ∧ w < 1024 then
    thr (Ideal.div (∑ k : Fin 3, a (ix4 b k ⟨h, hh.1⟩ ⟨w, hh.2⟩)) (Ideal.ofBits .f32 0x40400000#32)
      * mk (ix4 b 0 ⟨h, hh.1⟩ ⟨w, hh.2⟩))
  else 0

/-- The occupied-box counts: sample `b`, scale `l` (boxes of side `2^(l+1)`, `512 / 2^l` of them along each side). -/
def counts (a : (⟨4, ![16, 3, 1024, 1024]⟩ : Shape).Idx → EReal) (mk : (⟨4, ![16, 1, 1024, 1024]⟩ : Shape).Idx → EReal) :
    (⟨2, ![16, 5]⟩ : Shape).Idx → EReal := fun j =>
  boxes (pixel a mk (j 0)) ((j 1).val + 1) (512 / 2 ^ (j 1).val)

end Cert.Spec

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.KernelTileLevels.lean ====
/-
  One level of the pyramid, read at an entry, for any extent.

  A [16, 2n, 2n] array is reshaped to [16, 2n, n, 2] and maximised over the last axis (pairs of neighbouring columns),
  then reshaped to [16, n, 2, n] and maximised over axis 2 (pairs of neighbouring rows): entry (b, h, w) of the result
  is the largest of the four entries of the box with corner (2h, 2w) of sample b. The fold's initial value is the
  least extended real, so it disappears. The two sums that follow, over the columns and then over the rows, add the
  n × n entries of each sample. Both are stated once for a symbolic extent; the row-major equations of the reshapes are
  polynomial identities.
-/
import Idealize.ShloMosaic.Lib.ValueIdx
import Idealize.ShloMosaic.Lib.Pipeline.Value
import Idealize.ShloMosaic.Lib.ValueLayout
import Idealize.ShloMosaic.PureOps.Ideal.Laws
import proofs.«150682_j40690520163157_2_alg».proof.Proof.Spec

noncomputable section

open scoped BigOperators

namespace Cert.KernelIdeal.Tile

open Idealize.ShloMosaic Idealize.ShloMosaic.ValueIdx

theorem ofBits_neg_inf : Ideal.ofBits .f32 0xFF800000#32 = (⊥ : EReal) := by simp [Ideal.ofBits, Ideal.ieee]

theorem fold_max_two (f : Fin 2 → EReal) :
    (Finset.univ : Finset (Fin 2)).fold max (FloatOps.ofBits (F := Ideal) .f32 0xFF800000#32) f = max (f 0) (f 1) := by
  have hu : (Finset.univ : Finset (Fin 2)) = insert 0 {1} := by decide
  rw [hu, Finset.fold_insert (by decide), Finset.fold_singleton, Ideal.ofBits_def, ofBits_neg_inf, max_bot_right]

theorem pool_cols {m n : ℕ} (hm : m = 2 * n) (v : FVec Ideal ⟨3, ![16, m, m]⟩ .f32)
    (hc1 : (⟨3, ![16, m, m]⟩ : Shape).ShapeCasts ⟨4, ![16, m, n, 2]⟩)
    (hr1 : (⟨4, ![16, m, n, 2]⟩ : Shape).Reduces [3] ⟨3, ![16, m, n]⟩)
    (hφ1 : FKind.Formats .f32)
    (hacc1 : (0xFF800000#32 : BitVec 32) = FKind.maximumf.neutral .f32 hφ1)
    (X : Fin 16 → Cert.Spec.Img) (hX : ∀ (b : Fin 16) (h w : Fin m), v (ix3 b h w) = X b h.val w.val)
    (b : Fin 16) (h : Fin m) (w : Fin n) :
    multiReduction .maximumf [3] ⟨3, ![16, m, n]⟩ (shapeCast ⟨4, ![16, m, n, 2]⟩ v hc1) 0xFF800000#32 hr1 hφ1 hacc1 (ix3 b h w)
      = max (X b h.val (2 * w.val)) (X b h.val (2 * w.val + 1)) := by
  refine (Ideal.multiReduction_maximumf_single _ _ hr1 hφ1 hacc1 (ix3 b h w)).trans ?_
  refine (fold_max_two _).trans ?_
  have hw := w.isLt
  have e0 : shapeCast ⟨4, ![16, m, n, 2]⟩ v hc1 (hr1.lift (ix3 b h w) (0 : Fin 2)) = v (ix3 b h ⟨2 * w.val, by omega⟩) :=
    shapeCast_apply v hc1 _ _ (by
      rw [Shape.rowMajor_val_three, Shape.rowMajor_val_four]
      show (b.val * m + h.val) * m + 2 * w.val = ((b.val * m + h.val) * n + w.val) * 2 + 0
      subst hm; ring)
  have e1 : shapeCast ⟨4, ![16, m, n, 2]⟩ v hc1 (hr1.lift (ix3 b h w) (1 : Fin 2)) = v (ix3 b h ⟨2 * w.val + 1, by omega⟩) :=
    shapeCast_apply v hc1 _ _ (by
      rw [Shape.rowMajor_val_three, Shape.rowMajor_val_four]
      show (b.val * m + h.val) * m + (2 * w.val + 1) = ((b.val * m + h.val) * n + w.val) * 2 + 1
      subst hm; ring)
  show max (shapeCast ⟨4, ![16, m, n, 2]⟩ v hc1 (hr1.lift (ix3 b h w) (0 : Fin 2)))
      (shapeCast ⟨4, ![16, m, n, 2]⟩ v hc1 (hr1.lift (ix3 b h w) (1 : Fin 2))) = _
  rw [e0, e1, hX, hX]

theorem pool_rows {m n : ℕ} (hm : m = 2 * n) (r : FVec Ideal ⟨3, ![16, m, n]⟩ .f32)
    (hc2 : (⟨3, ![16, m, n]⟩ : Shape).ShapeCasts ⟨4, ![16, n, 2, n]⟩)
    (hr2 : (⟨4, ![16, n, 2, n]⟩ : Shape).Reduces [2] ⟨3, ![16, n, n]⟩)
    (hφ2 : FKind.Formats .f32)
    (hacc2 : (0xFF800000#32 : BitVec 32) = FKind.maximumf.neutral .f32 hφ2)
    (R : Fin 16 → Cert.Spec.Img) (hR : ∀ (b : Fin 16) (h : Fin m) (w : Fin n), r (ix3 b h w) = R b h.val w.val)
    (b : Fin 16) (h w : Fin n) :
    multiReduction .maximumf [2] ⟨3, ![16, n, n]⟩ (shapeCast ⟨4, ![16, n, 2, n]⟩ r hc2) 0xFF800000#32 hr2 hφ2 hacc2 (ix3 b h w)
      = max (R b (2 * h.val) w.val) (R b (2 * h.val + 1) w.val) := by
  refine (Ideal.multiReduction_maximumf_single _ _ hr2 hφ2 hacc2 (ix3 b h w)).trans ?_
  refine (fold_max_two _).trans ?_
  have hh := h.isLt
  have e0 : shapeCast ⟨4, ![16, n, 2, n]⟩ r hc2 (hr2.lift (ix3 b h w) (0 : Fin 2)) = r (ix3 b ⟨2 * h.val, by omega⟩ w) :=
    shapeCast_apply r hc2 _ _ (by
      rw [Shape.rowMajor_val_three, Shape.rowMajor_val_four]
      show (b.val * m + 2 * h.val) * n + w.val = ((b.val * n + h.val) * 2 + 0) * n + w.val
      subst hm; ring)
  have e1 : shapeCast ⟨4, ![16, n, 2, n]⟩ r hc2 (hr2.lift (ix3 b h w) (1 : Fin 2)) = r (ix3 b ⟨2 * h.val + 1, by omega⟩ w) :=
    shapeCast_apply r hc2 _ _ (by
      rw [Shape.rowMajor_val_three, Shape.rowMajor_val_four]
      show (b.val * m + (2 * h.val + 1)) * n + w.val = ((b.val * n + h.val) * 2 + 1) * n + w.val
      subst hm; ring)
  show max (shapeCast ⟨4, ![16, n, 2, n]⟩ r hc2 (hr2.lift (ix3 b h w) (0 : Fin 2)))
      (shapeCast ⟨4, ![16, n, 2, n]⟩ r hc2 (hr2.lift (ix3 b h w) (1 : Fin 2))) = _
  rw [e0, e1, hR, hR]

/-- One level of pooling: the two reshapes and the two maxima over a pair, read at an entry, are the 2×2 maximum. -/
theorem pool_level {m n : ℕ} (hm : m = 2 * n) (v : FVec Ideal ⟨3, ![16, m, m]⟩ .f32)
    (hc1 : (⟨3, ![16, m, m]⟩ : Shape).ShapeCasts ⟨4, ![16, m, n, 2]⟩)
    (hr1 : (⟨4, ![16, m, n, 2]⟩ : Shape).Reduces [3] ⟨3, ![16, m, n]⟩)
    (hc2 : (⟨3, ![16, m, n]⟩ : Shape).ShapeCasts ⟨4, ![16, n, 2, n]⟩)
    (hr2 : (⟨4, ![16, n, 2, n]⟩ : Shape).Reduces [2] ⟨3, ![16, n, n]⟩)
    (hφ1 hφ2 : FKind.Formats .f32)
    (hacc1 : (0xFF800000#32 : BitVec 32) = FKind.maximumf.neutral .f32 hφ1)
    (hacc2 : (0xFF800000#32 : BitVec 32) = FKind.maximumf.neutral .f32 hφ2)
    (X : Fin 16 → Cert.Spec.Img) (hX : ∀ (b : Fin 16) (h w : Fin m), v (ix3 b h w) = X b h.val w.val)
    (b : Fin 16) (h w : Fin n) :
    multiReduction .maximumf [2] ⟨3, ![16, n, n]⟩
      (shapeCast ⟨4, ![16, n, 2, n]⟩
        (multiReduction .maximumf [3] ⟨3, ![16, m, n]⟩ (shapeCast ⟨4, ![16, m, n, 2]⟩ v hc1) 0xFF800000#32 hr1 hφ1 hacc1) hc2)
      0xFF800000#32 hr2 hφ2 hacc2 (ix3 b h w) = Cert.Spec.pool (X b) h.val w.val :=
  pool_rows hm _ hc2 hr2 hφ2 hacc2 (fun b h' w' => max (X b h' (2 * w')) (X b h' (2 * w' + 1)))
    (fun b h' w' => pool_cols hm v hc1 hr1 hφ1 hacc1 X hX b h' w') b h w

/-- The two sums of a level: over the columns, then over the rows. -/
theorem sum_level {n : ℕ} (v : FVec Ideal ⟨3, ![16, n, n]⟩ .f32)
    (hr1 : (⟨3, ![16, n, n]⟩ : Shape).Reduces [2] ⟨2, ![16, n]⟩)
    (hr2 : (⟨2, ![16, n]⟩ : Shape).Reduces [1] ⟨1, ![16]⟩)
    (hφ1 hφ2 : FKind.Formats .f32)
    (hacc1 : (0x00000000#32 : BitVec 32) = FKind.add.neutral .f32 hφ1)
    (hacc2 : (0x00000000#32 : BitVec 32) = FKind.add.neutral .f32 hφ2)
    (Y : Fin 16 → Cert.Spec.Img) (hY : ∀ (b : Fin 16) (h w : Fin n), v (ix3 b h w) = Y b h.val w.val) (b : Fin 16) :
    multiReduction .add [1] ⟨1, ![16]⟩ (multiReduction .add [2] ⟨2, ![16, n]⟩ v 0x00000000#32 hr1 hφ1 hacc1)
      0x00000000#32 hr2 hφ2 hacc2 (ix1 b) = ∑ h ∈ Finset.range n, ∑ w ∈ Finset.range n, Y b h w := by
  refine (Ideal.multiReduction_add_single _ _ hr2 hφ2 hacc2 (ix1 b)).trans ?_
  show ∑ h : Fin n, multiReduction .add [2] ⟨2, ![16, n]⟩ v 0x00000000#32 hr1 hφ1 hacc1 (hr2.lift (ix1 b) h) = _
  rw [Finset.sum_range (fun h => ∑ w ∈ Finset.range n, Y b h w)]
  refine Finset.sum_congr rfl fun h _ => ?_
  refine (Ideal.multiReduction_add_single _ _ hr1 hφ1 hacc1 _).trans ?_
  show ∑ w : Fin n, v (hr1.lift (hr2.lift (ix1 b) h) w) = _
  rw [Finset.sum_range (fun w => Y b h.val w)]
  refine Finset.sum_congr rfl fun w _ => ?_
  have e : hr1.lift (hr2.lift (ix1 b) h) w = ix3 b h w := by
    funext c
    refine Fin.ext ?_
    match c with
    | ⟨0, _⟩ => rfl
    | ⟨1, _⟩ => rfl
    | ⟨2, _⟩ => rfl
  rw [e, hY]

end Cert.KernelIdeal.Tile

end
-- ==== Proof.KernelTile.lean ====
/-
  What one grid point of the kernel stores, read at an entry.

  The kernel loads a [16, 3, 128, 128] block of an image, and a [16, 1, 128, 128] block of the mask. It thresholds the
  mean of the three channels times the mask (1 above one half, else 0), and then five times replaces the tile by its
  2×2 maxima: after l + 1 steps sample b's tile has side 64 / 2^l, and its entries are `pyr (P b) (l + 1)`, where
  `P b` is the thresholded tile. After each step the entries are added, first along the columns and then along the rows:
  the number of occupied boxes of side 2^(l+1). The five sums are laid side by side as the columns of a [16, 5] array,
  stored as [1, 1, 16, 5]. Each step is one instance of the level lemmas for a symbolic extent; the same text serves
  the second image.
-/
import proofs.«150682_j40690520163157_2_alg».proof.Proof.Gen.KernelIdeal.Skeleton
import proofs.«150682_j40690520163157_2_alg».proof.Proof.Spec
import proofs.«150682_j40690520163157_2_alg».proof.Proof.LibKeepdimsColumn
import proofs.«150682_j40690520163157_2_alg».proof.Proof.KernelTileLevels
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- Level 1: the first pooled array is one step of pooling of the thresholded tile. -/
theorem pay4_apply (x0 : Vec Ideal S16x3x128x128 .f32) (x2 : Vec Ideal S16x1x128x128 .f32) (P : Fin 16 → Cert.Spec.Img)
    (hP : ∀ (b : Fin 16) (h w : Fin 128),
      Cert.Spec.thr (Ideal.div (∑ k : Fin 3, x0 (ix4 b k h w)) (Ideal.ofBits .f32 0x40400000#32) * x2 (ix4 b (0 : Fin 1) h w))
        = P b h.val w.val)
    (b : Fin 16) (h w : Fin 64) :
    k0_pay4 x0 x2 (ix3 b h w) = Cert.Spec.pyr (P b) 1 h.val w.val := by
  refine pool_level (m := 128) (n := 64) rfl _ shapeCasts_S16x128x128_S16x128x64x2 reduces_S16x128x64x2_S16x128x64 shapeCasts_S16x128x64_S16x64x2x64 reduces_S16x64x2x64_S16x64x64 (.inl rfl) (.inl rfl) rfl rfl P ?_ b h w
  intro b h w
  have hsum : multiReduction (F := Ideal) (φ := .f32) .add [1] S16x128x128 x0 0x00000000#32 reduces_S16x3x128x128_S16x128x128 (.inl rfl) rfl (ix3 b h w)
      = ∑ k : Fin 3, x0 (ix4 b k h w) := by
    refine (Ideal.multiReduction_add_single _ _ _ _ _ _).trans ?_
    refine Finset.sum_congr rfl fun k _ => congrArg x0 ?_
    funext c
    refine Fin.ext ?_
    match c with
    | ⟨0, _⟩ => rfl
    | ⟨1, _⟩ => rfl
    | ⟨2, _⟩ => rfl
    | ⟨3, _⟩ => rfl
  have hmask : k0_pay3 x2 (ix3 b h w) = x2 (ix4 b (0 : Fin 1) h w) :=
    shapeCast_apply x2 _ _ _ (by
      rw [Shape.rowMajor_val_four, Shape.rowMajor_val_three]
      show ((b.val * 1 + 0) * 128 + h.val) * 128 + w.val = (b.val * 128 + h.val) * 128 + w.val
      omega)
  refine (Cert.Spec.sitofp_extui _).trans ?_
  refine Eq.trans ?_ (hP b h w)
  show Cert.Spec.thr (Ideal.div (multiReduction (F := Ideal) (φ := .f32) .add [1] S16x128x128 x0 0x00000000#32 reduces_S16x3x128x128_S16x128x128 (.inl rfl) rfl (ix3 b h w))
      (Ideal.ofBits .f32 0x40400000#32) * k0_pay3 x2 (ix3 b h w)) = _
  rw [hsum, hmask]

/-- Levels 2, 3, 4 over any [16, 64, 64] array whose entries are those of the images `X b`. -/
theorem pay8_apply (v : FVec Ideal S16x64x64 .f32) (X : Fin 16 → Cert.Spec.Img)
    (hX : ∀ (b : Fin 16) (h w : Fin 64), v (ix3 b h w) = X b h.val w.val) (b : Fin 16) (h w : Fin 32) :
    k0_pay8 v (ix3 b h w) = Cert.Spec.pool (X b) h.val w.val :=
  pool_level (m := 64) (n := 32) rfl _ shapeCasts_S16x64x64_S16x64x32x2 reduces_S16x64x32x2_S16x64x32 shapeCasts_S16x64x32_S16x32x2x32 reduces_S16x32x2x32_S16x32x32 (.inl rfl) (.inl rfl) rfl rfl X hX b h w

theorem pay12_apply (v : FVec Ideal S16x64x64 .f32) (X : Fin 16 → Cert.Spec.Img)
    (hX : ∀ (b : Fin 16) (h w : Fin 64), v (ix3 b h w) = X b h.val w.val) (b : Fin 16) (h w : Fin 16) :
    k0_pay12 v (ix3 b h w) = Cert.Spec.pool (Cert.Spec.pool (X b)) h.val w.val :=
  pool_level (m := 32) (n := 16) rfl _ shapeCasts_S16x32x32_S16x32x16x2 reduces_S16x32x16x2_S16x32x16 shapeCasts_S16x32x16_S16x16x2x16 reduces_S16x16x2x16_S16x16x16 (.inl rfl) (.inl rfl) rfl rfl (fun b => Cert.Spec.pool (X b)) (pay8_apply v X hX) b h w

theorem pay16_apply (v : FVec Ideal S16x64x64 .f32) (X : Fin 16 → Cert.Spec.Img)
    (hX : ∀ (b : Fin 16) (h w : Fin 64), v (ix3 b h w) = X b h.val w.val) (b : Fin 16) (h w : Fin 8) :
    k0_pay16 v (ix3 b h w) = Cert.Spec.pool (Cert.Spec.pool (Cert.Spec.pool (X b))) h.val w.val :=
  pool_level (m := 16) (n := 8) rfl _ shapeCasts_S16x16x16_S16x16x8x2 reduces_S16x16x8x2_S16x16x8 shapeCasts_S16x16x8_S16x8x2x8 reduces_S16x8x2x8_S16x8x8 (.inl rfl) (.inl rfl) rfl rfl (fun b => Cert.Spec.pool (Cert.Spec.pool (X b))) (pay12_apply v X hX) b h w

/-- The sums of levels 1 to 4. -/
theorem pay6_apply (x0 : Vec Ideal S16x3x128x128 .f32) (x2 : Vec Ideal S16x1x128x128 .f32) (P : Fin 16 → Cert.Spec.Img)
    (hP : ∀ (b : Fin 16) (h w : Fin 128),
      Cert.Spec.thr (Ideal.div (∑ k : Fin 3, x0 (ix4 b k h w)) (Ideal.ofBits .f32 0x40400000#32) * x2 (ix4 b (0 : Fin 1) h w))
        = P b h.val w.val) (b : Fin 16) :
    k0_pay6 x0 x2 (ix1 b) = Cert.Spec.boxes (P b) 1 64 :=
  sum_level (n := 64) _ reduces_S16x64x64_S16x64 reduces_S16x64_S16 (.inl rfl) (.inl rfl) rfl rfl (fun b => Cert.Spec.pyr (P b) 1) (pay4_apply x0 x2 P hP) b

theorem pay10_apply (v : FVec Ideal S16x64x64 .f32) (X : Fin 16 → Cert.Spec.Img)
    (hX : ∀ (b : Fin 16) (h w : Fin 64), v (ix3 b h w) = X b h.val w.val) (b : Fin 16) :
    k0_pay10 v (ix1 b) = ∑ h ∈ Finset.range 32, ∑ w ∈ Finset.range 32, Cert.Spec.pool (X b) h w :=
  sum_level (n := 32) _ reduces_S16x32x32_S16x32 reduces_S16x32_S16 (.inl rfl) (.inl rfl) rfl rfl (fun b => Cert.Spec.pool (X b)) (pay8_apply v X hX) b

theorem pay14_apply (v : FVec Ideal S16x64x64 .f32) (X : Fin 16 → Cert.Spec.Img)
    (hX : ∀ (b : Fin 16) (h w : Fin 64), v (ix3 b h w) = X b h.val w.val) (b : Fin 16) :
    k0_pay14 v (ix1 b) = ∑ h ∈ Finset.range 16, ∑ w ∈ Finset.range 16, Cert.Spec.pool (Cert.Spec.pool (X b)) h w :=
  sum_level (n := 16) _ reduces_S16x16x16_S16x16 reduces_S16x16_S16 (.inl rfl) (.inl rfl) rfl rfl (fun b => Cert.Spec.pool (Cert.Spec.pool (X b))) (pay12_apply v X hX) b

theorem pay18_apply (v : FVec Ideal S16x64x64 .f32) (X : Fin 16 → Cert.Spec.Img)
    (hX : ∀ (b : Fin 16) (h w : Fin 64), v (ix3 b h w) = X b h.val w.val) (b : Fin 16) :
    k0_pay18 v (ix1 b)
      = ∑ h ∈ Finset.range 8, ∑ w ∈ Finset.range 8, Cert.Spec.pool (Cert.Spec.pool (Cert.Spec.pool (X b))) h w :=
  sum_level (n := 8) _ reduces_S16x8x8_S16x8 reduces_S16x8_S16 (.inl rfl) (.inl rfl) rfl rfl (fun b => Cert.Spec.pool (Cert.Spec.pool (Cert.Spec.pool (X b)))) (pay16_apply v X hX) b

/-- Level 1: the first pooled array is one step of pooling of the thresholded tile. -/
theorem pay5_apply (x1 : Vec Ideal S16x3x128x128 .f32) (x2 : Vec Ideal S16x1x128x128 .f32) (P : Fin 16 → Cert.Spec.Img)
    (hP : ∀ (b : Fin 16) (h w : Fin 128),
      Cert.Spec.thr (Ideal.div (∑ k : Fin 3, x1 (ix4 b k h w)) (Ideal.ofBits .f32 0x40400000#32) * x2 (ix4 b (0 : Fin 1) h w))
        = P b h.val w.val)
    (b : Fin 16) (h w : Fin 64) :
    k0_pay5 x1 x2 (ix3 b h w) = Cert.Spec.pyr (P b) 1 h.val w.val := by
  refine pool_level (m := 128) (n := 64) rfl _ shapeCasts_S16x128x128_S16x128x64x2 reduces_S16x128x64x2_S16x128x64 shapeCasts_S16x128x64_S16x64x2x64 reduces_S16x64x2x64_S16x64x64 (.inl rfl) (.inl rfl) rfl rfl P ?_ b h w
  intro b h w
  have hsum : multiReduction (F := Ideal) (φ := .f32) .add [1] S16x128x128 x1 0x00000000#32 reduces_S16x3x128x128_S16x128x128 (.inl rfl) rfl (ix3 b h w)
      = ∑ k : Fin 3, x1 (ix4 b k h w) := by
    refine (Ideal.multiReduction_add_single _ _ _ _ _ _).trans ?_
    refine Finset.sum_congr rfl fun k _ => congrArg x1 ?_
    funext c
    refine Fin.ext ?_
    match c with
    | ⟨0, _⟩ => rfl
    | ⟨1, _⟩ => rfl
    | ⟨2, _⟩ => rfl
    | ⟨3, _⟩ => rfl
  have hmask : k0_pay3 x2 (ix3 b h w) = x2 (ix4 b (0 : Fin 1) h w) :=
    shapeCast_apply x2 _ _ _ (by
      rw [Shape.rowMajor_val_four, Shape.rowMajor_val_three]
      show ((b.val * 1 + 0) * 128 + h.val) * 128 + w.val = (b.val * 128 + h.val) * 128 + w.val
      omega)
  refine (Cert.Spec.sitofp_extui _).trans ?_
  refine Eq.trans ?_ (hP b h w)
  show Cert.Spec.thr (Ideal.div (multiReduction (F := Ideal) (φ := .f32) .add [1] S16x128x128 x1 0x00000000#32 reduces_S16x3x128x128_S16x128x128 (.inl rfl) rfl (ix3 b h w))
      (Ideal.ofBits .f32 0x40400000#32) * k0_pay3 x2 (ix3 b h w)) = _
  rw [hsum, hmask]

/-- Levels 2, 3, 4 over any [16, 64, 64] array whose entries are those of the images `X b`. -/
theorem pay9_apply (v : FVec Ideal S16x64x64 .f32) (X : Fin 16 → Cert.Spec.Img)
    (hX : ∀ (b : Fin 16) (h w : Fin 64), v (ix3 b h w) = X b h.val w.val) (b : Fin 16) (h w : Fin 32) :
    k0_pay9 v (ix3 b h w) = Cert.Spec.pool (X b) h.val w.val :=
  pool_level (m := 64) (n := 32) rfl _ shapeCasts_S16x64x64_S16x64x32x2 reduces_S16x64x32x2_S16x64x32 shapeCasts_S16x64x32_S16x32x2x32 reduces_S16x32x2x32_S16x32x32 (.inl rfl) (.inl rfl) rfl rfl X hX b h w

theorem pay13_apply (v : FVec Ideal S16x64x64 .f32) (X : Fin 16 → Cert.Spec.Img)
    (hX : ∀ (b : Fin 16) (h w : Fin 64), v (ix3 b h w) = X b h.val w.val) (b : Fin 16) (h w : Fin 16) :
    k0_pay13 v (ix3 b h w) = Cert.Spec.pool (Cert.Spec.pool (X b)) h.val w.val :=
  pool_level (m := 32) (n := 16) rfl _ shapeCasts_S16x32x32_S16x32x16x2 reduces_S16x32x16x2_S16x32x16 shapeCasts_S16x32x16_S16x16x2x16 reduces_S16x16x2x16_S16x16x16 (.inl rfl) (.inl rfl) rfl rfl (fun b => Cert.Spec.pool (X b)) (pay9_apply v X hX) b h w

theorem pay17_apply (v : FVec Ideal S16x64x64 .f32) (X : Fin 16 → Cert.Spec.Img)
    (hX : ∀ (b : Fin 16) (h w : Fin 64), v (ix3 b h w) = X b h.val w.val) (b : Fin 16) (h w : Fin 8) :
    k0_pay17 v (ix3 b h w) = Cert.Spec.pool (Cert.Spec.pool (Cert.Spec.pool (X b))) h.val w.val :=
  pool_level (m := 16) (n := 8) rfl _ shapeCasts_S16x16x16_S16x16x8x2 reduces_S16x16x8x2_S16x16x8 shapeCasts_S16x16x8_S16x8x2x8 reduces_S16x8x2x8_S16x8x8 (.inl rfl) (.inl rfl) rfl rfl (fun b => Cert.Spec.pool (Cert.Spec.pool (X b))) (pay13_apply v X hX) b h w

/-- The sums of levels 1 to 4. -/
theorem pay7_apply (x1 : Vec Ideal S16x3x128x128 .f32) (x2 : Vec Ideal S16x1x128x128 .f32) (P : Fin 16 → Cert.Spec.Img)
    (hP : ∀ (b : Fin 16) (h w : Fin 128),
      Cert.Spec.thr (Ideal.div (∑ k : Fin 3, x1 (ix4 b k h w)) (Ideal.ofBits .f32 0x40400000#32) * x2 (ix4 b (0 : Fin 1) h w))
        = P b h.val w.val) (b : Fin 16) :
    k0_pay7 x1 x2 (ix1 b) = Cert.Spec.boxes (P b) 1 64 :=
  sum_level (n := 64) _ reduces_S16x64x64_S16x64 reduces_S16x64_S16 (.inl rfl) (.inl rfl) rfl rfl (fun b => Cert.Spec.pyr (P b) 1) (pay5_apply x1 x2 P hP) b

theorem pay11_apply (v : FVec Ideal S16x64x64 .f32) (X : Fin 16 → Cert.Spec.Img)
    (hX : ∀ (b : Fin 16) (h w : Fin 64), v (ix3 b h w) = X b h.val w.val) (b : Fin 16) :
    k0_pay11 v (ix1 b) = ∑ h ∈ Finset.range 32, ∑ w ∈ Finset.range 32, Cert.Spec.pool (X b) h w :=
  sum_level (n := 32) _ reduces_S16x32x32_S16x32 reduces_S16x32_S16 (.inl rfl) (.inl rfl) rfl rfl (fun b => Cert.Spec.pool (X b)) (pay9_apply v X hX) b

theorem pay15_apply (v : FVec Ideal S16x64x64 .f32) (X : Fin 16 → Cert.Spec.Img)
    (hX : ∀ (b : Fin 16) (h w : Fin 64), v (ix3 b h w) = X b h.val w.val) (b : Fin 16) :
    k0_pay15 v (ix1 b) = ∑ h ∈ Finset.range 16, ∑ w ∈ Finset.range 16, Cert.Spec.pool (Cert.Spec.pool (X b)) h w :=
  sum_level (n := 16) _ reduces_S16x16x16_S16x16 reduces_S16x16_S16 (.inl rfl) (.inl rfl) rfl rfl (fun b => Cert.Spec.pool (Cert.Spec.pool (X b))) (pay13_apply v X hX) b

theorem pay19_apply (v : FVec Ideal S16x64x64 .f32) (X : Fin 16 → Cert.Spec.Img)
    (hX : ∀ (b : Fin 16) (h w : Fin 64), v (ix3 b h w) = X b h.val w.val) (b : Fin 16) :
    k0_pay19 v (ix1 b)
      = ∑ h ∈ Finset.range 8, ∑ w ∈ Finset.range 8, Cert.Spec.pool (Cert.Spec.pool (Cert.Spec.pool (X b))) h w :=
  sum_level (n := 8) _ reduces_S16x8x8_S16x8 reduces_S16x8_S16 (.inl rfl) (.inl rfl) rfl rfl (fun b => Cert.Spec.pool (Cert.Spec.pool (Cert.Spec.pool (X b)))) (pay17_apply v X hX) b

/-- The five [16, 1] columns that are laid side by side. -/
abbrev pieces (p0 p1 p2 p3 p4 : FVec Ideal S16 .f32) : List ((s : Shape) × (s.Idx → Ideal .f32)) :=
  [⟨S16x1, shapeCast S16x1 p0 shapeCasts_S16_S16x1⟩, ⟨S16x1, shapeCast S16x1 p1 shapeCasts_S16_S16x1⟩,
    ⟨S16x1, shapeCast S16x1 p2 shapeCasts_S16_S16x1⟩, ⟨S16x1, shapeCast S16x1 p3 shapeCasts_S16_S16x1⟩,
    ⟨S16x1, shapeCast S16x1 p4 shapeCasts_S16_S16x1⟩]

theorem cat5_apply_0 (p0 p1 p2 p3 p4 : FVec Ideal S16 .f32) (b : Fin 16) :
    (shapeCast S1x1x16x5 (concatenate S16x5 1 (pieces p0 p1 p2 p3 p4) concatenates_S16x1_S16x1_S16x1_S16x1_S16x1_S16x5_d1)
      shapeCasts_S16x5_S1x1x16x5 : FVec Ideal S1x1x16x5 .f32) (ix4 (0 : Fin 1) (0 : Fin 1) b (0 : Fin 5)) = p0 (ix1 b) := by
  refine (shapeCast_apply _ shapeCasts_S16x5_S1x1x16x5 (ix4 (0 : Fin 1) (0 : Fin 1) b (0 : Fin 5)) (ix2 b (0 : Fin 5)) (by
    rw [Shape.rowMajor_val_two, Shape.rowMajor_val_four]
    show b.val * 5 + 0 = (((0 : ℕ) * 1 + 0) * 16 + b.val) * 5 + 0
    omega)).trans ?_
  refine (concatenate_apply_piece (t := S16x5) (1 : Fin 2) (pieces p0 p1 p2 p3 p4)
    concatenates_S16x1_S16x1_S16x1_S16x1_S16x1_S16x5_d1 (ix2 b (0 : Fin 5)) 0 (show 0 < 5 by omega) S16x1
    (shapeCast S16x1 p0 shapeCasts_S16_S16x1) rfl rfl 0 rfl (ix2 b (0 : Fin 1)) ?_ rfl).trans ?_
  · intro c hc
    match c with
    | ⟨0, _⟩ => rfl
    | ⟨1, _⟩ => exact absurd rfl hc
  · exact Cert.KeepdimsColumn.shapeCast_a_a1_apply p0 shapeCasts_S16_S16x1 b 0

theorem cat5_apply_1 (p0 p1 p2 p3 p4 : FVec Ideal S16 .f32) (b : Fin 16) :
    (shapeCast S1x1x16x5 (concatenate S16x5 1 (pieces p0 p1 p2 p3 p4) concatenates_S16x1_S16x1_S16x1_S16x1_S16x1_S16x5_d1)
      shapeCasts_S16x5_S1x1x16x5 : FVec Ideal S1x1x16x5 .f32) (ix4 (0 : Fin 1) (0 : Fin 1) b (1 : Fin 5)) = p1 (ix1 b) := by
  refine (shapeCast_apply _ shapeCasts_S16x5_S1x1x16x5 (ix4 (0 : Fin 1) (0 : Fin 1) b (1 : Fin 5)) (ix2 b (1 : Fin 5)) (by
    rw [Shape.rowMajor_val_two, Shape.rowMajor_val_four]
    show b.val * 5 + 1 = (((0 : ℕ) * 1 + 0) * 16 + b.val) * 5 + 1
    omega)).trans ?_
  refine (concatenate_apply_piece (t := S16x5) (1 : Fin 2) (pieces p0 p1 p2 p3 p4)
    concatenates_S16x1_S16x1_S16x1_S16x1_S16x1_S16x5_d1 (ix2 b (1 : Fin 5)) 1 (show 1 < 5 by omega) S16x1
    (shapeCast S16x1 p1 shapeCasts_S16_S16x1) rfl rfl 1 rfl (ix2 b (0 : Fin 1)) ?_ rfl).trans ?_
  · intro c hc
    match c with
    | ⟨0, _⟩ => rfl
    | ⟨1, _⟩ => exact absurd rfl hc
  · exact Cert.KeepdimsColumn.shapeCast_a_a1_apply p1 shapeCasts_S16_S16x1 b 0

theorem cat5_apply_2 (p0 p1 p2 p3 p4 : FVec Ideal S16 .f32) (b : Fin 16) :
    (shapeCast S1x1x16x5 (concatenate S16x5 1 (pieces p0 p1 p2 p3 p4) concatenates_S16x1_S16x1_S16x1_S16x1_S16x1_S16x5_d1)
      shapeCasts_S16x5_S1x1x16x5 : FVec Ideal S1x1x16x5 .f32) (ix4 (0 : Fin 1) (0 : Fin 1) b (2 : Fin 5)) = p2 (ix1 b) := by
  refine (shapeCast_apply _ shapeCasts_S16x5_S1x1x16x5 (ix4 (0 : Fin 1) (0 : Fin 1) b (2 : Fin 5)) (ix2 b (2 : Fin 5)) (by
    rw [Shape.rowMajor_val_two, Shape.rowMajor_val_four]
    show b.val * 5 + 2 = (((0 : ℕ) * 1 + 0) * 16 + b.val) * 5 + 2
    omega)).trans ?_
  refine (concatenate_apply_piece (t := S16x5) (1 : Fin 2) (pieces p0 p1 p2 p3 p4)
    concatenates_S16x1_S16x1_S16x1_S16x1_S16x1_S16x5_d1 (ix2 b (2 : Fin 5)) 2 (show 2 < 5 by omega) S16x1
    (shapeCast S16x1 p2 shapeCasts_S16_S16x1) rfl rfl 2 rfl (ix2 b (0 : Fin 1)) ?_ rfl).trans ?_
  · intro c hc
    match c with
    | ⟨0, _⟩ => rfl
    | ⟨1, _⟩ => exact absurd rfl hc
  · exact Cert.KeepdimsColumn.shapeCast_a_a1_apply p2 shapeCasts_S16_S16x1 b 0

theorem cat5_apply_3 (p0 p1 p2 p3 p4 : FVec Ideal S16 .f32) (b : Fin 16) :
    (shapeCast S1x1x16x5 (concatenate S16x5 1 (pieces p0 p1 p2 p3 p4) concatenates_S16x1_S16x1_S16x1_S16x1_S16x1_S16x5_d1)
      shapeCasts_S16x5_S1x1x16x5 : FVec Ideal S1x1x16x5 .f32) (ix4 (0 : Fin 1) (0 : Fin 1) b (3 : Fin 5)) = p3 (ix1 b) := by
  refine (shapeCast_apply _ shapeCasts_S16x5_S1x1x16x5 (ix4 (0 : Fin 1) (0 : Fin 1) b (3 : Fin 5)) (ix2 b (3 : Fin 5)) (by
    rw [Shape.rowMajor_val_two, Shape.rowMajor_val_four]
    show b.val * 5 + 3 = (((0 : ℕ) * 1 + 0) * 16 + b.val) * 5 + 3
    omega)).trans ?_
  refine (concatenate_apply_piece (t := S16x5) (1 : Fin 2) (pieces p0 p1 p2 p3 p4)
    concatenates_S16x1_S16x1_S16x1_S16x1_S16x1_S16x5_d1 (ix2 b (3 : Fin 5)) 3 (show 3 < 5 by omega) S16x1
    (shapeCast S16x1 p3 shapeCasts_S16_S16x1) rfl rfl 3 rfl (ix2 b (0 : Fin 1)) ?_ rfl).trans ?_
  · intro c hc
    match c with
    | ⟨0, _⟩ => rfl
    | ⟨1, _⟩ => exact absurd rfl hc
  · exact Cert.KeepdimsColumn.shapeCast_a_a1_apply p3 shapeCasts_S16_S16x1 b 0

theorem cat5_apply_4 (p0 p1 p2 p3 p4 : FVec Ideal S16 .f32) (b : Fin 16) :
    (shapeCast S1x1x16x5 (concatenate S16x5 1 (pieces p0 p1 p2 p3 p4) concatenates_S16x1_S16x1_S16x1_S16x1_S16x1_S16x5_d1)
      shapeCasts_S16x5_S1x1x16x5 : FVec Ideal S1x1x16x5 .f32) (ix4 (0 : Fin 1) (0 : Fin 1) b (4 : Fin 5)) = p4 (ix1 b) := by
  refine (shapeCast_apply _ shapeCasts_S16x5_S1x1x16x5 (ix4 (0 : Fin 1) (0 : Fin 1) b (4 : Fin 5)) (ix2 b (4 : Fin 5)) (by
    rw [Shape.rowMajor_val_two, Shape.rowMajor_val_four]
    show b.val * 5 + 4 = (((0 : ℕ) * 1 + 0) * 16 + b.val) * 5 + 4
    omega)).trans ?_
  refine (concatenate_apply_piece (t := S16x5) (1 : Fin 2) (pieces p0 p1 p2 p3 p4)
    concatenates_S16x1_S16x1_S16x1_S16x1_S16x1_S16x5_d1 (ix2 b (4 : Fin 5)) 4 (show 4 < 5 by omega) S16x1
    (shapeCast S16x1 p4 shapeCasts_S16_S16x1) rfl rfl 4 rfl (ix2 b (0 : Fin 1)) ?_ rfl).trans ?_
  · intro c hc
    match c with
    | ⟨0, _⟩ => rfl
    | ⟨1, _⟩ => exact absurd rfl hc
  · exact Cert.KeepdimsColumn.shapeCast_a_a1_apply p4 shapeCasts_S16_S16x1 b 0

/-- The stored block read at (0, 0, b, l): column l of the five level sums, at sample b. -/
theorem pay1_apply_0 (v29 v41 v53 : FVec Ideal S16 .f32) (v59 : FVec Ideal S16x8x8 .f32) (v65 : FVec Ideal S16 .f32) (b : Fin 16) :
    k0_pay1 v29 v41 v53 v59 v65 (ix4 (0 : Fin 1) (0 : Fin 1) b (0 : Fin 5)) = v29 (ix1 b) :=
  cat5_apply_0 v29 v41 v53 v65 _ b

theorem pay1_apply_1 (v29 v41 v53 : FVec Ideal S16 .f32) (v59 : FVec Ideal S16x8x8 .f32) (v65 : FVec Ideal S16 .f32) (b : Fin 16) :
    k0_pay1 v29 v41 v53 v59 v65 (ix4 (0 : Fin 1) (0 : Fin 1) b (1 : Fin 5)) = v41 (ix1 b) :=
  cat5_apply_1 v29 v41 v53 v65 _ b

theorem pay1_apply_2 (v29 v41 v53 : FVec Ideal S16 .f32) (v59 : FVec Ideal S16x8x8 .f32) (v65 : FVec Ideal S16 .f32) (b : Fin 16) :
    k0_pay1 v29 v41 v53 v59 v65 (ix4 (0 : Fin 1) (0 : Fin 1) b (2 : Fin 5)) = v53 (ix1 b) :=
  cat5_apply_2 v29 v41 v53 v65 _ b

theorem pay1_apply_3 (v29 v41 v53 : FVec Ideal S16 .f32) (v59 : FVec Ideal S16x8x8 .f32) (v65 : FVec Ideal S16 .f32) (b : Fin 16) :
    k0_pay1 v29 v41 v53 v59 v65 (ix4 (0 : Fin 1) (0 : Fin 1) b (3 : Fin 5)) = v65 (ix1 b) :=
  cat5_apply_3 v29 v41 v53 v65 _ b

theorem pay1_apply_4 (v29 v41 v53 : FVec Ideal S16 .f32) (v59 : FVec Ideal S16x8x8 .f32) (v65 : FVec Ideal S16 .f32)
    (Z : Fin 16 → Cert.Spec.Img) (hZ : ∀ (b : Fin 16) (h w : Fin 8), v59 (ix3 b h w) = Z b h.val w.val) (b : Fin 16) :
    k0_pay1 v29 v41 v53 v59 v65 (ix4 (0 : Fin 1) (0 : Fin 1) b (4 : Fin 5))
      = ∑ h ∈ Finset.range 4, ∑ w ∈ Finset.range 4, Cert.Spec.pool (Z b) h w :=
  (cat5_apply_4 v29 v41 v53 v65 _ b).trans
    (sum_level (n := 4) _ reduces_S16x4x4_S16x4 reduces_S16x4_S16 (.inl rfl) (.inl rfl) rfl rfl (fun b => Cert.Spec.pool (Z b)) (fun b h w => pool_level (m := 8) (n := 4) rfl _ shapeCasts_S16x8x8_S16x8x4x2 reduces_S16x8x4x2_S16x8x4 shapeCasts_S16x8x4_S16x4x2x4 reduces_S16x4x2x4_S16x4x4 (.inl rfl) (.inl rfl) rfl rfl Z hZ b h w) b)

/-- The stored block read at (0, 0, b, l): column l of the five level sums, at sample b. -/
theorem pay2_apply_0 (v29 v41 v53 : FVec Ideal S16 .f32) (v59 : FVec Ideal S16x8x8 .f32) (v65 : FVec Ideal S16 .f32) (b : Fin 16) :
    k0_pay2 v29 v41 v53 v59 v65 (ix4 (0 : Fin 1) (0 : Fin 1) b (0 : Fin 5)) = v29 (ix1 b) :=
  cat5_apply_0 v29 v41 v53 v65 _ b

theorem pay2_apply_1 (v29 v41 v53 : FVec Ideal S16 .f32) (v59 : FVec Ideal S16x8x8 .f32) (v65 : FVec Ideal S16 .f32) (b : Fin 16) :
    k0_pay2 v29 v41 v53 v59 v65 (ix4 (0 : Fin 1) (0 : Fin 1) b (1 : Fin 5)) = v41 (ix1 b) :=
  cat5_apply_1 v29 v41 v53 v65 _ b

theorem pay2_apply_2 (v29 v41 v53 : FVec Ideal S16 .f32) (v59 : FVec Ideal S16x8x8 .f32) (v65 : FVec Ideal S16 .f32) (b : Fin 16) :
    k0_pay2 v29 v41 v53 v59 v65 (ix4 (0 : Fin 1) (0 : Fin 1) b (2 : Fin 5)) = v53 (ix1 b) :=
  cat5_apply_2 v29 v41 v53 v65 _ b

theorem pay2_apply_3 (v29 v41 v53 : FVec Ideal S16 .f32) (v59 : FVec Ideal S16x8x8 .f32) (v65 : FVec Ideal S16 .f32) (b : Fin 16) :
    k0_pay2 v29 v41 v53 v59 v65 (ix4 (0 : Fin 1) (0 : Fin 1) b (3 : Fin 5)) = v65 (ix1 b) :=
  cat5_apply_3 v29 v41 v53 v65 _ b

theorem pay2_apply_4 (v29 v41 v53 : FVec Ideal S16 .f32) (v59 : FVec Ideal S16x8x8 .f32) (v65 : FVec Ideal S16 .f32)
    (Z : Fin 16 → Cert.Spec.Img) (hZ : ∀ (b : Fin 16) (h w : Fin 8), v59 (ix3 b h w) = Z b h.val w.val) (b : Fin 16) :
    k0_pay2 v29 v41 v53 v59 v65 (ix4 (0 : Fin 1) (0 : Fin 1) b (4 : Fin 5))
      = ∑ h ∈ Finset.range 4, ∑ w ∈ Finset.range 4, Cert.Spec.pool (Z b) h w :=
  (cat5_apply_4 v29 v41 v53 v65 _ b).trans
    (sum_level (n := 4) _ reduces_S16x4x4_S16x4 reduces_S16x4_S16 (.inl rfl) (.inl rfl) rfl rfl (fun b => Cert.Spec.pool (Z b)) (fun b h w => pool_level (m := 8) (n := 4) rfl _ shapeCasts_S16x8x8_S16x8x4x2 reduces_S16x8x4x2_S16x8x4 shapeCasts_S16x8x4_S16x4x2x4 reduces_S16x4x2x4_S16x4x4 (.inl rfl) (.inl rfl) rfl rfl Z hZ b h w) b)

/-- What the kernel stores for the first image block at one grid point. -/
def payF (x0 : Vec Ideal S16x3x128x128 .f32) (x2 : Vec Ideal S16x1x128x128 .f32) : FVec Ideal S1x1x16x5 .f32 :=
  k0_pay1 (k0_pay6 x0 x2) (k0_pay10 (k0_pay4 x0 x2)) (k0_pay14 (k0_pay4 x0 x2)) (k0_pay16 (k0_pay4 x0 x2)) (k0_pay18 (k0_pay4 x0 x2))

/-- Entry (b, l) of the stored block: the number of occupied boxes of side 2^(l+1) of sample b's thresholded tile. -/
theorem payF_apply (x0 : Vec Ideal S16x3x128x128 .f32) (x2 : Vec Ideal S16x1x128x128 .f32) (P : Fin 16 → Cert.Spec.Img)
    (hP : ∀ (b : Fin 16) (h w : Fin 128),
      Cert.Spec.thr (Ideal.div (∑ k : Fin 3, x0 (ix4 b k h w)) (Ideal.ofBits .f32 0x40400000#32) * x2 (ix4 b (0 : Fin 1) h w))
        = P b h.val w.val)
    (b : Fin 16) (l : Fin 5) :
    payF x0 x2 (ix4 (0 : Fin 1) (0 : Fin 1) b l) = Cert.Spec.boxes (P b) (l.val + 1) (64 / 2 ^ l.val) := by
  have h4 := pay4_apply x0 x2 P hP
  have hl : l = 0 ∨ l = 1 ∨ l = 2 ∨ l = 3 ∨ l = 4 := by
    match l with
    | ⟨0, _⟩ => exact .inl rfl
    | ⟨1, _⟩ => exact .inr (.inl rfl)
    | ⟨2, _⟩ => exact .inr (.inr (.inl rfl))
    | ⟨3, _⟩ => exact .inr (.inr (.inr (.inl rfl)))
    | ⟨4, _⟩ => exact .inr (.inr (.inr (.inr rfl)))
  unfold payF
  rcases hl with rfl | rfl | rfl | rfl | rfl
  · exact (pay1_apply_0 _ _ _ _ _ b).trans (pay6_apply x0 x2 P hP b)
  · exact (pay1_apply_1 _ _ _ _ _ b).trans (pay10_apply _ (fun b => Cert.Spec.pyr (P b) 1) h4 b)
  · exact (pay1_apply_2 _ _ _ _ _ b).trans (pay14_apply _ (fun b => Cert.Spec.pyr (P b) 1) h4 b)
  · exact (pay1_apply_3 _ _ _ _ _ b).trans (pay18_apply _ (fun b => Cert.Spec.pyr (P b) 1) h4 b)
  · exact pay1_apply_4 _ _ _ _ _ (fun b => Cert.Spec.pyr (P b) 4) (pay16_apply _ (fun b => Cert.Spec.pyr (P b) 1) h4) b

/-- What the kernel stores for the second image block at one grid point. -/
def payT (x1 : Vec Ideal S16x3x128x128 .f32) (x2 : Vec Ideal S16x1x128x128 .f32) : FVec Ideal S1x1x16x5 .f32 :=
  k0_pay2 (k0_pay7 x1 x2) (k0_pay11 (k0_pay5 x1 x2)) (k0_pay15 (k0_pay5 x1 x2)) (k0_pay17 (k0_pay5 x1 x2)) (k0_pay19 (k0_pay5 x1 x2))

/-- Entry (b, l) of the stored block: the number of occupied boxes of side 2^(l+1) of sample b's thresholded tile. -/
theorem payT_apply (x1 : Vec Ideal S16x3x128x128 .f32) (x2 : Vec Ideal S16x1x128x128 .f32) (P : Fin 16 → Cert.Spec.Img)
    (hP : ∀ (b : Fin 16) (h w : Fin 128),
      Cert.Spec.thr (Ideal.div (∑ k : Fin 3, x1 (ix4 b k h w)) (Ideal.ofBits .f32 0x40400000#32) * x2 (ix4 b (0 : Fin 1) h w))
        = P b h.val w.val)
    (b : Fin 16) (l : Fin 5) :
    payT x1 x2 (ix4 (0 : Fin 1) (0 : Fin 1) b l) = Cert.Spec.boxes (P b) (l.val + 1) (64 / 2 ^ l.val) := by
  have h4 := pay5_apply x1 x2 P hP
  have hl : l = 0 ∨ l = 1 ∨ l = 2 ∨ l = 3 ∨ l = 4 := by
    match l with
    | ⟨0, _⟩ => exact .inl rfl
    | ⟨1, _⟩ => exact .inr (.inl rfl)
    | ⟨2, _⟩ => exact .inr (.inr (.inl rfl))
    | ⟨3, _⟩ => exact .inr (.inr (.inr (.inl rfl)))
    | ⟨4, _⟩ => exact .inr (.inr (.inr (.inr rfl)))
  unfold payT
  rcases hl with rfl | rfl | rfl | rfl | rfl
  · exact (pay2_apply_0 _ _ _ _ _ b).trans (pay7_apply x1 x2 P hP b)
  · exact (pay2_apply_1 _ _ _ _ _ b).trans (pay11_apply _ (fun b => Cert.Spec.pyr (P b) 1) h4 b)
  · exact (pay2_apply_2 _ _ _ _ _ b).trans (pay15_apply _ (fun b => Cert.Spec.pyr (P b) 1) h4 b)
  · exact (pay2_apply_3 _ _ _ _ _ b).trans (pay19_apply _ (fun b => Cert.Spec.pyr (P b) 1) h4 b)
  · exact pay2_apply_4 _ _ _ _ _ (fun b => Cert.Spec.pyr (P b) 4) (pay17_apply _ (fun b => Cert.Spec.pyr (P b) 1) h4) b

end Cert.KernelIdeal.Tile

end
-- ==== Proof.TileIndex.lean ====
/-
  Where the pipeline's blocks sit.

  The grid is 8 × 8. At point t = (i, j) the three input windows read the 128 × 128 spatial tile (i, j) of their arrays
  (all samples, all channels), and both output windows write entry (i, j) of the leading two axes of their
  [8, 8, 16, 5] arrays. The index maps are compared once over the 64 points; every entry of the output arrays lies in
  exactly the block of the point named by its two leading coordinates.
-/
import proofs.«150682_j40690520163157_2_alg».proof.Proof.Gen.KernelIdeal.Launch
import proofs.«150682_j40690520163157_2_alg».proof.Proof.Gen.KernelIdeal.Points
import Idealize.ShloMosaic.Lib.Pipeline.Value
import Idealize.ShloMosaic.Lib.ValueIdx

noncomputable section

namespace Cert.KernelIdeal.Arr

open Cert.KernelIdeal Cert.KernelIdeal.Gen Idealize.ShloMosaic Idealize.ShloMosaic.TcCoe Idealize.SL.Sem

/-- The index maps over the grid: the inputs sit at the tile the output's two leading block indices name, and every
    other block index is zero; the two outputs move together; the tile indices stay below 8. -/
theorem idx_facts : ∀ t : Fin cfg0.N,
    (win0_0.index t (0 : Fin 4) = 0 ∧ win0_0.index t (1 : Fin 4) = 0
      ∧ win0_0.index t (2 : Fin 4) = win0_3.index t (0 : Fin 4) ∧ win0_0.index t (3 : Fin 4) = win0_3.index t (1 : Fin 4))
    ∧ (win0_1.index t (0 : Fin 4) = 0 ∧ win0_1.index t (1 : Fin 4) = 0
      ∧ win0_1.index t (2 : Fin 4) = win0_3.index t (0 : Fin 4) ∧ win0_1.index t (3 : Fin 4) = win0_3.index t (1 : Fin 4))
    ∧ (win0_2.index t (0 : Fin 4) = 0 ∧ win0_2.index t (1 : Fin 4) = 0
      ∧ win0_2.index t (2 : Fin 4) = win0_3.index t (0 : Fin 4) ∧ win0_2.index t (3 : Fin 4) = win0_3.index t (1 : Fin 4))
    ∧ (win0_3.index t (2 : Fin 4) = 0 ∧ win0_3.index t (3 : Fin 4) = 0
      ∧ win0_3.index t (0 : Fin 4) < 8 ∧ win0_3.index t (1 : Fin 4) < 8)
    ∧ (win0_4.index t (0 : Fin 4) = win0_3.index t (0 : Fin 4) ∧ win0_4.index t (1 : Fin 4) = win0_3.index t (1 : Fin 4)
      ∧ win0_4.index t (2 : Fin 4) = 0 ∧ win0_4.index t (3 : Fin 4) = 0) :=
  (by decide +kernel : ∀ t : Fin grid0.N, _)

/-- Every tile is some point's. -/
theorem idx_onto : ∀ (q0 q1 : Fin 8), ∃ t : Fin cfg0.N, win0_3.index t = ![q0.val, q1.val, 0, 0] :=
  (by decide +kernel : ∀ (q0 q1 : Fin 8), ∃ t : Fin grid0.N, win0_3.index t = ![q0.val, q1.val, 0, 0])

open Idealize.ShloMosaic.ValueIdx

/-- Where an entry of point t's block of a [16, 3, 1024, 1024] input sits in the array: sample and channel unchanged,
    row and column moved to the tile. -/
theorem emb_in0 (t : Fin cfg0.N) (b : Fin 16) (k : Fin 3) (h w : Fin 128) (H W : Fin 1024)
    (hH : H.val = 128 * win0_3.index t (0 : Fin 4) + h.val) (hW : W.val = 128 * win0_3.index t (1 : Fin 4) + w.val) :
    ((cfg0.win 0).blk t).view.emb (ix4 b k h w) = ix4 b k H W := by
  obtain ⟨⟨e0, e1, e2, e3⟩, -⟩ := idx_facts t
  funext a; apply Fin.ext
  match a with
  | ⟨0, _⟩ => show win0_0.index t (0 : Fin 4) * 16 + 1 * b.val = b.val; omega
  | ⟨1, _⟩ => show win0_0.index t (1 : Fin 4) * 3 + 1 * k.val = k.val; omega
  | ⟨2, _⟩ => show win0_0.index t (2 : Fin 4) * 128 + 1 * h.val = H.val; omega
  | ⟨3, _⟩ => show win0_0.index t (3 : Fin 4) * 128 + 1 * w.val = W.val; omega

theorem emb_in1 (t : Fin cfg0.N) (b : Fin 16) (k : Fin 3) (h w : Fin 128) (H W : Fin 1024)
    (hH : H.val = 128 * win0_3.index t (0 : Fin 4) + h.val) (hW : W.val = 128 * win0_3.index t (1 : Fin 4) + w.val) :
    ((cfg0.win 1).blk t).view.emb (ix4 b k h w) = ix4 b k H W := by
  obtain ⟨-, ⟨e0, e1, e2, e3⟩, -⟩ := idx_facts t
  funext a; apply Fin.ext
  match a with
  | ⟨0, _⟩ => show win0_1.index t (0 : Fin 4) * 16 + 1 * b.val = b.val; omega
  | ⟨1, _⟩ => show win0_1.index t (1 : Fin 4) * 3 + 1 * k.val = k.val; omega
  | ⟨2, _⟩ => show win0_1.index t (2 : Fin 4) * 128 + 1 * h.val = H.val; omega
  | ⟨3, _⟩ => show win0_1.index t (3 : Fin 4) * 128 + 1 * w.val = W.val; omega

/-- The same for the [16, 1, 1024, 1024] mask. -/
theorem emb_in2 (t : Fin cfg0.N) (b : Fin 16) (k : Fin 1) (h w : Fin 128) (H W : Fin 1024)
    (hH : H.val = 128 * win0_3.index t (0 : Fin 4) + h.val) (hW : W.val = 128 * win0_3.index t (1 : Fin 4) + w.val) :
    ((cfg0.win 2).blk t).view.emb (ix4 b k h w) = ix4 b k H W := by
  obtain ⟨-, -, ⟨e0, e1, e2, e3⟩, -⟩ := idx_facts t
  funext a; apply Fin.ext
  match a with
  | ⟨0, _⟩ => show win0_2.index t (0 : Fin 4) * 16 + 1 * b.val = b.val; omega
  | ⟨1, _⟩ => show win0_2.index t (1 : Fin 4) * 1 + 1 * k.val = k.val; omega
  | ⟨2, _⟩ => show win0_2.index t (2 : Fin 4) * 128 + 1 * h.val = H.val; omega
  | ⟨3, _⟩ => show win0_2.index t (3 : Fin 4) * 128 + 1 * w.val = W.val; omega

/-- Where an entry of point t's [1, 1, 16, 5] output block sits in the [8, 8, 16, 5] array: at the point's tile. -/
theorem emb_out3 (t : Fin cfg0.N) (u v : Fin 1) (b : Fin 16) (l : Fin 5) (I J : Fin 8)
    (hI : I.val = win0_3.index t (0 : Fin 4)) (hJ : J.val = win0_3.index t (1 : Fin 4)) :
    ((cfg0.win 3).blk t).view.emb (ix4 u v b l) = ix4 I J b l := by
  obtain ⟨-, -, -, ⟨e2, e3, -, -⟩, -⟩ := idx_facts t
  have hu : u.val = 0 := by omega
  have hv : v.val = 0 := by omega
  funext a; apply Fin.ext
  match a with
  | ⟨0, _⟩ => show win0_3.index t (0 : Fin 4) * 1 + 1 * u.val = I.val; omega
  | ⟨1, _⟩ => show win0_3.index t (1 : Fin 4) * 1 + 1 * v.val = J.val; omega
  | ⟨2, _⟩ => show win0_3.index t (2 : Fin 4) * 16 + 1 * b.val = b.val; omega
  | ⟨3, _⟩ => show win0_3.index t (3 : Fin 4) * 5 + 1 * l.val = l.val; omega

theorem emb_out4 (t : Fin cfg0.N) (u v : Fin 1) (b : Fin 16) (l : Fin 5) (I J : Fin 8)
    (hI : I.val = win0_3.index t (0 : Fin 4)) (hJ : J.val = win0_3.index t (1 : Fin 4)) :
    ((cfg0.win 4).blk t).view.emb (ix4 u v b l) = ix4 I J b l := by
  obtain ⟨-, -, -, -, ⟨e0, e1, e2, e3⟩⟩ := idx_facts t
  have hu : u.val = 0 := by omega
  have hv : v.val = 0 := by omega
  funext a; apply Fin.ext
  match a with
  | ⟨0, _⟩ => show win0_4.index t (0 : Fin 4) * 1 + 1 * u.val = I.val; omega
  | ⟨1, _⟩ => show win0_4.index t (1 : Fin 4) * 1 + 1 * v.val = J.val; omega
  | ⟨2, _⟩ => show win0_4.index t (2 : Fin 4) * 16 + 1 * b.val = b.val; omega
  | ⟨3, _⟩ => show win0_4.index t (3 : Fin 4) * 5 + 1 * l.val = l.val; omega

/-- An entry of the output array is in point t's block iff each coordinate is in the block's range. -/
theorem mem_blk3 (t : Fin cfg0.N) (i : S8x8x16x5.Idx) :
    i ∈ ((cfg0.win 3).blk t).view.set ↔ ∀ a : Fin 4, win0_3.index t a * S1x1x16x5.size a ≤ (i a).val ∧ (i a).val < win0_3.index t a * S1x1x16x5.size a + S1x1x16x5.size a := by
  show i ∈ ((View.whole main_v0_0).slice (win0_3.rect t)).set ↔ _
  rw [View.set_slice_whole, Rect.mem_set_unit]
  exact Iff.rfl

theorem mem_blk4 (t : Fin cfg0.N) (i : S8x8x16x5.Idx) :
    i ∈ ((cfg0.win 4).blk t).view.set ↔ ∀ a : Fin 4, win0_4.index t a * S1x1x16x5.size a ≤ (i a).val ∧ (i a).val < win0_4.index t a * S1x1x16x5.size a + S1x1x16x5.size a := by
  show i ∈ ((View.whole main_v0_1).slice (win0_4.rect t)).set ↔ _
  rw [View.set_slice_whole, Rect.mem_set_unit]
  exact Iff.rfl

/-- Every entry of the first output array is in the block of the point its two leading coordinates name. -/
theorem cover3 (i : S8x8x16x5.Idx) : ∃ t : Fin cfg0.N, (cfg0.win 3).flush t = true ∧ i ∈ ((cfg0.win 3).blk t).view.set := by
  have hi0 : (i 0).val < 8 := (i 0).isLt
  have hi1 : (i 1).val < 8 := (i 1).isLt
  have hi2 : (i 2).val < 16 := (i 2).isLt
  have hi3 : (i 3).val < 5 := (i 3).isLt
  obtain ⟨t, ht⟩ := idx_onto ⟨(i 0).val, hi0⟩ ⟨(i 1).val, hi1⟩
  have q0 : win0_3.index t (0 : Fin 4) = (i 0).val := congrFun ht 0
  have q1 : win0_3.index t (1 : Fin 4) = (i 1).val := congrFun ht 1
  have q2 : win0_3.index t (2 : Fin 4) = 0 := congrFun ht 2
  have q3 : win0_3.index t (3 : Fin 4) = 0 := congrFun ht 3
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 16 ≤ (i 2).val ∧ (i 2).val < win0_3.index t (2 : Fin 4) * 16 + 16; omega
  | ⟨3, _⟩ => show win0_3.index t (3 : Fin 4) * 5 ≤ (i 3).val ∧ (i 3).val < win0_3.index t (3 : Fin 4) * 5 + 5; omega

theorem cover4 (i : S8x8x16x5.Idx) : ∃ t : Fin cfg0.N, (cfg0.win 4).flush t = true ∧ i ∈ ((cfg0.win 4).blk t).view.set := by
  have hi0 : (i 0).val < 8 := (i 0).isLt
  have hi1 : (i 1).val < 8 := (i 1).isLt
  have hi2 : (i 2).val < 16 := (i 2).isLt
  have hi3 : (i 3).val < 5 := (i 3).isLt
  obtain ⟨t, ht⟩ := idx_onto ⟨(i 0).val, hi0⟩ ⟨(i 1).val, hi1⟩
  obtain ⟨-, -, -, -, ⟨e0, e1, e2, e3⟩⟩ := idx_facts t
  have q0 : win0_3.index t (0 : Fin 4) = (i 0).val := congrFun ht 0
  have q1 : win0_3.index t (1 : Fin 4) = (i 1).val := congrFun ht 1
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 16 ≤ (i 2).val ∧ (i 2).val < win0_4.index t (2 : Fin 4) * 16 + 16; omega
  | ⟨3, _⟩ => show win0_4.index t (3 : Fin 4) * 5 ≤ (i 3).val ∧ (i 3).val < win0_4.index t (3 : Fin 4) * 5 + 5; omega

end Cert.KernelIdeal.Arr

end
-- ==== Proof.KernelArray.lean ====
/-
  From the blocks to the arrays: what the two arrays of partial counts hold after the region.

  At grid point t = (i, j) the input blocks are the 128 × 128 tile (i, j) of the argument arrays, so the thresholded
  tile the body builds is the thresholded picture of each sample seen from the corner (128 i, 128 j); the body stores,
  for sample b and scale l, the number of occupied boxes of side 2^(l+1) of that tile (the tile lemma, taken here as a
  hypothesis so that this module does not depend on its proof), and the write-back puts it at entry (i, j, b, l). Every
  entry of the [8, 8, 16, 5] array is written by exactly the point its leading coordinates name, so after the 64 points
  the array is one function of the argument arrays.
-/
import proofs.«150682_j40690520163157_2_alg».proof.Proof.FrameKernelIdeal
import proofs.«150682_j40690520163157_2_alg».proof.Proof.TileIndex
import proofs.«150682_j40690520163157_2_alg».proof.Proof.Spec
import Idealize.ShloMosaic.Lib.Pipeline.Value
import Idealize.ShloMosaic.Lib.ValueIdx

set_option maxRecDepth 16384

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx

/-- The tile lemma for a store payload `pay` of a [16, 3, 128, 128] block and a [16, 1, 128, 128] mask block: if the
    thresholded tile of sample b is the picture `P b`, the payload holds at (0, 0, b, l) the boxes of side 2^(l+1) of
    `P b` (64 / 2^l of them along each side). -/
def TileLaw (pay : Vec Ideal S16x3x128x128 .f32 → Vec Ideal S16x1x128x128 .f32 → FVec Ideal S1x1x16x5 .f32) : Prop :=
  ∀ (x0 : Vec Ideal S16x3x128x128 .f32) (x2 : Vec Ideal S16x1x128x128 .f32) (P : Fin 16 → Cert.Spec.Img),
    (∀ (b : Fin 16) (h w : Fin 128),
      Cert.Spec.thr (Ideal.div (∑ k : Fin 3, x0 (ix4 b k h w)) (Ideal.ofBits .f32 0x40400000#32) * x2 (ix4 b (0 : Fin 1) h w))
        = P b h.val w.val) →
    ∀ (b : Fin 16) (l : Fin 5), pay x0 x2 (ix4 (0 : Fin 1) (0 : Fin 1) b l) = Cert.Spec.boxes (P b) (l.val + 1) (64 / 2 ^ l.val)

/-- The first store's payload, from the loaded blocks. -/
def payF (x0 : Vec Ideal S16x3x128x128 .f32) (x2 : Vec Ideal S16x1x128x128 .f32) : FVec Ideal S1x1x16x5 .f32 :=
  k0_pay1 (k0_pay6 x0 x2) (k0_pay10 (k0_pay4 x0 x2)) (k0_pay14 (k0_pay4 x0 x2)) (k0_pay16 (k0_pay4 x0 x2)) (k0_pay18 (k0_pay4 x0 x2))

/-- The second store's payload. -/
def payT (x1 : Vec Ideal S16x3x128x128 .f32) (x2 : Vec Ideal S16x1x128x128 .f32) : FVec Ideal S1x1x16x5 .f32 :=
  k0_pay2 (k0_pay7 x1 x2) (k0_pay11 (k0_pay5 x1 x2)) (k0_pay15 (k0_pay5 x1 x2)) (k0_pay17 (k0_pay5 x1 x2)) (k0_pay19 (k0_pay5 x1 x2))

/-- The array of partial counts as one function of an image array and the mask: at (i, j, b, l) the boxes of side
    2^(l+1) of sample b's thresholded picture seen from the corner (128 i, 128 j). -/
def G (a : FVec Ideal S16x3x1024x1024 .f32) (mk : FVec Ideal S16x1x1024x1024 .f32) : S8x8x16x5.Idx → EReal := fun q =>
  Cert.Spec.boxes (Cert.Spec.shift (Cert.Spec.pixel a mk (q 2)) (128 * (q 0).val) (128 * (q 1).val)) ((q 3).val + 1) (64 / 2 ^ (q 3).val)

theorem hz4 : (![0, 0, 0, 0] : Fin 4 → Nat) = fun _ => 0 := funext fun a => by fin_cases a <;> rfl

variable (m : (ℓ : Loc nD τ sig) → Buf (Elt Ideal) ℓ)

/-- An entry of point t's block of the first image array is the launched array's entry at the tile. -/
theorem iblk0_apply (c : Dev nD) (t : Fin cfg0.N) (b : Fin 16) (k : Fin 3) (h w : Fin 128) (H W : Fin 1024)
    (hH : H.val = 128 * win0_3.index t (0 : Fin 4) + h.val) (hW : W.val = 128 * win0_3.index t (1 : Fin 4) + w.val) :
    Fr.iblk m c 0 t (ix4 b k h w) = m ((c.tc : Thread nD τ).loc main_arg0) (ix4 b k H W) := by
  show Fr.V m c (Pipeline.arrRef spec0 0) (((cfg0.win 0).blk t).view.emb (ix4 b k h w)) = _
  rw [emb_in0 t b k h w H W hH hW]
  exact congrFun (Fr.V_main_arg0 m c) _

theorem iblk1_apply (c : Dev nD) (t : Fin cfg0.N) (b : Fin 16) (k : Fin 3) (h w : Fin 128) (H W : Fin 1024)
    (hH : H.val = 128 * win0_3.index t (0 : Fin 4) + h.val) (hW : W.val = 128 * win0_3.index t (1 : Fin 4) + w.val) :
    Fr.iblk m c 1 t (ix4 b k h w) = m ((c.tc : Thread nD τ).loc main_arg1) (ix4 b k H W) := by
  show Fr.V m c (Pipeline.arrRef spec0 1) (((cfg0.win 1).blk t).view.emb (ix4 b k h w)) = _
  rw [emb_in1 t b k h w H W hH hW]
  exact congrFun (Fr.V_main_arg1 m c) _

theorem iblk2_apply (c : Dev nD) (t : Fin cfg0.N) (b : Fin 16) (k : Fin 1) (h w : Fin 128) (H W : Fin 1024)
    (hH : H.val = 128 * win0_3.index t (0 : Fin 4) + h.val) (hW : W.val = 128 * win0_3.index t (1 : Fin 4) + w.val) :
    Fr.iblk m c 2 t (ix4 b k h w) = m ((c.tc : Thread nD τ).loc main_arg2) (ix4 b k H W) := by
  show Fr.V m c (Pipeline.arrRef spec0 2) (((cfg0.win 2).blk t).view.emb (ix4 b k h w)) = _
  rw [emb_in2 t b k h w H W hH hW]
  exact congrFun (Fr.V_main_arg2 m c) _

/-- The thresholded tile at point t is the thresholded picture seen from the tile's corner. -/
theorem tile_pixel (a : FVec Ideal S16x3x1024x1024 .f32) (mk : FVec Ideal S16x1x1024x1024 .f32)
    (x0 : Vec Ideal S16x3x128x128 .f32) (x2 : Vec Ideal S16x1x128x128 .f32) (I J : ℕ) (hI : I < 8) (hJ : J < 8)
    (h0 : ∀ (b : Fin 16) (k : Fin 3) (h w : Fin 128) (H W : Fin 1024), H.val = 128 * I + h.val → W.val = 128 * J + w.val →
      x0 (ix4 b k h w) = a (ix4 b k H W))
    (h2 : ∀ (b : Fin 16) (k : Fin 1) (h w : Fin 128) (H W : Fin 1024), H.val = 128 * I + h.val → W.val = 128 * J + w.val →
      x2 (ix4 b k h w) = mk (ix4 b k H W))
    (b : Fin 16) (h w : Fin 128) :
    Cert.Spec.thr (Ideal.div (∑ k : Fin 3, x0 (ix4 b k h w)) (Ideal.ofBits .f32 0x40400000#32) * x2 (ix4 b (0 : Fin 1) h w))
      = Cert.Spec.shift (Cert.Spec.pixel a mk b) (128 * I) (128 * J) h.val w.val := by
  have hh : h.val < 128 := h.isLt
  have hw : w.val < 128 := w.isLt
  have hb : 128 * I + h.val < 1024 ∧ 128 * J + w.val < 1024 := ⟨by omega, by omega⟩
  show _ = Cert.Spec.pixel a mk b (128 * I + h.val) (128 * J + w.val)
  unfold Cert.Spec.pixel
  rw [dif_pos hb]
  rw [h2 b 0 h w ⟨128 * I + h.val, hb.1⟩ ⟨128 * J + w.val, hb.2⟩ rfl rfl]
  rw [Finset.sum_congr rfl fun k _ => h0 b k h w ⟨128 * I + h.val, hb.1⟩ ⟨128 * J + w.val, hb.2⟩ rfl rfl]

/-- WHAT POINT t WRITES BACK into the first array of partial counts is block t of `G` of the launched arrays. -/
theorem flushed3_eq (hT : TileLaw payF) (c : Dev nD) (t : Fin cfg0.N) :
    (Fr.dats m 0 c).flushed 3 t = ((cfg0.win 3).blk t).view.read (Elt Ideal)
      (G (m ((c.tc : Thread nD τ).loc main_arg0)) (m ((c.tc : Thread nD τ).loc main_arg2))) := by
  show (cfg0.win 3).cut (grid0.coords t) ((Fr.dats m 0 c).after 3 t) = _
  rw [Fr.after0_3]
  unfold Fr.out0_3
  rw [View.canon_unit_zero hz4]
  simp only [View.ld_unit_zero (S := S16x3x128x128) hz4, View.ld_unit_zero (S := S16x1x128x128) hz4]
  obtain ⟨-, -, -, ⟨-, -, lt0, lt1⟩, -⟩ := idx_facts t
  funext y
  show payF (Fr.iblk m c 0 t) (Fr.iblk m c 2 t) (ix4 (y 0 : Fin 1) (y 1 : Fin 1) (y 2 : Fin 16) (y 3 : Fin 5))
    = G (m ((c.tc : Thread nD τ).loc main_arg0)) (m ((c.tc : Thread nD τ).loc main_arg2))
        (((cfg0.win 3).blk t).view.emb (ix4 (y 0 : Fin 1) (y 1 : Fin 1) (y 2 : Fin 16) (y 3 : Fin 5)))
  rw [emb_out3 t (y 0) (y 1) (y 2) (y 3) ⟨win0_3.index t (0 : Fin 4), lt0⟩ ⟨win0_3.index t (1 : Fin 4), lt1⟩ rfl rfl]
  have hy0 : @Eq (Fin 1) (y 0) 0 := Subsingleton.elim (α := Fin 1) _ _
  have hy1 : @Eq (Fin 1) (y 1) 0 := Subsingleton.elim (α := Fin 1) _ _
  rw [hy0, hy1]
  refine (hT (Fr.iblk m c 0 t) (Fr.iblk m c 2 t)
    (fun b => Cert.Spec.shift (Cert.Spec.pixel (m ((c.tc : Thread nD τ).loc main_arg0)) (m ((c.tc : Thread nD τ).loc main_arg2)) b)
      (128 * win0_3.index t (0 : Fin 4)) (128 * win0_3.index t (1 : Fin 4)))
    (fun b h w => tile_pixel _ _ (Fr.iblk m c 0 t) (Fr.iblk m c 2 t) _ _ lt0 lt1
      (fun b k h w H W hH hW => iblk0_apply m c t b k h w H W hH hW)
      (fun b k h w H W hH hW => iblk2_apply m c t b k h w H W hH hW) b h w)
    (y 2) (y 3)).trans ?_
  rfl

/-- The same for the second array, over the second image array. -/
theorem flushed4_eq (hT : TileLaw payT) (c : Dev nD) (t : Fin cfg0.N) :
    (Fr.dats m 0 c).flushed 4 t = ((cfg0.win 4).blk t).view.read (Elt Ideal)
      (G (m ((c.tc : Thread nD τ).loc main_arg1)) (m ((c.tc : Thread nD τ).loc main_arg2))) := by
  show (cfg0.win 4).cut (grid0.coords t) ((Fr.dats m 0 c).after 4 t) = _
  rw [Fr.after0_4]
  unfold Fr.out0_4
  rw [View.canon_unit_zero hz4]
  simp only [View.ld_unit_zero (S := S16x3x128x128) hz4, View.ld_unit_zero (S := S16x1x128x128) hz4]
  obtain ⟨-, -, -, ⟨-, -, lt0, lt1⟩, -⟩ := idx_facts t
  funext y
  show payT (Fr.iblk m c 1 t) (Fr.iblk m c 2 t) (ix4 (y 0 : Fin 1) (y 1 : Fin 1) (y 2 : Fin 16) (y 3 : Fin 5))
    = G (m ((c.tc : Thread nD τ).loc main_arg1)) (m ((c.tc : Thread nD τ).loc main_arg2))
        (((cfg0.win 4).blk t).view.emb (ix4 (y 0 : Fin 1) (y 1 : Fin 1) (y 2 : Fin 16) (y 3 : Fin 5)))
  rw [emb_out4 t (y 0) (y 1) (y 2) (y 3) ⟨win0_3.index t (0 : Fin 4), lt0⟩ ⟨win0_3.index t (1 : Fin 4), lt1⟩ rfl rfl]
  have hy0 : @Eq (Fin 1) (y 0) 0 := Subsingleton.elim (α := Fin 1) _ _
  have hy1 : @Eq (Fin 1) (y 1) 0 := Subsingleton.elim (α := Fin 1) _ _
  rw [hy0, hy1]
  refine (hT (Fr.iblk m c 1 t) (Fr.iblk m c 2 t)
    (fun b => Cert.Spec.shift (Cert.Spec.pixel (m ((c.tc : Thread nD τ).loc main_arg1)) (m ((c.tc : Thread nD τ).loc main_arg2)) b)
      (128 * win0_3.index t (0 : Fin 4)) (128 * win0_3.index t (1 : Fin 4)))
    (fun b h w => tile_pixel _ _ (Fr.iblk m c 1 t) (Fr.iblk m c 2 t) _ _ lt0 lt1
      (fun b k h w H W hH hW => iblk1_apply m c t b k h w H W hH hW)
      (fun b k h w H W hH hW => iblk2_apply m c t b k h w H W hH hW) b h w)
    (y 2) (y 3)).trans ?_
  rfl

/-- THE ARRAYS after the 64 points: each is `G` of the launched arrays. -/
theorem final3 (hT : TileLaw payF) (c : Dev nD) :
    (Fr.dats m 0 c).arrAt 3 cfg0.N = G (m ((c.tc : Thread nD τ).loc main_arg0)) (m ((c.tc : Thread nD τ).loc main_arg2)) :=
  (Fr.dats m 0 c).arrAt_eq_of_cover 3 _ (fun t _ => flushed3_eq m hT c t) cover3

theorem final4 (hT : TileLaw payT) (c : Dev nD) :
    (Fr.dats m 0 c).arrAt 4 cfg0.N = G (m ((c.tc : Thread nD τ).loc main_arg1)) (m ((c.tc : Thread nD τ).loc main_arg2)) :=
  (Fr.dats m 0 c).arrAt_eq_of_cover 4 _ (fun t _ => flushed4_eq m hT c t) cover4

end Cert.KernelIdeal.Arr

end
-- ==== Proof.KernelTail.lean ====
/-
  The host operations after the region, as one function.

  After the 64 grid points have written their partial counts, the program adds the two [8, 8, 16, 5] arrays over the
  tiles, and from each [16, 5] table of counts takes minus the least-squares slope of log(count + ε) against the
  logarithms of the five box sides; the result is the mean over the samples of the absolute difference of the two
  slopes. The seventy operations are named here stage by stage; nothing is computed.
-/
import proofs.«150682_j40690520163157_2_alg».proof.Proof.Gen.KernelIdeal.Launch
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- The partial counts added over the tiles. -/
def cnts (a : FVec F S8x8x16x5 .f32) : FVec F S16x5 .f32 :=
  Host.reduceAdd a (constant S_ .f32 0x00000000#32) reducesTo_S8x8x16x5_S16x5_d0_1 h_S_

/-- The logarithms of the five box sides. -/
def lx (tab : FVec F S5 .f32) : FVec F S5 .f32 := Host.log tab

/-- The logarithms of the counts, each shifted by a small positive constant. -/
def ly (cn : FVec F S16x5 .f32) : FVec F S16x5 .f32 :=
  Host.log (addf cn (broadcastInDim S16x5 ![] bcast_S_S16x5 (constant S_ .f32 0x322BCC77#32)))

/-- The mean of the five log sides. -/
def mx (tab : FVec F S5 .f32) : FVec F S_ .f32 :=
  Host.divf (Host.reduceAdd (lx tab) (constant S_ .f32 0x00000000#32) reducesTo_S5_S_d0 h_S_) (constant S_ .f32 0x40A00000#32)

/-- The log sides minus their mean. -/
def dx (tab : FVec F S5 .f32) : FVec F S5 .f32 := subf (lx tab) (broadcastInDim S5 ![] bcast_S_S5 (mx tab))

/-- The log counts minus their mean over the five scales, per sample. -/
def dy (cn : FVec F S16x5 .f32) : FVec F S16x5 .f32 :=
  subf (ly cn) (broadcastInDim S16x5 ![0, 1] bcast_S16x1_S16x5_0_1
    (Host.divf (broadcastInDim S16x1 ![0] bcast_S16_S16x1_0 (Host.reduceAdd (ly cn) (constant S_ .f32 0x00000000#32) reducesTo_S16x5_S16_d1 h_S_))
      (broadcastInDim S16x1 ![] bcast_S_S16x1 (constant S_ .f32 0x40A00000#32))))

/-- Minus the least-squares slope, per sample. -/
def fd (tab : FVec F S5 .f32) (cn : FVec F S16x5 .f32) : FVec F S16 .f32 :=
  Host.negf (Host.divf
    (Host.reduceAdd (mulf (broadcastInDim S16x5 ![0, 1] bcast_S1x5_S16x5_0_1 (broadcastInDim S1x5 ![1] bcast_S5_S1x5_1 (dx tab))) (dy cn))
      (constant S_ .f32 0x00000000#32) reducesTo_S16x5_S16_d1 h_S_)
    (broadcastInDim S16 ![] bcast_S_S16
      (Host.reduceAdd (mulf (dx tab) (dx tab)) (constant S_ .f32 0x00000000#32) reducesTo_S5_S_d0 h_S_)))

/-- The mean over the sixteen samples of the absolute difference of two per-sample values. -/
def final (a b : FVec F S16 .f32) : FVec F S_ .f32 :=
  Host.divf (Host.reduceAdd (Host.absf (subf a b)) (constant S_ .f32 0x00000000#32) reducesTo_S16_S_d0 h_S_) (constant S_ .f32 0x41800000#32)

/-- Everything after the region, from the two constant tables and the two arrays of partial counts. -/
def tail (t0 t1 : FVec F S5 .f32) (a3 a4 : FVec F S8x8x16x5 .f32) : FVec F S_ .f32 :=
  final (fd t0 (cnts a3)) (fd t1 (cnts a4))

set_option maxRecDepth 16384 in
set_option maxHeartbeats 4000000 in
/-- The result buffer after the seventy operations, from any contents of the buffers they read. -/
theorem after_tail (W : Valuation τ sig (Elt F)) :
    StableHlo.after hostOps1 W (Proc.devRef .tc main_v52)
      = tail (W (Proc.devRef .tc main_cst)) (W (Proc.devRef .tc main_cst_0))
          (W (Proc.devRef .tc main_v0_0)) (W (Proc.devRef .tc main_v0_1)) := by
  unfold tail final fd dy dx mx ly lx cnts
  after_results_simp

end Cert.KernelIdeal.Tail

end
-- ==== Proof.TileSum.lean ====
/-
  The per-tile counts added over the 8 × 8 grid of tiles are the counts of the whole image.

  The kernel leaves, at tile (i, j), sample b and scale l, the number of occupied boxes of side 2^(l+1) inside that
  128 × 128 tile; the host then adds the 64 tiles. A sum over the two leading axes of an [8, 8, 16, 5] array, read at
  (b, l), is the double sum over (i, j); and since 128 is a multiple of every box side, the tiles' counts add up to the
  whole image's (`Spec.boxes_tiles`).
-/
import proofs.«150682_j40690520163157_2_alg».proof.Proof.Spec
import Idealize.ShloMosaic.PureOps.Ideal.Laws
import Idealize.ShloMosaic.PureOps.Reduce

noncomputable section

open scoped BigOperators

namespace Cert.TileSum

open Idealize.ShloMosaic Idealize.ShloMosaic.ValueIdx Cert.Spec

/-- A host sum over axes 0 and 1 of an [8, 8, 16, 5] array, at (b, l): the initial value plus the sum over the tiles. -/
theorem reduce_tiles (G : (⟨4, ![8, 8, 16, 5]⟩ : Shape).Idx → EReal)
    (hr : (⟨4, ![8, 8, 16, 5]⟩ : Shape).ReducesTo [0, 1] ⟨2, ![16, 5]⟩) (init : EReal) (b : Fin 16) (l : Fin 5) :
    Ideal.hostReduceAdd hr G init (ix2 b l) = init + ∑ i : Fin 8, ∑ j : Fin 8, G (ix4 i j b l) := by
  unfold Ideal.hostReduceAdd
  congr 1
  rw [← Finset.sum_product']
  have key : ∀ idx : (⟨4, ![8, 8, 16, 5]⟩ : Shape).Idx, hr.drop idx = ix2 b l →
      idx = ix4 (idx 0 : Fin 8) (idx 1 : Fin 8) b l := by
    intro idx h
    have h0 : ((hr.drop idx (0 : Fin 2) : Fin 16) : ℕ) = ((idx (2 : Fin 4) : Fin 16) : ℕ) :=
      Shape.ReducesTo.drop_apply_val_of_eq hr idx (0 : Fin 2) (2 : Fin 4)
    have h1 : ((hr.drop idx (1 : Fin 2) : Fin 5) : ℕ) = ((idx (3 : Fin 4) : Fin 5) : ℕ) :=
      Shape.ReducesTo.drop_apply_val_of_eq hr idx (1 : Fin 2) (3 : Fin 4)
    rw [h] at h0 h1
    have e2 : (idx (2 : Fin 4) : Fin 16) = b := Fin.ext h0.symm
    have e3 : (idx (3 : Fin 4) : Fin 5) = l := Fin.ext h1.symm
    funext a
    match a with
    | ⟨0, _⟩ => rfl
    | ⟨1, _⟩ => rfl
    | ⟨2, _⟩ => exact e2
    | ⟨3, _⟩ => exact e3
  refine Finset.sum_bij' (fun idx _ => ((idx 0 : Fin 8), (idx 1 : Fin 8))) (fun p _ => ix4 p.1 p.2 b l)
    (fun _ _ => Finset.mem_product.2 ⟨Finset.mem_univ _, Finset.mem_univ _⟩) ?_ ?_ (fun _ _ => rfl) ?_
  · intro p _
    refine Finset.mem_filter.2 ⟨Finset.mem_univ _, ?_⟩
    funext a
    match a with
    | ⟨0, _⟩ => exact Fin.ext (Shape.ReducesTo.drop_apply_val_of_eq hr (ix4 p.1 p.2 b l) (0 : Fin 2) (2 : Fin 4))
    | ⟨1, _⟩ => exact Fin.ext (Shape.ReducesTo.drop_apply_val_of_eq hr (ix4 p.1 p.2 b l) (1 : Fin 2) (3 : Fin 4))
  · intro idx hidx
    exact (key idx (Finset.mem_filter.1 hidx).2).symm
  · intro idx hidx
    exact congrArg G (key idx (Finset.mem_filter.1 hidx).2)

/-- The tiles' counts add up: if the array holds at (i, j, b, l) the boxes of side 2^(l+1) of tile (i, j) of sample b's
    picture, the sum over the tiles is the boxes of the whole picture. -/
theorem tiles_total (X : Fin 16 → Img) (G : (⟨4, ![8, 8, 16, 5]⟩ : Shape).Idx → EReal)
    (hG : ∀ (i j : Fin 8) (b : Fin 16) (l : Fin 5),
      G (ix4 i j b l) = boxes (shift (X b) (128 * i.val) (128 * j.val)) (l.val + 1) (64 / 2 ^ l.val))
    (b : Fin 16) (l : Fin 5) :
    ∑ i : Fin 8, ∑ j : Fin 8, G (ix4 i j b l) = boxes (X b) (l.val + 1) (512 / 2 ^ l.val) := by
  have hside : ∀ i : ℕ, 2 ^ (l.val + 1) * (64 / 2 ^ l.val * i) = 128 * i := by
    intro i
    have hl : l.val = 0 ∨ l.val = 1 ∨ l.val = 2 ∨ l.val = 3 ∨ l.val = 4 := by omega
    rcases hl with h | h | h | h | h <;> rw [h] <;> norm_num <;> ring
  have hn : 8 * (64 / 2 ^ l.val) = 512 / 2 ^ l.val := by
    have hl : l.val = 0 ∨ l.val = 1 ∨ l.val = 2 ∨ l.val = 3 ∨ l.val = 4 := by omega
    rcases hl with h | h | h | h | h <;> rw [h] <;> norm_num
  rw [← hn, ← boxes_tiles (X b) (l.val + 1) 8 (64 / 2 ^ l.val), ← Fin.sum_univ_eq_sum_range]
  refine Finset.sum_congr rfl fun i _ => ?_
  rw [← Fin.sum_univ_eq_sum_range]
  refine Finset.sum_congr rfl fun j _ => ?_
  rw [hG, hside, hside]

end Cert.TileSum

end
-- ==== Proof.KernelValue.lean ====
/-
  The idealized kernel's run, with its result named.

  The frame run leaves in the result buffer what the seventy host operations after the region compute from the two
  arrays of partial counts and the two constant tables written before the region. The arrays are the tiles' box counts
  of the thresholded pictures (the array module), their sums over the tiles are the box counts of the whole pictures
  (the tile-sum law), so the result is the slope computation applied to the specification's counts of the two images.
-/
import proofs.«150682_j40690520163157_2_alg».proof.Proof.FrameKernelIdeal
import proofs.«150682_j40690520163157_2_alg».proof.Proof.KernelArray
import proofs.«150682_j40690520163157_2_alg».proof.Proof.KernelTail
import proofs.«150682_j40690520163157_2_alg».proof.Proof.TileSum
import proofs.«150682_j40690520163157_2_alg».proof.Proof.Spec
import Idealize.ShloMosaic.Lib.StableHlo.Run
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.StableHlo Idealize.ShloMosaic.ValueIdx

/-- A table of five float words as an array. -/
def tab (lit : Fin 5 → BitVec 32) : FVec Ideal S5 .f32 := fun i => FloatOps.ofBits .f32 (lit (S5.rowMajor i))

variable (m : (ℓ : Loc nD τ sig) → Buf (Elt Ideal) ℓ) (ρ : Dev nD → PrngReg)

/-- The two operations before the region write the two tables of box sides. -/
theorem V0_cst (c : Dev nD) : Fr.V0 m c (Proc.devRef .tc main_cst) = tab lit0 := by
  dsimp only [Fr.V0]
  simp only [hostOps0, List.flatten_cons, List.flatten_nil, List.append_nil]
  after_results
  rfl

theorem V0_cst_0 (c : Dev nD) : Fr.V0 m c (Proc.devRef .tc main_cst_0) = tab lit1 := by
  dsimp only [Fr.V0]
  simp only [hostOps0, List.flatten_cons, List.flatten_nil, List.append_nil]
  after_results
  rfl

/-- The result buffer after the tail, from the final arrays of partial counts. -/
theorem tail_read (c : Dev nD) :
    Pipeline.afterTail₀ cfgs (Fr.dats m) 0 (Fr.V0 m) [hostOps1] c main_v52
      = Tail.tail (tab lit0) (tab lit1) ((Fr.dats m 0 c).arrAt 3 cfg0.N) ((Fr.dats m 0 c).arrAt 4 cfg0.N) := by
  unfold Pipeline.afterTail₀
  show StableHlo.after hostOps1 _ (Proc.devRef .tc main_v52) = _
  rw [Tail.after_tail]
  rw [Pipeline.withArrays_of_ne spec0 c (Fr.V0 m c) _ main_cst (by decide),
    Pipeline.withArrays_of_ne spec0 c (Fr.V0 m c) _ main_cst_0 (by decide), V0_cst, V0_cst_0]
  have e3 : Pipeline.withArrays (cfgs 0).spec c (Fr.V0 m c) (fun w => (Fr.dats m 0 c).arrAt w (cfgs 0).N) (Proc.devRef .tc main_v0_0)
      = (Fr.dats m 0 c).arrAt 3 cfg0.N :=
    Pipeline.withArrays_arr spec0 launch0.win.arr_inj c (Fr.V0 m c) (fun w => (Fr.dats m 0 c).arrAt w cfg0.N) 3
  have e4 : Pipeline.withArrays (cfgs 0).spec c (Fr.V0 m c) (fun w => (Fr.dats m 0 c).arrAt w (cfgs 0).N) (Proc.devRef .tc main_v0_1)
      = (Fr.dats m 0 c).arrAt 4 cfg0.N :=
    Pipeline.withArrays_arr spec0 launch0.win.arr_inj c (Fr.V0 m c) (fun w => (Fr.dats m 0 c).arrAt w cfg0.N) 4
  rw [e3, e4]

/-- The partial counts added over the tiles are the specification's counts. -/
theorem cnts_G (a : FVec Ideal S16x3x1024x1024 .f32) (mk : FVec Ideal S16x1x1024x1024 .f32) :
    Tail.cnts (F := Ideal) (Arr.G a mk) = Cert.Spec.counts a mk := by
  funext j
  obtain ⟨b, l, rfl⟩ : ∃ (b : Fin 16) (l : Fin 5), j = ix2 b l := ⟨j 0, j 1, eq_ix2 j⟩
  show Ideal.hostReduceAdd reducesTo_S8x8x16x5_S16x5_d0_1 (Arr.G a mk) (Ideal.ofBits .f32 0x00000000#32) (ix2 b l) = _
  rw [Cert.TileSum.reduce_tiles, Cert.TileSum.tiles_total (fun b => Cert.Spec.pixel a mk b) (Arr.G a mk) (fun i j b l => rfl) b l,
    Ideal.ofBits_zero_f32, zero_add]
  rfl

/-- THE RUN: every weakly fair execution of the idealized kernel's @main terminates with the result buffer at the slope
    computation of the specification's counts of the two images, and the arguments unchanged. -/
theorem run (hF : Arr.TileLaw Arr.payF) (hT : Arr.TileLaw Arr.payT) :
    θ_run defs (onTc (τ := τ) (main (F := Ideal))) ⟨m, fun _ => 0, ρ⟩ fun r => ∀ c : Dev nD,
      r.2.mem ((c.tc : Thread nD τ).loc main_v52)
          = Tail.final (Tail.fd (tab lit0) (Cert.Spec.counts (m ((c.tc : Thread nD τ).loc main_arg0)) (m ((c.tc : Thread nD τ).loc main_arg2))))
              (Tail.fd (tab lit1) (Cert.Spec.counts (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨by
      rw [(h c).2 main_v52 (Pipeline.mem_restRefs_of main_v52 (by decide) (by decide)), tail_read, Arr.final3 m hF c, Arr.final4 m hT c]
      unfold Tail.tail
      rw [cnts_G, cnts_G],
    Fr.args_kept m (Fr.dats m) (Fr.A_eq m) h c⟩) (Fr.run_main m ρ)

end Cert.KernelIdeal.Val

end
-- ==== Proof.RefStages.lean ====
import proofs.«150682_j40690520163157_2_alg».proof.Proof.Gen.ReferenceIdeal

/-! The reference computation cut into named stages: each a plain function of arrays, the composition of the
    program's host operations for that stage, with every shape side condition the one the program cites. -/

noncomputable section

namespace Cert.ReferenceIdeal.HRun

open Cert.ReferenceIdeal Cert.ReferenceIdeal.Gen Idealize.ShloMosaic Idealize.SL.Sem

variable {F : FTy → Type} [FloatOps F]

/-! ## The stages of the reference computation, as plain functions of arrays -/

/-- The channel mean of an image batch, masked: the sum over the channel axis divided by three, times the mask. -/
def region (a : FVec F S16x3x1024x1024 .f32) (mk : FVec F S16x1x1024x1024 .f32) : FVec F S16x1024x1024 .f32 :=
  mulf (Host.divf (Host.reduceAdd a (constant S_ .f32 0x00000000#32) reducesTo_S16x3x1024x1024_S16x1024x1024_d1 h_S_)
      (broadcastInDim S16x1024x1024 ![] bcast_S_S16x1024x1024 (constant S_ .f32 0x40400000#32)))
    (shapeCast S16x1024x1024 mk shapeCasts_S16x1x1024x1024_S16x1024x1024)

/-- The indicator of the values above one half, as a float array of zeros and ones. -/
def binar (r : FVec F S16x1024x1024 .f32) : FVec F S16x1024x1024 .f32 :=
  uitofp .f32 (cmpf .ogt r (broadcastInDim S16x1024x1024 ![] bcast_S_S16x1024x1024 (constant S_ .f32 0x3F000000#32)))

/-- The maximum over each 2 x 2 block: 1024 x 1024 to 512 x 512. -/
def pool512 (x : FVec F S16x1024x1024 .f32) : FVec F S16x512x512 .f32 :=
  Host.reduce FloatOps.maximumf (shapeCast S16x512x2x512x2 x shapeCasts_S16x1024x1024_S16x512x2x512x2) (constant S_ .f32 0xFF800000#32) reducesTo_S16x512x2x512x2_S16x512x512_d2_4 h_S_
/-- The maximum over each 2 x 2 block: 512 x 512 to 256 x 256. -/
def pool256 (x : FVec F S16x512x512 .f32) : FVec F S16x256x256 .f32 :=
  Host.reduce FloatOps.maximumf (shapeCast S16x256x2x256x2 x shapeCasts_S16x512x512_S16x256x2x256x2) (constant S_ .f32 0xFF800000#32) reducesTo_S16x256x2x256x2_S16x256x256_d2_4 h_S_
/-- The maximum over each 2 x 2 block: 256 x 256 to 128 x 128. -/
def pool128 (x : FVec F S16x256x256 .f32) : FVec F S16x128x128 .f32 :=
  Host.reduce FloatOps.maximumf (shapeCast S16x128x2x128x2 x shapeCasts_S16x256x256_S16x128x2x128x2) (constant S_ .f32 0xFF800000#32) reducesTo_S16x128x2x128x2_S16x128x128_d2_4 h_S_
/-- The maximum over each 2 x 2 block: 128 x 128 to 64 x 64. -/
def pool64 (x : FVec F S16x128x128 .f32) : FVec F S16x64x64 .f32 :=
  Host.reduce FloatOps.maximumf (shapeCast S16x64x2x64x2 x shapeCasts_S16x128x128_S16x64x2x64x2) (constant S_ .f32 0xFF800000#32) reducesTo_S16x64x2x64x2_S16x64x64_d2_4 h_S_
/-- The maximum over each 2 x 2 block: 64 x 64 to 32 x 32. -/
def pool32 (x : FVec F S16x64x64 .f32) : FVec F S16x32x32 .f32 :=
  Host.reduce FloatOps.maximumf (shapeCast S16x32x2x32x2 x shapeCasts_S16x64x64_S16x32x2x32x2) (constant S_ .f32 0xFF800000#32) reducesTo_S16x32x2x32x2_S16x32x32_d2_4 h_S_

/-- The sum of a 512 x 512 level over its two spatial axes, per image, as a column. -/
def cnt512 (p : FVec F S16x512x512 .f32) : FVec F S16x1 .f32 :=
  broadcastInDim S16x1 ![0] bcast_S16_S16x1_0 (Host.reduceAdd p (constant S_ .f32 0x00000000#32) reducesTo_S16x512x512_S16_d1_2 h_S_)
/-- The sum of a 256 x 256 level over its two spatial axes, per image, as a column. -/
def cnt256 (p : FVec F S16x256x256 .f32) : FVec F S16x1 .f32 :=
  broadcastInDim S16x1 ![0] bcast_S16_S16x1_0 (Host.reduceAdd p (constant S_ .f32 0x00000000#32) reducesTo_S16x256x256_S16_d1_2 h_S_)
/-- The sum of a 128 x 128 level over its two spatial axes, per image, as a column. -/
def cnt128 (p : FVec F S16x128x128 .f32) : FVec F S16x1 .f32 :=
  broadcastInDim S16x1 ![0] bcast_S16_S16x1_0 (Host.reduceAdd p (constant S_ .f32 0x00000000#32) reducesTo_S16x128x128_S16_d1_2 h_S_)
/-- The sum of a 64 x 64 level over its two spatial axes, per image, as a column. -/
def cnt64 (p : FVec F S16x64x64 .f32) : FVec F S16x1 .f32 :=
  broadcastInDim S16x1 ![0] bcast_S16_S16x1_0 (Host.reduceAdd p (constant S_ .f32 0x00000000#32) reducesTo_S16x64x64_S16_d1_2 h_S_)
/-- The sum of a 32 x 32 level over its two spatial axes, per image, as a column. -/
def cnt32 (p : FVec F S16x32x32 .f32) : FVec F S16x1 .f32 :=
  broadcastInDim S16x1 ![0] bcast_S16_S16x1_0 (Host.reduceAdd p (constant S_ .f32 0x00000000#32) reducesTo_S16x32x32_S16_d1_2 h_S_)

/-- Five columns side by side: a 16 x 5 table. -/
def cat5 (u0 u1 u2 u3 u4 : FVec F S16x1 .f32) : FVec F S16x5 .f32 :=
  concatenate S16x5 1 [⟨S16x1, u0⟩, ⟨S16x1, u1⟩, ⟨S16x1, u2⟩, ⟨S16x1, u3⟩, ⟨S16x1, u4⟩] concatenates_S16x1_S16x1_S16x1_S16x1_S16x1_S16x5_d1

/-- The box counts at the five scales, each level pooled from the previous one. -/
def counts (x : FVec F S16x1024x1024 .f32) : FVec F S16x5 .f32 :=
  cat5 (cnt512 (pool512 x)) (cnt256 (pool256 (pool512 x))) (cnt128 (pool128 (pool256 (pool512 x))))
    (cnt64 (pool64 (pool128 (pool256 (pool512 x))))) (cnt32 (pool32 (pool64 (pool128 (pool256 (pool512 x))))))

/-- The constant table of the five scales, as floats. -/
def tab (lit : Fin 5 → BitVec 32) : FVec F S5 .f32 := fun i => FloatOps.ofBits .f32 (lit (S5.rowMajor i))

/-- The logarithms of the five scales. -/
def lx (lit : Fin 5 → BitVec 32) : FVec F S5 .f32 := Host.log (tab (F := F) lit)

/-- The logarithms of the counts, each shifted by a small positive constant. -/
def ly (cn : FVec F S16x5 .f32) : FVec F S16x5 .f32 :=
  Host.log (addf cn (broadcastInDim S16x5 ![] bcast_S_S16x5 (constant S_ .f32 0x322BCC77#32)))

/-- The mean of the five log scales. -/
def mx (lit : Fin 5 → BitVec 32) : FVec F S_ .f32 :=
  Host.divf (Host.reduceAdd (lx (F := F) lit) (constant S_ .f32 0x00000000#32) reducesTo_S5_S_d0 h_S_) (constant S_ .f32 0x40A00000#32)

/-- The log scales minus their mean. -/
def dx (lit : Fin 5 → BitVec 32) : FVec F S5 .f32 :=
  subf (lx (F := F) lit) (broadcastInDim S5 ![] bcast_S_S5 (mx (F := F) lit))

/-- The log counts minus their mean over the five scales, per image. -/
def dy (cn : FVec F S16x5 .f32) : FVec F S16x5 .f32 :=
  subf (ly cn) (broadcastInDim S16x5 ![0, 1] bcast_S16x1_S16x5_0_1
    (Host.divf (broadcastInDim S16x1 ![0] bcast_S16_S16x1_0 (Host.reduceAdd (ly cn) (constant S_ .f32 0x00000000#32) reducesTo_S16x5_S16_d1 h_S_))
      (broadcastInDim S16x1 ![] bcast_S_S16x1 (constant S_ .f32 0x40A00000#32))))

/-- Minus the least-squares slope of the log counts against the log scales, per image. -/
def fd (lit : Fin 5 → BitVec 32) (cn : FVec F S16x5 .f32) : FVec F S16 .f32 :=
  Host.negf (Host.divf
    (Host.reduceAdd (mulf (broadcastInDim S16x5 ![0, 1] bcast_S1x5_S16x5_0_1 (broadcastInDim S1x5 ![1] bcast_S5_S1x5_1 (dx (F := F) lit))) (dy cn))
      (constant S_ .f32 0x00000000#32) reducesTo_S16x5_S16_d1 h_S_)
    (broadcastInDim S16 ![] bcast_S_S16
      (Host.reduceAdd (mulf (dx (F := F) lit) (dx (F := F) lit)) (constant S_ .f32 0x00000000#32) reducesTo_S5_S_d0 h_S_)))

/-- The mean over the sixteen images of the absolute difference of two per-image values. -/
def final (a b : FVec F S16 .f32) : FVec F S_ .f32 :=
  Host.divf (Host.reduceAdd (Host.absf (subf a b)) (constant S_ .f32 0x00000000#32) reducesTo_S16_S_d0 h_S_) (constant S_ .f32 0x41800000#32)

/-- The reference's result as a function of its three arguments. -/
def out (f t : FVec F S16x3x1024x1024 .f32) (mk : FVec F S16x1x1024x1024 .f32) : FVec F S_ .f32 :=
  final (fd lit0 (counts (binar (region f mk)))) (fd lit1 (counts (binar (region t mk))))

end Cert.ReferenceIdeal.HRun

end
-- ==== Proof.RefRun.lean ====
import proofs.«150682_j40690520163157_2_alg».proof.Proof.RefStages
import Idealize.ShloMosaic.Lib.StableHlo.Run
import Idealize.ShloMosaic.Lib.Pipeline.Frame

/-! The reference program's run: its host operations as a list, the program equal to the list run in order, and
    the final contents of its result buffer as the named stages' composition applied to the arguments. -/

set_option Elab.async false

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of the reference program, in order. -/
abbrev ops_part0 : List (HloOp τ sig (Elt F)) :=
  [ StableHlo.nullary main_cst (fun i => FloatOps.ofBits .f32 (lit0 (S5.rowMajor i))),
    StableHlo.nullary main_cst_0 (fun i => FloatOps.ofBits .f32 (lit1 (S5.rowMajor i))),
    StableHlo.reshape main_arg2 main_v0 rfl shapeCasts_S16x1x1024x1024_S16x1024x1024,
    StableHlo.nullary main_cst_1 (constant S_ .f32 0x00000000#32),
    StableHlo.binary main_arg0 main_cst_1 main_v1 ((fun x v => Host.reduceAdd x v reducesTo_S16x3x1024x1024_S16x1024x1024_d1 h_S_) : (⟨S16x3x1024x1024, .f32⟩ : BufTy).Contents (Elt F) → (⟨S_, .f32⟩ : BufTy).Contents (Elt F) → (⟨S16x1024x1024, .f32⟩ : BufTy).Contents (Elt F)),
    StableHlo.nullary main_cst_2 (constant S_ .f32 0x40400000#32),
    StableHlo.unary main_cst_2 main_v2 (broadcastInDim S16x1024x1024 ![] bcast_S_S16x1024x1024 : (⟨S_, .f32⟩ : BufTy).Contents (Elt F) → (⟨S16x1024x1024, .f32⟩ : BufTy).Contents (Elt F)),
    StableHlo.binary main_v1 main_v2 main_v3 (Host.divf : (⟨S16x1024x1024, .f32⟩ : BufTy).Contents (Elt F) → (⟨S16x1024x1024, .f32⟩ : BufTy).Contents (Elt F) → (⟨S16x1024x1024, .f32⟩ : BufTy).Contents (Elt F)),
    StableHlo.binary main_v3 main_v0 main_v4 (mulf : (⟨S16x1024x1024, .f32⟩ : BufTy).Contents (Elt F) → (⟨S16x1024x1024, .f32⟩ : BufTy).Contents (Elt F) → (⟨S16x1024x1024, .f32⟩ : BufTy).Contents (Elt F)),
    StableHlo.nullary main_cst_3 (constant S_ .f32 0x00000000#32),
    StableHlo.binary main_arg1 main_cst_3 main_v5 ((fun x v => Host.reduceAdd x v reducesTo_S16x3x1024x1024_S16x1024x1024_d1 h_S_) : (⟨S16x3x1024x1024, .f32⟩ : BufTy).Contents (Elt F) → (⟨S_, .f32⟩ : BufTy).Contents (Elt F) → (⟨S16x1024x1024, .f32⟩ : BufTy).Contents (Elt F)),
    StableHlo.nullary main_cst_4 (constant S_ .f32 0x40400000#32),
    StableHlo.unary main_cst_4 main_v6 (broadcastInDim S16x1024x1024 ![] bcast_S_S16x1024x1024 : (⟨S_, .f32⟩ : BufTy).Contents (Elt F) → (⟨S16x1024x1024, .f32⟩ : BufTy).Contents (Elt F)),
    StableHlo.binary main_v5 main_v6 main_v7 (Host.divf : (⟨S16x1024x1024, .f32⟩ : BufTy).Contents (Elt F) → (⟨S16x1024x1024, .f32⟩ : BufTy).Contents (Elt F) → (⟨S16x1024x1024, .f32⟩ : BufTy).Contents (Elt F)),
    StableHlo.binary main_v7 main_v0 main_v8 (mulf : (⟨S16x1024x1024, .f32⟩ : BufTy).Contents (Elt F) → (⟨S16x1024x1024, .f32⟩ : BufTy).Contents (Elt F) → (⟨S16x1024x1024, .f32⟩ : BufTy).Contents (Elt F)),
    StableHlo.nullary main_cst_5 (constant S_ .f32 0x3F000000#32),
    StableHlo.unary main_cst_5 main_v9 (broadcastInDim S16x1024x1024 ![] bcast_S_S16x1024x1024 : (⟨S_, .f32⟩ : BufTy).Contents (Elt F) → (⟨S16x1024x1024, .f32⟩ : BufTy).Contents (Elt F)),
    StableHlo.binary main_v4 main_v9 main_v10 (cmpf .ogt : (⟨S16x1024x1024, .f32⟩ : BufTy).Contents (Elt F) → (⟨S16x1024x1024, .f32⟩ : BufTy).Contents (Elt F) → (⟨S16x1024x1024, .i1⟩ : BufTy).Contents (Elt F)),
    StableHlo.unary main_v10 main_v11 (uitofp .f32 : (⟨S16x1024x1024, .i1⟩ : BufTy).Contents (Elt F) → (⟨S16x1024x1024, .f32⟩ : BufTy).Contents (Elt F)),
    StableHlo.reshape main_v11 main_v12 rfl shapeCasts_S16x1024x1024_S16x512x2x512x2,
    StableHlo.nullary main_cst_6 (constant S_ .f32 0xFF800000#32),
    StableHlo.binary main_v12 main_cst_6 main_v13 ((fun x v => Host.reduce FloatOps.maximumf x v reducesTo_S16x512x2x512x2_S16x512x512_d2_4 h_S_) : (⟨S16x512x2x512x2, .f32⟩ : BufTy).Contents (Elt F) → (⟨S_, .f32⟩ : BufTy).Contents (Elt F) → (⟨S16x512x512, .f32⟩ : BufTy).Contents (Elt F)),
    StableHlo.nullary main_cst_7 (constant S_ .f32 0x00000000#32),
    StableHlo.binary main_v13 main_cst_7 main_v14 ((fun x v => Host.reduceAdd x v reducesTo_S16x512x512_S16_d1_2 h_S_) : (⟨S16x512x512, .f32⟩ : BufTy).Contents (Elt F) → (⟨S_, .f32⟩ : BufTy).Contents (Elt F) → (⟨S16, .f32⟩ : BufTy).Contents (Elt F)),
    StableHlo.reshape main_v13 main_v15 rfl shapeCasts_S16x512x512_S16x256x2x256x2,
    StableHlo.nullary main_cst_8 (constant S_ .f32 0xFF800000#32),
    StableHlo.binary main_v15 main_cst_8 main_v16 ((fun x v => Host.reduce FloatOps.maximumf x v reducesTo_S16x256x2x256x2_S16x256x256_d2_4 h_S_) : (⟨S16x256x2x256x2, .f32⟩ : BufTy).Contents (Elt F) → (⟨S_, .f32⟩ : BufTy).Contents (Elt F) → (⟨S16x256x256, .f32⟩ : BufTy).Contents (Elt F)),
    StableHlo.nullary main_cst_9 (constant S_ .f32 0x00000000#32),
    StableHlo.binary main_v16 main_cst_9 main_v17 ((fun x v => Host.reduceAdd x v reducesTo_S16x256x256_S16_d1_2 h_S_) : (⟨S16x256x256, .f32⟩ : BufTy).Contents (Elt F) → (⟨S_, .f32⟩ : BufTy).Contents (Elt F) → (⟨S16, .f32⟩ : BufTy).Contents (Elt F)),
    StableHlo.reshape main_v16 main_v18 rfl shapeCasts_S16x256x256_S16x128x2x128x2,
    StableHlo.nullary main_cst_10 (constant S_ .f32 0xFF800000#32),
    StableHlo.binary main_v18 main_cst_10 main_v19 ((fun x v => Host.reduce FloatOps.maximumf x v reducesTo_S16x128x2x128x2_S16x128x128_d2_4 h_S_) : (⟨S16x128x2x128x2, .f32⟩ : BufTy).Contents (Elt F) → (⟨S_, .f32⟩ : BufTy).Contents (Elt F) → (⟨S16x128x128, .f32⟩ : BufTy).Contents (Elt F)),
    StableHlo.nullary main_cst_11 (constant S_ .f32 0x00000000#32),
    StableHlo.binary main_v19 main_cst_11 main_v20 ((fun x v => Host.reduceAdd x v reducesTo_S16x128x128_S16_d1_2 h_S_) : (⟨S16x128x128, .f32⟩ : BufTy).Contents (Elt F) → (⟨S_, .f32⟩ : BufTy).Contents (Elt F) → (⟨S16, .f32⟩ : BufTy).Contents (Elt F)),
    StableHlo.reshape main_v19 main_v21 rfl shapeCasts_S16x128x128_S16x64x2x64x2,
    StableHlo.nullary main_cst_12 (constant S_ .f32 0xFF800000#32),
    StableHlo.binary main_v21 main_cst_12 main_v22 ((fun x v => Host.reduce FloatOps.maximumf x v reducesTo_S16x64x2x64x2_S16x64x64_d2_4 h_S_) : (⟨S16x64x2x64x2, .f32⟩ : BufTy).Contents (Elt F) → (⟨S_, .f32⟩ : BufTy).Contents (Elt F) → (⟨S16x64x64, .f32⟩ : BufTy).Contents (Elt F)),
    StableHlo.nullary main_cst_13 (constant S_ .f32 0x00000000#32),
    StableHlo.binary main_v22 main_cst_13 main_v23 ((fun x v => Host.reduceAdd x v reducesTo_S16x64x64_S16_d1_2 h_S_) : (⟨S16x64x64, .f32⟩ : BufTy).Contents (Elt F) → (⟨S_, .f32⟩ : BufTy).Contents (Elt F) → (⟨S16, .f32⟩ : BufTy).Contents (Elt F)),
    StableHlo.reshape main_v22 main_v24 rfl shapeCasts_S16x64x64_S16x32x2x32x2,
    StableHlo.nullary main_cst_14 (constant S_ .f32 0xFF800000#32),
    StableHlo.binary main_v24 main_cst_14 main_v25 ((fun x v => Host.reduce FloatOps.maximumf x v reducesTo_S16x32x2x32x2_S16x32x32_d2_4 h_S_) : (⟨S16x32x2x32x2, .f32⟩ : BufTy).Contents (Elt F) → (⟨S_, .f32⟩ : BufTy).Contents (Elt F) → (⟨S16x32x32, .f32⟩ : BufTy).Contents (Elt F)),
    StableHlo.nullary main_cst_15 (constant S_ .f32 0x00000000#32),
    StableHlo.binary main_v25 main_cst_15 main_v26 ((fun x v => Host.reduceAdd x v reducesTo_S16x32x32_S16_d1_2 h_S_) : (⟨S16x32x32, .f32⟩ : BufTy).Contents (Elt F) → (⟨S_, .f32⟩ : BufTy).Contents (Elt F) → (⟨S16, .f32⟩ : BufTy).Contents (Elt F)),
    StableHlo.unary main_v14 main_v27 (broadcastInDim S16x1 ![0] bcast_S16_S16x1_0 : (⟨S16, .f32⟩ : BufTy).Contents (Elt F) → (⟨S16x1, .f32⟩ : BufTy).Contents (Elt F)),
    StableHlo.unary main_v17 main_v28 (broadcastInDim S16x1 ![0] bcast_S16_S16x1_0 : (⟨S16, .f32⟩ : BufTy).Contents (Elt F) → (⟨S16x1, .f32⟩ : BufTy).Contents (Elt F)),
    StableHlo.unary main_v20 main_v29 (broadcastInDim S16x1 ![0] bcast_S16_S16x1_0 : (⟨S16, .f32⟩ : BufTy).Contents (Elt F) → (⟨S16x1, .f32⟩ : BufTy).Contents (Elt F)),
    StableHlo.unary main_v23 main_v30 (broadcastInDim S16x1 ![0] bcast_S16_S16x1_0 : (⟨S16, .f32⟩ : BufTy).Contents (Elt F) → (⟨S16x1, .f32⟩ : BufTy).Contents (Elt F)),
    StableHlo.unary main_v26 main_v31 (broadcastInDim S16x1 ![0] bcast_S16_S16x1_0 : (⟨S16, .f32⟩ : BufTy).Contents (Elt F) → (⟨S16x1, .f32⟩ : BufTy).Contents (Elt F)),
    StableHlo.nary ![main_v27, main_v28, main_v29, main_v30, main_v31] main_v32 (fun u => cat5 (F := F) (u 0) (u 1) (u 2) (u 3) (u 4)),
    StableHlo.unary main_cst main_v33 (Host.log : (⟨S5, .f32⟩ : BufTy).Contents (Elt F) → (⟨S5, .f32⟩ : BufTy).Contents (Elt F)),
    StableHlo.nullary main_cst_16 (constant S_ .f32 0x322BCC77#32),
    StableHlo.unary main_cst_16 main_v34 (broadcastInDim S16x5 ![] bcast_S_S16x5 : (⟨S_, .f32⟩ : BufTy).Contents (Elt F) → (⟨S16x5, .f32⟩ : BufTy).Contents (Elt F)),
    StableHlo.binary main_v32 main_v34 main_v35 (addf : (⟨S16x5, .f32⟩ : BufTy).Contents (Elt F) → (⟨S16x5, .f32⟩ : BufTy).Contents (Elt F) → (⟨S16x5, .f32⟩ : BufTy).Contents (Elt F)),
    StableHlo.unary main_v35 main_v36 (Host.log : (⟨S16x5, .f32⟩ : BufTy).Contents (Elt F) → (⟨S16x5, .f32⟩ : BufTy).Contents (Elt F)),
    StableHlo.nullary main_cst_17 (constant S_ .f32 0x00000000#32),
    StableHlo.binary main_v33 main_cst_17 main_v37 ((fun x v => Host.reduceAdd x v reducesTo_S5_S_d0 h_S_) : (⟨S5, .f32⟩ : BufTy).Contents (Elt F) → (⟨S_, .f32⟩ : BufTy).Contents (Elt F) → (⟨S_, .f32⟩ : BufTy).Contents (Elt F)),
    StableHlo.nullary main_cst_18 (constant S_ .f32 0x40A00000#32),
    StableHlo.binary main_v37 main_cst_18 main_v38 (Host.divf : (⟨S_, .f32⟩ : BufTy).Contents (Elt F) → (⟨S_, .f32⟩ : BufTy).Contents (Elt F) → (⟨S_, .f32⟩ : BufTy).Contents (Elt F)),
    StableHlo.nullary main_cst_19 (constant S_ .f32 0x00000000#32) ]

/-- The operations of window 1 of the reference program, in order. -/
abbrev ops_part1 : List (HloOp τ sig (Elt F)) :=
  [ StableHlo.binary main_v36 main_cst_19 main_v39 ((fun x v => Host.reduceAdd x v reducesTo_S16x5_S16_d1 h_S_) : (⟨S16x5, .f32⟩ : BufTy).Contents (Elt F) → (⟨S_, .f32⟩ : BufTy).Contents (Elt F) → (⟨S16, .f32⟩ : BufTy).Contents (Elt F)),
    StableHlo.unary main_v39 main_v40 (broadcastInDim S16x1 ![0] bcast_S16_S16x1_0 : (⟨S16, .f32⟩ : BufTy).Contents (Elt F) → (⟨S16x1, .f32⟩ : BufTy).Contents (Elt F)),
    StableHlo.nullary main_cst_20 (constant S_ .f32 0x40A00000#32),
    StableHlo.unary main_cst_20 main_v41 (broadcastInDim S16x1 ![] bcast_S_S16x1 : (⟨S_, .f32⟩ : BufTy).Contents (Elt F) → (⟨S16x1, .f32⟩ : BufTy).Contents (Elt F)),
    StableHlo.binary main_v40 main_v41 main_v42 (Host.divf : (⟨S16x1, .f32⟩ : BufTy).Contents (Elt F) → (⟨S16x1, .f32⟩ : BufTy).Contents (Elt F) → (⟨S16x1, .f32⟩ : BufTy).Contents (Elt F)),
    StableHlo.unary main_v38 main_v43 (broadcastInDim S5 ![] bcast_S_S5 : (⟨S_, .f32⟩ : BufTy).Contents (Elt F) → (⟨S5, .f32⟩ : BufTy).Contents (Elt F)),
    StableHlo.binary main_v33 main_v43 main_v44 (subf : (⟨S5, .f32⟩ : BufTy).Contents (Elt F) → (⟨S5, .f32⟩ : BufTy).Contents (Elt F) → (⟨S5, .f32⟩ : BufTy).Contents (Elt F)),
    StableHlo.unary main_v42 main_v45 (broadcastInDim S16x5 ![0, 1] bcast_S16x1_S16x5_0_1 : (⟨S16x1, .f32⟩ : BufTy).Contents (Elt F) → (⟨S16x5, .f32⟩ : BufTy).Contents (Elt F)),
    StableHlo.binary main_v36 main_v45 main_v46 (subf : (⟨S16x5, .f32⟩ : BufTy).Contents (Elt F) → (⟨S16x5, .f32⟩ : BufTy).Contents (Elt F) → (⟨S16x5, .f32⟩ : BufTy).Contents (Elt F)),
    StableHlo.unary main_v44 main_v47 (broadcastInDim S1x5 ![1] bcast_S5_S1x5_1 : (⟨S5, .f32⟩ : BufTy).Contents (Elt F) → (⟨S1x5, .f32⟩ : BufTy).Contents (Elt F)),
    StableHlo.unary main_v47 main_v48 (broadcastInDim S16x5 ![0, 1] bcast_S1x5_S16x5_0_1 : (⟨S1x5, .f32⟩ : BufTy).Contents (Elt F) → (⟨S16x5, .f32⟩ : BufTy).Contents (Elt F)),
    StableHlo.binary main_v48 main_v46 main_v49 (mulf : (⟨S16x5, .f32⟩ : BufTy).Contents (Elt F) → (⟨S16x5, .f32⟩ : BufTy).Contents (Elt F) → (⟨S16x5, .f32⟩ : BufTy).Contents (Elt F)),
    StableHlo.nullary main_cst_21 (constant S_ .f32 0x00000000#32),
    StableHlo.binary main_v49 main_cst_21 main_v50 ((fun x v => Host.reduceAdd x v reducesTo_S16x5_S16_d1 h_S_) : (⟨S16x5, .f32⟩ : BufTy).Contents (Elt F) → (⟨S_, .f32⟩ : BufTy).Contents (Elt F) → (⟨S16, .f32⟩ : BufTy).Contents (Elt F)),
    StableHlo.binary main_v44 main_v44 main_v51 (mulf : (⟨S5, .f32⟩ : BufTy).Contents (Elt F) → (⟨S5, .f32⟩ : BufTy).Contents (Elt F) → (⟨S5, .f32⟩ : BufTy).Contents (Elt F)),
    StableHlo.nullary main_cst_22 (constant S_ .f32 0x00000000#32),
    StableHlo.binary main_v51 main_cst_22 main_v52 ((fun x v => Host.reduceAdd x v reducesTo_S5_S_d0 h_S_) : (⟨S5, .f32⟩ : BufTy).Contents (Elt F) → (⟨S_, .f32⟩ : BufTy).Contents (Elt F) → (⟨S_, .f32⟩ : BufTy).Contents (Elt F)),
    StableHlo.unary main_v52 main_v53 (broadcastInDim S16 ![] bcast_S_S16 : (⟨S_, .f32⟩ : BufTy).Contents (Elt F) → (⟨S16, .f32⟩ : BufTy).Contents (Elt F)),
    StableHlo.binary main_v50 main_v53 main_v54 (Host.divf : (⟨S16, .f32⟩ : BufTy).Contents (Elt F) → (⟨S16, .f32⟩ : BufTy).Contents (Elt F) → (⟨S16, .f32⟩ : BufTy).Contents (Elt F)),
    StableHlo.unary main_v54 main_v55 (Host.negf : (⟨S16, .f32⟩ : BufTy).Contents (Elt F) → (⟨S16, .f32⟩ : BufTy).Contents (Elt F)),
    StableHlo.nullary main_cst_23 (constant S_ .f32 0x3F000000#32),
    StableHlo.unary main_cst_23 main_v56 (broadcastInDim S16x1024x1024 ![] bcast_S_S16x1024x1024 : (⟨S_, .f32⟩ : BufTy).Contents (Elt F) → (⟨S16x1024x1024, .f32⟩ : BufTy).Contents (Elt F)),
    StableHlo.binary main_v8 main_v56 main_v57 (cmpf .ogt : (⟨S16x1024x1024, .f32⟩ : BufTy).Contents (Elt F) → (⟨S16x1024x1024, .f32⟩ : BufTy).Contents (Elt F) → (⟨S16x1024x1024, .i1⟩ : BufTy).Contents (Elt F)),
    StableHlo.unary main_v57 main_v58 (uitofp .f32 : (⟨S16x1024x1024, .i1⟩ : BufTy).Contents (Elt F) → (⟨S16x1024x1024, .f32⟩ : BufTy).Contents (Elt F)),
    StableHlo.reshape main_v58 main_v59 rfl shapeCasts_S16x1024x1024_S16x512x2x512x2,
    StableHlo.nullary main_cst_24 (constant S_ .f32 0xFF800000#32),
    StableHlo.binary main_v59 main_cst_24 main_v60 ((fun x v => Host.reduce FloatOps.maximumf x v reducesTo_S16x512x2x512x2_S16x512x512_d2_4 h_S_) : (⟨S16x512x2x512x2, .f32⟩ : BufTy).Contents (Elt F) → (⟨S_, .f32⟩ : BufTy).Contents (Elt F) → (⟨S16x512x512, .f32⟩ : BufTy).Contents (Elt F)),
    StableHlo.nullary main_cst_25 (constant S_ .f32 0x00000000#32),
    StableHlo.binary main_v60 main_cst_25 main_v61 ((fun x v => Host.reduceAdd x v reducesTo_S16x512x512_S16_d1_2 h_S_) : (⟨S16x512x512, .f32⟩ : BufTy).Contents (Elt F) → (⟨S_, .f32⟩ : BufTy).Contents (Elt F) → (⟨S16, .f32⟩ : BufTy).Contents (Elt F)),
    StableHlo.reshape main_v60 main_v62 rfl shapeCasts_S16x512x512_S16x256x2x256x2,
    StableHlo.nullary main_cst_26 (constant S_ .f32 0xFF800000#32),
    StableHlo.binary main_v62 main_cst_26 main_v63 ((fun x v => Host.reduce FloatOps.maximumf x v reducesTo_S16x256x2x256x2_S16x256x256_d2_4 h_S_) : (⟨S16x256x2x256x2, .f32⟩ : BufTy).Contents (Elt F) → (⟨S_, .f32⟩ : BufTy).Contents (Elt F) → (⟨S16x256x256, .f32⟩ : BufTy).Contents (Elt F)),
    StableHlo.nullary main_cst_27 (constant S_ .f32 0x00000000#32),
    StableHlo.binary main_v63 main_cst_27 main_v64 ((fun x v => Host.reduceAdd x v reducesTo_S16x256x256_S16_d1_2 h_S_) : (⟨S16x256x256, .f32⟩ : BufTy).Contents (Elt F) → (⟨S_, .f32⟩ : BufTy).Contents (Elt F) → (⟨S16, .f32⟩ : BufTy).Contents (Elt F)),
    StableHlo.reshape main_v63 main_v65 rfl shapeCasts_S16x256x256_S16x128x2x128x2,
    StableHlo.nullary main_cst_28 (constant S_ .f32 0xFF800000#32),
    StableHlo.binary main_v65 main_cst_28 main_v66 ((fun x v => Host.reduce FloatOps.maximumf x v reducesTo_S16x128x2x128x2_S16x128x128_d2_4 h_S_) : (⟨S16x128x2x128x2, .f32⟩ : BufTy).Contents (Elt F) → (⟨S_, .f32⟩ : BufTy).Contents (Elt F) → (⟨S16x128x128, .f32⟩ : BufTy).Contents (Elt F)),
    StableHlo.nullary main_cst_29 (constant S_ .f32 0x00000000#32),
    StableHlo.binary main_v66 main_cst_29 main_v67 ((fun x v => Host.reduceAdd x v reducesTo_S16x128x128_S16_d1_2 h_S_) : (⟨S16x128x128, .f32⟩ : BufTy).Contents (Elt F) → (⟨S_, .f32⟩ : BufTy).Contents (Elt F) → (⟨S16, .f32⟩ : BufTy).Contents (Elt F)),
    StableHlo.reshape main_v66 main_v68 rfl shapeCasts_S16x128x128_S16x64x2x64x2,
    StableHlo.nullary main_cst_30 (constant S_ .f32 0xFF800000#32),
    StableHlo.binary main_v68 main_cst_30 main_v69 ((fun x v => Host.reduce FloatOps.maximumf x v reducesTo_S16x64x2x64x2_S16x64x64_d2_4 h_S_) : (⟨S16x64x2x64x2, .f32⟩ : BufTy).Contents (Elt F) → (⟨S_, .f32⟩ : BufTy).Contents (Elt F) → (⟨S16x64x64, .f32⟩ : BufTy).Contents (Elt F)),
    StableHlo.nullary main_cst_31 (constant S_ .f32 0x00000000#32),
    StableHlo.binary main_v69 main_cst_31 main_v70 ((fun x v => Host.reduceAdd x v reducesTo_S16x64x64_S16_d1_2 h_S_) : (⟨S16x64x64, .f32⟩ : BufTy).Contents (Elt F) → (⟨S_, .f32⟩ : BufTy).Contents (Elt F) → (⟨S16, .f32⟩ : BufTy).Contents (Elt F)),
    StableHlo.reshape main_v69 main_v71 rfl shapeCasts_S16x64x64_S16x32x2x32x2,
    StableHlo.nullary main_cst_32 (constant S_ .f32 0xFF800000#32),
    StableHlo.binary main_v71 main_cst_32 main_v72 ((fun x v => Host.reduce FloatOps.maximumf x v reducesTo_S16x32x2x32x2_S16x32x32_d2_4 h_S_) : (⟨S16x32x2x32x2, .f32⟩ : BufTy).Contents (Elt F) → (⟨S_, .f32⟩ : BufTy).Contents (Elt F) → (⟨S16x32x32, .f32⟩ : BufTy).Contents (Elt F)),
    StableHlo.nullary main_cst_33 (constant S_ .f32 0x00000000#32),
    StableHlo.binary main_v72 main_cst_33 main_v73 ((fun x v => Host.reduceAdd x v reducesTo_S16x32x32_S16_d1_2 h_S_) : (⟨S16x32x32, .f32⟩ : BufTy).Contents (Elt F) → (⟨S_, .f32⟩ : BufTy).Contents (Elt F) → (⟨S16, .f32⟩ : BufTy).Contents (Elt F)),
    StableHlo.unary main_v61 main_v74 (broadcastInDim S16x1 ![0] bcast_S16_S16x1_0 : (⟨S16, .f32⟩ : BufTy).Contents (Elt F) → (⟨S16x1, .f32⟩ : BufTy).Contents (Elt F)),
    StableHlo.unary main_v64 main_v75 (broadcastInDim S16x1 ![0] bcast_S16_S16x1_0 : (⟨S16, .f32⟩ : BufTy).Contents (Elt F) → (⟨S16x1, .f32⟩ : BufTy).Contents (Elt F)),
    StableHlo.unary main_v67 main_v76 (broadcastInDim S16x1 ![0] bcast_S16_S16x1_0 : (⟨S16, .f32⟩ : BufTy).Contents (Elt F) → (⟨S16x1, .f32⟩ : BufTy).Contents (Elt F)),
    StableHlo.unary main_v70 main_v77 (broadcastInDim S16x1 ![0] bcast_S16_S16x1_0 : (⟨S16, .f32⟩ : BufTy).Contents (Elt F) → (⟨S16x1, .f32⟩ : BufTy).Contents (Elt F)),
    StableHlo.unary main_v73 main_v78 (broadcastInDim S16x1 ![0] bcast_S16_S16x1_0 : (⟨S16, .f32⟩ : BufTy).Contents (Elt F) → (⟨S16x1, .f32⟩ : BufTy).Contents (Elt F)),
    StableHlo.nary ![main_v74, main_v75, main_v76, main_v77, main_v78] main_v79 (fun u => cat5 (F := F) (u 0) (u 1) (u 2) (u 3) (u 4)),
    StableHlo.unary main_cst_0 main_v80 (Host.log : (⟨S5, .f32⟩ : BufTy).Contents (Elt F) → (⟨S5, .f32⟩ : BufTy).Contents (Elt F)),
    StableHlo.nullary main_cst_34 (constant S_ .f32 0x322BCC77#32),
    StableHlo.unary main_cst_34 main_v81 (broadcastInDim S16x5 ![] bcast_S_S16x5 : (⟨S_, .f32⟩ : BufTy).Contents (Elt F) → (⟨S16x5, .f32⟩ : BufTy).Contents (Elt F)),
    StableHlo.binary main_v79 main_v81 main_v82 (addf : (⟨S16x5, .f32⟩ : BufTy).Contents (Elt F) → (⟨S16x5, .f32⟩ : BufTy).Contents (Elt F) → (⟨S16x5, .f32⟩ : BufTy).Contents (Elt F)),
    StableHlo.unary main_v82 main_v83 (Host.log : (⟨S16x5, .f32⟩ : BufTy).Contents (Elt F) → (⟨S16x5, .f32⟩ : BufTy).Contents (Elt F)) ]

/-- The operations of window 2 of the reference program, in order. -/
abbrev ops_part2 : List (HloOp τ sig (Elt F)) :=
  [ StableHlo.nullary main_cst_35 (constant S_ .f32 0x00000000#32),
    StableHlo.binary main_v80 main_cst_35 main_v84 ((fun x v => Host.reduceAdd x v reducesTo_S5_S_d0 h_S_) : (⟨S5, .f32⟩ : BufTy).Contents (Elt F) → (⟨S_, .f32⟩ : BufTy).Contents (Elt F) → (⟨S_, .f32⟩ : BufTy).Contents (Elt F)),
    StableHlo.nullary main_cst_36 (constant S_ .f32 0x40A00000#32),
    StableHlo.binary main_v84 main_cst_36 main_v85 (Host.divf : (⟨S_, .f32⟩ : BufTy).Contents (Elt F) → (⟨S_, .f32⟩ : BufTy).Contents (Elt F) → (⟨S_, .f32⟩ : BufTy).Contents (Elt F)),
    StableHlo.nullary main_cst_37 (constant S_ .f32 0x00000000#32),
    StableHlo.binary main_v83 main_cst_37 main_v86 ((fun x v => Host.reduceAdd x v reducesTo_S16x5_S16_d1 h_S_) : (⟨S16x5, .f32⟩ : BufTy).Contents (Elt F) → (⟨S_, .f32⟩ : BufTy).Contents (Elt F) → (⟨S16, .f32⟩ : BufTy).Contents (Elt F)),
    StableHlo.unary main_v86 main_v87 (broadcastInDim S16x1 ![0] bcast_S16_S16x1_0 : (⟨S16, .f32⟩ : BufTy).Contents (Elt F) → (⟨S16x1, .f32⟩ : BufTy).Contents (Elt F)),
    StableHlo.nullary main_cst_38 (constant S_ .f32 0x40A00000#32),
    StableHlo.unary main_cst_38 main_v88 (broadcastInDim S16x1 ![] bcast_S_S16x1 : (⟨S_, .f32⟩ : BufTy).Contents (Elt F) → (⟨S16x1, .f32⟩ : BufTy).Contents (Elt F)),
    StableHlo.binary main_v87 main_v88 main_v89 (Host.divf : (⟨S16x1, .f32⟩ : BufTy).Contents (Elt F) → (⟨S16x1, .f32⟩ : BufTy).Contents (Elt F) → (⟨S16x1, .f32⟩ : BufTy).Contents (Elt F)),
    StableHlo.unary main_v85 main_v90 (broadcastInDim S5 ![] bcast_S_S5 : (⟨S_, .f32⟩ : BufTy).Contents (Elt F) → (⟨S5, .f32⟩ : BufTy).Contents (Elt F)),
    StableHlo.binary main_v80 main_v90 main_v91 (subf : (⟨S5, .f32⟩ : BufTy).Contents (Elt F) → (⟨S5, .f32⟩ : BufTy).Contents (Elt F) → (⟨S5, .f32⟩ : BufTy).Contents (Elt F)),
    StableHlo.unary main_v89 main_v92 (broadcastInDim S16x5 ![0, 1] bcast_S16x1_S16x5_0_1 : (⟨S16x1, .f32⟩ : BufTy).Contents (Elt F) → (⟨S16x5, .f32⟩ : BufTy).Contents (Elt F)),
    StableHlo.binary main_v83 main_v92 main_v93 (subf : (⟨S16x5, .f32⟩ : BufTy).Contents (Elt F) → (⟨S16x5, .f32⟩ : BufTy).Contents (Elt F) → (⟨S16x5, .f32⟩ : BufTy).Contents (Elt F)),
    StableHlo.unary main_v91 main_v94 (broadcastInDim S1x5 ![1] bcast_S5_S1x5_1 : (⟨S5, .f32⟩ : BufTy).Contents (Elt F) → (⟨S1x5, .f32⟩ : BufTy).Contents (Elt F)),
    StableHlo.unary main_v94 main_v95 (broadcastInDim S16x5 ![0, 1] bcast_S1x5_S16x5_0_1 : (⟨S1x5, .f32⟩ : BufTy).Contents (Elt F) → (⟨S16x5, .f32⟩ : BufTy).Contents (Elt F)),
    StableHlo.binary main_v95 main_v93 main_v96 (mulf : (⟨S16x5, .f32⟩ : BufTy).Contents (Elt F) → (⟨S16x5, .f32⟩ : BufTy).Contents (Elt F) → (⟨S16x5, .f32⟩ : BufTy).Contents (Elt F)),
    StableHlo.nullary main_cst_39 (constant S_ .f32 0x00000000#32),
    StableHlo.binary main_v96 main_cst_39 main_v97 ((fun x v => Host.reduceAdd x v reducesTo_S16x5_S16_d1 h_S_) : (⟨S16x5, .f32⟩ : BufTy).Contents (Elt F) → (⟨S_, .f32⟩ : BufTy).Contents (Elt F) → (⟨S16, .f32⟩ : BufTy).Contents (Elt F)),
    StableHlo.binary main_v91 main_v91 main_v98 (mulf : (⟨S5, .f32⟩ : BufTy).Contents (Elt F) → (⟨S5, .f32⟩ : BufTy).Contents (Elt F) → (⟨S5, .f32⟩ : BufTy).Contents (Elt F)),
    StableHlo.nullary main_cst_40 (constant S_ .f32 0x00000000#32),
    StableHlo.binary main_v98 main_cst_40 main_v99 ((fun x v => Host.reduceAdd x v reducesTo_S5_S_d0 h_S_) : (⟨S5, .f32⟩ : BufTy).Contents (Elt F) → (⟨S_, .f32⟩ : BufTy).Contents (Elt F) → (⟨S_, .f32⟩ : BufTy).Contents (Elt F)),
    StableHlo.unary main_v99 main_v100 (broadcastInDim S16 ![] bcast_S_S16 : (⟨S_, .f32⟩ : BufTy).Contents (Elt F) → (⟨S16, .f32⟩ : BufTy).Contents (Elt F)),
    StableHlo.binary main_v97 main_v100 main_v101 (Host.divf : (⟨S16, .f32⟩ : BufTy).Contents (Elt F) → (⟨S16, .f32⟩ : BufTy).Contents (Elt F) → (⟨S16, .f32⟩ : BufTy).Contents (Elt F)),
    StableHlo.unary main_v101 main_v102 (Host.negf : (⟨S16, .f32⟩ : BufTy).Contents (Elt F) → (⟨S16, .f32⟩ : BufTy).Contents (Elt F)),
    StableHlo.binary main_v55 main_v102 main_v103 (subf : (⟨S16, .f32⟩ : BufTy).Contents (Elt F) → (⟨S16, .f32⟩ : BufTy).Contents (Elt F) → (⟨S16, .f32⟩ : BufTy).Contents (Elt F)),
    StableHlo.unary main_v103 main_v104 (Host.absf : (⟨S16, .f32⟩ : BufTy).Contents (Elt F) → (⟨S16, .f32⟩ : BufTy).Contents (Elt F)),
    StableHlo.nullary main_cst_41 (constant S_ .f32 0x00000000#32),
    StableHlo.binary main_v104 main_cst_41 main_v105 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    StableHlo.nullary main_cst_42 (constant S_ .f32 0x41800000#32),
    StableHlo.binary main_v105 main_cst_42 main_v106 (Host.divf : (⟨S_, .f32⟩ : BufTy).Contents (Elt F) → (⟨S_, .f32⟩ : BufTy).Contents (Elt F) → (⟨S_, .f32⟩ : BufTy).Contents (Elt F)) ]

/-- All the operations of the reference program, in order. -/
abbrev ops : List (HloOp τ sig (Elt F)) :=
  ops_part0 ++ (ops_part1 ++ ops_part2)

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., nullary_bufs_sub .., reshape_bufs_sub .., nullary_bufs_sub .., binary_bufs_sub .., nullary_bufs_sub .., unary_bufs_sub .., binary_bufs_sub .., binary_bufs_sub .., nullary_bufs_sub .., binary_bufs_sub .., nullary_bufs_sub .., unary_bufs_sub .., binary_bufs_sub .., binary_bufs_sub .., nullary_bufs_sub .., unary_bufs_sub .., binary_bufs_sub .., unary_bufs_sub .., reshape_bufs_sub .., nullary_bufs_sub .., binary_bufs_sub .., nullary_bufs_sub .., binary_bufs_sub .., reshape_bufs_sub .., nullary_bufs_sub .., binary_bufs_sub .., nullary_bufs_sub .., binary_bufs_sub .., reshape_bufs_sub .., nullary_bufs_sub .., binary_bufs_sub .., nullary_bufs_sub .., binary_bufs_sub .., reshape_bufs_sub .., nullary_bufs_sub .., binary_bufs_sub .., nullary_bufs_sub .., binary_bufs_sub .., reshape_bufs_sub .., nullary_bufs_sub .., binary_bufs_sub .., nullary_bufs_sub .., binary_bufs_sub .., unary_bufs_sub .., unary_bufs_sub .., unary_bufs_sub .., unary_bufs_sub .., unary_bufs_sub .., nary_bufs_sub .., unary_bufs_sub .., nullary_bufs_sub .., unary_bufs_sub .., binary_bufs_sub .., unary_bufs_sub .., nullary_bufs_sub .., binary_bufs_sub .., nullary_bufs_sub .., binary_bufs_sub .., nullary_bufs_sub ..⟩
set_option maxRecDepth 8192 in
theorem ops_part1_sub : (ops_part1 : List (HloOp τ sig (Elt F))).Forall fun op => op.bufs ⊆ tcRefs τ sig :=
  ⟨binary_bufs_sub .., unary_bufs_sub .., nullary_bufs_sub .., unary_bufs_sub .., binary_bufs_sub .., unary_bufs_sub .., binary_bufs_sub .., unary_bufs_sub .., binary_bufs_sub .., unary_bufs_sub .., unary_bufs_sub .., binary_bufs_sub .., nullary_bufs_sub .., binary_bufs_sub .., binary_bufs_sub .., nullary_bufs_sub .., binary_bufs_sub .., unary_bufs_sub .., binary_bufs_sub .., unary_bufs_sub .., nullary_bufs_sub .., unary_bufs_sub .., binary_bufs_sub .., unary_bufs_sub .., reshape_bufs_sub .., nullary_bufs_sub .., binary_bufs_sub .., nullary_bufs_sub .., binary_bufs_sub .., reshape_bufs_sub .., nullary_bufs_sub .., binary_bufs_sub .., nullary_bufs_sub .., binary_bufs_sub .., reshape_bufs_sub .., nullary_bufs_sub .., binary_bufs_sub .., nullary_bufs_sub .., binary_bufs_sub .., reshape_bufs_sub .., nullary_bufs_sub .., binary_bufs_sub .., nullary_bufs_sub .., binary_bufs_sub .., reshape_bufs_sub .., nullary_bufs_sub .., binary_bufs_sub .., nullary_bufs_sub .., binary_bufs_sub .., unary_bufs_sub .., unary_bufs_sub .., unary_bufs_sub .., unary_bufs_sub .., unary_bufs_sub .., nary_bufs_sub .., unary_bufs_sub .., nullary_bufs_sub .., unary_bufs_sub .., binary_bufs_sub .., unary_bufs_sub ..⟩
set_option maxRecDepth 8192 in
theorem ops_part2_sub : (ops_part2 : List (HloOp τ sig (Elt F))).Forall fun op => op.bufs ⊆ tcRefs τ sig :=
  ⟨nullary_bufs_sub .., binary_bufs_sub .., nullary_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., unary_bufs_sub .., unary_bufs_sub .., binary_bufs_sub .., nullary_bufs_sub .., binary_bufs_sub .., binary_bufs_sub .., nullary_bufs_sub .., binary_bufs_sub .., unary_bufs_sub .., binary_bufs_sub .., unary_bufs_sub .., binary_bufs_sub .., unary_bufs_sub .., nullary_bufs_sub .., binary_bufs_sub .., nullary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h, List.forall_iff_forall_mem.mp ops_part2_sub op h]

/-- The buffer contents after the first window. -/
def val1 (V0 : Valuation τ sig (Elt F)) : Valuation τ sig (Elt F) := after ops_part0 V0
/-- The buffer contents after the first two windows. -/
def val2 (V0 : Valuation τ sig (Elt F)) : Valuation τ sig (Elt F) := after ops_part1 (val1 V0)
/-- The buffer contents after the three windows. -/
def val3 (V0 : Valuation τ sig (Elt F)) : Valuation τ sig (Elt F) := after ops_part2 (val2 V0)

set_option maxRecDepth 8192 in
set_option maxHeartbeats 4000000 in
theorem val1_v36 (V0 : Valuation τ sig (Elt F)) : val1 V0 (no_index (Proc.devRef .tc main_v36)) = ly (counts (binar (region (V0 (Proc.devRef .tc main_arg0)) (V0 (Proc.devRef .tc main_arg2))))) := by
  unfold val1
  simp only [ops_part0]
  after_results_simp
  try dsimp only [Matrix.cons_val]
  try after_results_simp
  rfl

set_option maxRecDepth 8192 in
set_option maxHeartbeats 4000000 in
theorem val1_cst_19 (V0 : Valuation τ sig (Elt F)) : val1 V0 (no_index (Proc.devRef .tc main_cst_19)) = constant S_ .f32 0x00000000#32 := by
  unfold val1
  simp only [ops_part0]
  after_results_simp

set_option maxRecDepth 8192 in
set_option maxHeartbeats 4000000 in
theorem val1_v38 (V0 : Valuation τ sig (Elt F)) : val1 V0 (no_index (Proc.devRef .tc main_v38)) = mx (F := F) lit0 := by
  unfold val1
  simp only [ops_part0]
  after_results_simp
  try dsimp only [Matrix.cons_val]
  try after_results_simp
  rfl

set_option maxRecDepth 8192 in
set_option maxHeartbeats 4000000 in
theorem val1_v33 (V0 : Valuation τ sig (Elt F)) : val1 V0 (no_index (Proc.devRef .tc main_v33)) = lx (F := F) lit0 := by
  unfold val1
  simp only [ops_part0]
  after_results_simp
  try dsimp only [Matrix.cons_val]
  try after_results_simp
  rfl

set_option maxRecDepth 8192 in
set_option maxHeartbeats 4000000 in
theorem val1_v8 (V0 : Valuation τ sig (Elt F)) : val1 V0 (no_index (Proc.devRef .tc main_v8)) = region (V0 (Proc.devRef .tc main_arg1)) (V0 (Proc.devRef .tc main_arg2)) := by
  unfold val1
  simp only [ops_part0]
  after_results_simp
  try dsimp only [Matrix.cons_val]
  try after_results_simp
  rfl

set_option maxRecDepth 8192 in
set_option maxHeartbeats 4000000 in
theorem val1_cst_0 (V0 : Valuation τ sig (Elt F)) : val1 V0 (no_index (Proc.devRef .tc main_cst_0)) = tab (F := F) lit1 := by
  unfold val1
  simp only [ops_part0]
  after_results_simp
  try dsimp only [Matrix.cons_val]
  try after_results_simp
  rfl

set_option maxRecDepth 8192 in
set_option maxHeartbeats 4000000 in
theorem val2_v55 (V0 : Valuation τ sig (Elt F)) : val2 V0 (no_index (Proc.devRef .tc main_v55)) = fd lit0 (counts (binar (region (V0 (Proc.devRef .tc main_arg0)) (V0 (Proc.devRef .tc main_arg2))))) := by
  unfold val2
  simp only [ops_part1]
  after_results_simp
  try dsimp only [Matrix.cons_val]
  try after_results_simp
  simp only [val1_v36, val1_cst_19, val1_v38, val1_v33]
  rfl

set_option maxRecDepth 8192 in
set_option maxHeartbeats 4000000 in
theorem val2_v80 (V0 : Valuation τ sig (Elt F)) : val2 V0 (no_index (Proc.devRef .tc main_v80)) = lx (F := F) lit1 := by
  unfold val2
  simp only [ops_part1]
  after_results_simp
  try dsimp only [Matrix.cons_val]
  try after_results_simp
  simp only [val1_cst_0]
  rfl

set_option maxRecDepth 8192 in
set_option maxHeartbeats 4000000 in
theorem val2_v83 (V0 : Valuation τ sig (Elt F)) : val2 V0 (no_index (Proc.devRef .tc main_v83)) = ly (counts (binar (region (V0 (Proc.devRef .tc main_arg1)) (V0 (Proc.devRef .tc main_arg2))))) := by
  unfold val2
  simp only [ops_part1]
  after_results_simp
  try dsimp only [Matrix.cons_val]
  try after_results_simp
  simp only [val1_v8]
  rfl

set_option maxRecDepth 8192 in
set_option maxHeartbeats 4000000 in
theorem val3_v106 (V0 : Valuation τ sig (Elt F)) : val3 V0 (no_index (Proc.devRef .tc main_v106)) = out (V0 (Proc.devRef .tc main_arg0)) (V0 (Proc.devRef .tc main_arg1)) (V0 (Proc.devRef .tc main_arg2)) := by
  unfold val3
  simp only [ops_part2]
  after_results_simp
  try dsimp only [Matrix.cons_val]
  try after_results_simp
  simp only [val2_v55, val2_v80, val2_v83]
  rfl

set_option maxRecDepth 8192 in
set_option maxHeartbeats 4000000 in
theorem val3_arg0 (V0 : Valuation τ sig (Elt F)) : val3 V0 (no_index (Proc.devRef .tc main_arg0)) = V0 (Proc.devRef .tc main_arg0) := by
  unfold val3 val2 val1
  simp only [ops_part0, ops_part1, ops_part2]
  after_results_simp

set_option maxRecDepth 8192 in
set_option maxHeartbeats 4000000 in
theorem val3_arg1 (V0 : Valuation τ sig (Elt F)) : val3 V0 (no_index (Proc.devRef .tc main_arg1)) = V0 (Proc.devRef .tc main_arg1) := by
  unfold val3 val2 val1
  simp only [ops_part0, ops_part1, ops_part2]
  after_results_simp

set_option maxRecDepth 8192 in
set_option maxHeartbeats 4000000 in
theorem val3_arg2 (V0 : Valuation τ sig (Elt F)) : val3 V0 (no_index (Proc.devRef .tc main_arg2)) = V0 (Proc.devRef .tc main_arg2) := by
  unfold val3 val2 val1
  simp only [ops_part0, ops_part1, ops_part2]
  after_results_simp

/-- The whole list's fold is the three windows' folds in turn. -/
theorem after_ops (V0 : Valuation τ sig (Elt F)) : after ops V0 = val3 V0 := by
  simp only [ops, after_append]
  rfl

set_option maxRecDepth 8192 in
/-- On every device, for any float values, from any memory with zero counters: every weakly fair execution of the
    reference program terminates with its result buffer at the stages' composition applied to the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v106) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v106).trans (by simp only [after_ops]; exact val3_v106 (launchContents m c)),
      (h c main_arg0).trans (by simp only [after_ops]; exact val3_arg0 (launchContents m c)),
      (h c main_arg1).trans (by simp only [after_ops]; exact val3_arg1 (launchContents m c)),
      (h c main_arg2).trans (by simp only [after_ops]; exact val3_arg2 (launchContents m c))⟩)
    (run_seq scopedRefs_eq scopedSems_eq defs main (fun _ => ops) main_eq (fun _ => ops_sub) m ρ)

/-- The same run, keeping only that it terminates with the arguments unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => (h c).2) (run m ρ)

end Cert.ReferenceIdeal.HRun

end
-- ==== Proof.RefLevels.lean ====
/-
  What the reference's host operations compute, read at one entry, at the ideal values: the thresholded picture, one
  step of 2 x 2 maximum pooling at each of the five sizes, and the sum of a level over its two spatial axes.

  A pooling step is a maximum over the two inner axes of the image viewed as blocks [16, n, 2, n, 2]: the source entries
  that reduce to (b, h, w) are the four entries (b, h, k1, w, k2), which the row-major view identifies with the image
  entries (b, 2h + k1, 2w + k2); the initial value is minus infinity, the bottom of the order, so the fold is the maximum
  of the four. A count is the initial value zero plus the sum over the entries (b, h, w) of sample b, re-indexed by the
  pair (h, w).
-/
import proofs.«150682_j40690520163157_2_alg».proof.Proof.RefStages
import proofs.«150682_j40690520163157_2_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.PureOps.Reduce

noncomputable section

open scoped BigOperators

namespace Cert.ReferenceIdeal.Counts

open Cert.ReferenceIdeal Idealize.ShloMosaic Idealize.ShloMosaic.ValueIdx

/-! ## Small facts used at every level -/

/-- The word of minus infinity is the bottom of the extended reals. -/
theorem ofBits_neg_inf : Ideal.ofBits .f32 0xFF800000#32 = ⊥ := by simp [Ideal.ofBits, Ideal.ieee]

/-- A fold of a commutative, associative operation over the four pairs of two bits, written out. -/
theorem fold_four {β : Type} (op : β → β → β) [Std.Commutative op] [Std.Associative op] (e : β) (f : Fin 2 × Fin 2 → β) :
    (Finset.univ : Finset (Fin 2 × Fin 2)).fold op e f
      = op (f (0, 0)) (op (f (0, 1)) (op (f (1, 0)) (op (f (1, 1)) e))) := by
  have hu : (Finset.univ : Finset (Fin 2 × Fin 2)) = {(0, 0), (0, 1), (1, 0), (1, 1)} := by decide
  rw [hu, Finset.fold_insert (by decide), Finset.fold_insert (by decide), Finset.fold_insert (by decide),
    Finset.fold_singleton]

/-- The maximum of four extended reals and the bottom, regrouped as the maximum of two pairs. -/
theorem max_four_bot (p q r s : EReal) : max p (max q (max r (max s ⊥))) = max (max p q) (max r s) := by
  rw [max_eq_left (bot_le : (⊥ : EReal) ≤ s), max_assoc]

/-! ## Pooling from 1024 x 1024 to 512 x 512 -/

/-- Dropping the two inner block axes of a five-axis index keeps the sample, block row and block column. -/
theorem drop5_512 (hh : S16x512x2x512x2.ReducesTo [2, 4] S16x512x512) (c0 : Fin 16) (c1 : Fin 512) (c2 : Fin 2)
    (c3 : Fin 512) (c4 : Fin 2) : hh.drop (ix5 c0 c1 c2 c3 c4) = ix3 c0 c1 c3 := by
  funext a
  match a with
  | ⟨0, _⟩ => exact Fin.ext (Shape.ReducesTo.drop_apply_val_of_eq hh _ ⟨0, by decide⟩ ⟨0, by decide⟩)
  | ⟨1, _⟩ => exact Fin.ext (Shape.ReducesTo.drop_apply_val_of_eq hh _ ⟨1, by decide⟩ ⟨1, by decide⟩)
  | ⟨2, _⟩ => exact Fin.ext (Shape.ReducesTo.drop_apply_val_of_eq hh _ ⟨2, by decide⟩ ⟨3, by decide⟩)

/-- The image cut into 2 x 2 blocks: entry (b, h, k1, w, k2) of the five-axis view is entry (b, 2h + k1, 2w + k2). -/
theorem cast5_512 {α : Type} (x : S16x1024x1024.Idx → α) (hc : S16x1024x1024.ShapeCasts S16x512x2x512x2) (b : Fin 16)
    (h w : Fin 512) (k1 k2 : Fin 2) :
    shapeCast S16x512x2x512x2 x hc (ix5 b h k1 w k2)
      = x (ix3 b (⟨2 * h.val + k1.val, by omega⟩ : Fin 1024) (⟨2 * w.val + k2.val, by omega⟩ : Fin 1024)) :=
  shapeCast_apply x hc _ _ (by
    rw [Shape.rowMajor_val_three, Shape.rowMajor_val_five]
    show (b.val * 1024 + (2 * h.val + k1.val)) * 1024 + (2 * w.val + k2.val)
      = (((b.val * 512 + h.val) * 2 + k1.val) * 512 + w.val) * 2 + k2.val
    omega)

/-- The source indices that drop to (b, h, w) are the four entries of block (h, w) of sample b. -/
theorem fiber5_512 (hh : S16x512x2x512x2.ReducesTo [2, 4] S16x512x512) (b : Fin 16) (h w : Fin 512) :
    (Finset.univ.filter fun i : S16x512x2x512x2.Idx => hh.drop i = ix3 b h w)
      = Finset.univ.image (fun p : Fin 2 × Fin 2 => (ix5 b h p.1 w p.2 : S16x512x2x512x2.Idx)) := by
  ext i
  obtain ⟨c0, c1, c2, c3, c4, rfl⟩ : ∃ (c0 : Fin 16) (c1 : Fin 512) (c2 : Fin 2) (c3 : Fin 512) (c4 : Fin 2),
      i = ix5 c0 c1 c2 c3 c4 := ⟨i 0, i 1, i 2, i 3, i 4, eq_ix5 i⟩
  simp only [Finset.mem_filter, Finset.mem_univ, true_and, Finset.mem_image, Prod.exists]
  rw [drop5_512]
  constructor
  · intro hi
    obtain rfl : c0 = b := congrFun hi (0 : Fin 3)
    obtain rfl : c1 = h := congrFun hi (1 : Fin 3)
    obtain rfl : c3 = w := congrFun hi (2 : Fin 3)
    exact ⟨c2, c4, rfl⟩
  · rintro ⟨p1, p2, hp⟩
    have e0 : b = c0 := congrFun hp (0 : Fin 5)
    have e1 : h = c1 := congrFun hp (1 : Fin 5)
    have e3 : w = c3 := congrFun hp (3 : Fin 5)
    subst e0 e1 e3
    rfl

/-- One level: the maximum over the two block axes, read at (b, h, w), is the 2 x 2 maximum of the source image. -/
theorem pool512_apply (x : FVec Ideal S16x1024x1024 .f32) (X : Fin 16 → Cert.Spec.Img)
    (hX : ∀ (b : Fin 16) (h w : Fin 1024), x (ix3 b h w) = X b h.val w.val) (b : Fin 16) (h w : Fin 512) :
    HRun.pool512 x (ix3 b h w) = Cert.Spec.pool (X b) h.val w.val := by
  unfold HRun.pool512
  refine (Host.reduce_eq_fold _ _ _ _ _ _).trans ?_
  rw [fiber5_512, Finset.fold_image (fun p _ q _ hpq => by
    have e2 : p.1 = q.1 := congrFun hpq (2 : Fin 5)
    have e4 : p.2 = q.2 := congrFun hpq (4 : Fin 5)
    exact Prod.ext e2 e4), fold_four]
  simp only [Function.comp_apply, cast5_512, hX, constant_apply, ofBits_neg_inf, Ideal.maximumf_def]
  rw [max_four_bot]
  rfl

/-! ## Pooling from 512 x 512 to 256 x 256 -/

/-- Dropping the two inner block axes of a five-axis index keeps the sample, block row and block column. -/
theorem drop5_256 (hh : S16x256x2x256x2.ReducesTo [2, 4] S16x256x256) (c0 : Fin 16) (c1 : Fin 256) (c2 : Fin 2)
    (c3 : Fin 256) (c4 : Fin 2) : hh.drop (ix5 c0 c1 c2 c3 c4) = ix3 c0 c1 c3 := by
  funext a
  match a with
  | ⟨0, _⟩ => exact Fin.ext (Shape.ReducesTo.drop_apply_val_of_eq hh _ ⟨0, by decide⟩ ⟨0, by decide⟩)
  | ⟨1, _⟩ => exact Fin.ext (Shape.ReducesTo.drop_apply_val_of_eq hh _ ⟨1, by decide⟩ ⟨1, by decide⟩)
  | ⟨2, _⟩ => exact Fin.ext (Shape.ReducesTo.drop_apply_val_of_eq hh _ ⟨2, by decide⟩ ⟨3, by decide⟩)

/-- The image cut into 2 x 2 blocks: entry (b, h, k1, w, k2) of the five-axis view is entry (b, 2h + k1, 2w + k2). -/
theorem cast5_256 {α : Type} (x : S16x512x512.Idx → α) (hc : S16x512x512.ShapeCasts S16x256x2x256x2) (b : Fin 16)
    (h w : Fin 256) (k1 k2 : Fin 2) :
    shapeCast S16x256x2x256x2 x hc (ix5 b h k1 w k2)
      = x (ix3 b (⟨2 * h.val + k1.val, by omega⟩ : Fin 512) (⟨2 * w.val + k2.val, by omega⟩ : Fin 512)) :=
  shapeCast_apply x hc _ _ (by
    rw [Shape.rowMajor_val_three, Shape.rowMajor_val_five]
    show (b.val * 512 + (2 * h.val + k1.val)) * 512 + (2 * w.val + k2.val)
      = (((b.val * 256 + h.val) * 2 + k1.val) * 256 + w.val) * 2 + k2.val
    omega)

/-- The source indices that drop to (b, h, w) are the four entries of block (h, w) of sample b. -/
theorem fiber5_256 (hh : S16x256x2x256x2.ReducesTo [2, 4] S16x256x256) (b : Fin 16) (h w : Fin 256) :
    (Finset.univ.filter fun i : S16x256x2x256x2.Idx => hh.drop i = ix3 b h w)
      = Finset.univ.image (fun p : Fin 2 × Fin 2 => (ix5 b h p.1 w p.2 : S16x256x2x256x2.Idx)) := by
  ext i
  obtain ⟨c0, c1, c2, c3, c4, rfl⟩ : ∃ (c0 : Fin 16) (c1 : Fin 256) (c2 : Fin 2) (c3 : Fin 256) (c4 : Fin 2),
      i = ix5 c0 c1 c2 c3 c4 := ⟨i 0, i 1, i 2, i 3, i 4, eq_ix5 i⟩
  simp only [Finset.mem_filter, Finset.mem_univ, true_and, Finset.mem_image, Prod.exists]
  rw [drop5_256]
  constructor
  · intro hi
    obtain rfl : c0 = b := congrFun hi (0 : Fin 3)
    obtain rfl : c1 = h := congrFun hi (1 : Fin 3)
    obtain rfl : c3 = w := congrFun hi (2 : Fin 3)
    exact ⟨c2, c4, rfl⟩
  · rintro ⟨p1, p2, hp⟩
    have e0 : b = c0 := congrFun hp (0 : Fin 5)
    have e1 : h = c1 := congrFun hp (1 : Fin 5)
    have e3 : w = c3 := congrFun hp (3 : Fin 5)
    subst e0 e1 e3
    rfl

/-- One level: the maximum over the two block axes, read at (b, h, w), is the 2 x 2 maximum of the source image. -/
theorem pool256_apply (x : FVec Ideal S16x512x512 .f32) (X : Fin 16 → Cert.Spec.Img)
    (hX : ∀ (b : Fin 16) (h w : Fin 512), x (ix3 b h w) = X b h.val w.val) (b : Fin 16) (h w : Fin 256) :
    HRun.pool256 x (ix3 b h w) = Cert.Spec.pool (X b) h.val w.val := by
  unfold HRun.pool256
  refine (Host.reduce_eq_fold _ _ _ _ _ _).trans ?_
  rw [fiber5_256, Finset.fold_image (fun p _ q _ hpq => by
    have e2 : p.1 = q.1 := congrFun hpq (2 : Fin 5)
    have e4 : p.2 = q.2 := congrFun hpq (4 : Fin 5)
    exact Prod.ext e2 e4), fold_four]
  simp only [Function.comp_apply, cast5_256, hX, constant_apply, ofBits_neg_inf, Ideal.maximumf_def]
  rw [max_four_bot]
  rfl

/-! ## Pooling from 256 x 256 to 128 x 128 -/

/-- Dropping the two inner block axes of a five-axis index keeps the sample, block row and block column. -/
theorem drop5_128 (hh : S16x128x2x128x2.ReducesTo [2, 4] S16x128x128) (c0 : Fin 16) (c1 : Fin 128) (c2 : Fin 2)
    (c3 : Fin 128) (c4 : Fin 2) : hh.drop (ix5 c0 c1 c2 c3 c4) = ix3 c0 c1 c3 := by
  funext a
  match a with
  | ⟨0, _⟩ => exact Fin.ext (Shape.ReducesTo.drop_apply_val_of_eq hh _ ⟨0, by decide⟩ ⟨0, by decide⟩)
  | ⟨1, _⟩ => exact Fin.ext (Shape.ReducesTo.drop_apply_val_of_eq hh _ ⟨1, by decide⟩ ⟨1, by decide⟩)
  | ⟨2, _⟩ => exact Fin.ext (Shape.ReducesTo.drop_apply_val_of_eq hh _ ⟨2, by decide⟩ ⟨3, by decide⟩)

/-- The image cut into 2 x 2 blocks: entry (b, h, k1, w, k2) of the five-axis view is entry (b, 2h + k1, 2w + k2). -/
theorem cast5_128 {α : Type} (x : S16x256x256.Idx → α) (hc : S16x256x256.ShapeCasts S16x128x2x128x2) (b : Fin 16)
    (h w : Fin 128) (k1 k2 : Fin 2) :
    shapeCast S16x128x2x128x2 x hc (ix5 b h k1 w k2)
      = x (ix3 b (⟨2 * h.val + k1.val, by omega⟩ : Fin 256) (⟨2 * w.val + k2.val, by omega⟩ : Fin 256)) :=
  shapeCast_apply x hc _ _ (by
    rw [Shape.rowMajor_val_three, Shape.rowMajor_val_five]
    show (b.val * 256 + (2 * h.val + k1.val)) * 256 + (2 * w.val + k2.val)
      = (((b.val * 128 + h.val) * 2 + k1.val) * 128 + w.val) * 2 + k2.val
    omega)

/-- The source indices that drop to (b, h, w) are the four entries of block (h, w) of sample b. -/
theorem fiber5_128 (hh : S16x128x2x128x2.ReducesTo [2, 4] S16x128x128) (b : Fin 16) (h w : Fin 128) :
    (Finset.univ.filter fun i : S16x128x2x128x2.Idx => hh.drop i = ix3 b h w)
      = Finset.univ.image (fun p : Fin 2 × Fin 2 => (ix5 b h p.1 w p.2 : S16x128x2x128x2.Idx)) := by
  ext i
  obtain ⟨c0, c1, c2, c3, c4, rfl⟩ : ∃ (c0 : Fin 16) (c1 : Fin 128) (c2 : Fin 2) (c3 : Fin 128) (c4 : Fin 2),
      i = ix5 c0 c1 c2 c3 c4 := ⟨i 0, i 1, i 2, i 3, i 4, eq_ix5 i⟩
  simp only [Finset.mem_filter, Finset.mem_univ, true_and, Finset.mem_image, Prod.exists]
  rw [drop5_128]
  constructor
  · intro hi
    obtain rfl : c0 = b := congrFun hi (0 : Fin 3)
    obtain rfl : c1 = h := congrFun hi (1 : Fin 3)
    obtain rfl : c3 = w := congrFun hi (2 : Fin 3)
    exact ⟨c2, c4, rfl⟩
  · rintro ⟨p1, p2, hp⟩
    have e0 : b = c0 := congrFun hp (0 : Fin 5)
    have e1 : h = c1 := congrFun hp (1 : Fin 5)
    have e3 : w = c3 := congrFun hp (3 : Fin 5)
    subst e0 e1 e3
    rfl

/-- One level: the maximum over the two block axes, read at (b, h, w), is the 2 x 2 maximum of the source image. -/
theorem pool128_apply (x : FVec Ideal S16x256x256 .f32) (X : Fin 16 → Cert.Spec.Img)
    (hX : ∀ (b : Fin 16) (h w : Fin 256), x (ix3 b h w) = X b h.val w.val) (b : Fin 16) (h w : Fin 128) :
    HRun.pool128 x (ix3 b h w) = Cert.Spec.pool (X b) h.val w.val := by
  unfold HRun.pool128
  refine (Host.reduce_eq_fold _ _ _ _ _ _).trans ?_
  rw [fiber5_128, Finset.fold_image (fun p _ q _ hpq => by
    have e2 : p.1 = q.1 := congrFun hpq (2 : Fin 5)
    have e4 : p.2 = q.2 := congrFun hpq (4 : Fin 5)
    exact Prod.ext e2 e4), fold_four]
  simp only [Function.comp_apply, cast5_128, hX, constant_apply, ofBits_neg_inf, Ideal.maximumf_def]
  rw [max_four_bot]
  rfl

/-! ## Pooling from 128 x 128 to 64 x 64 -/

/-- Dropping the two inner block axes of a five-axis index keeps the sample, block row and block column. -/
theorem drop5_64 (hh : S16x64x2x64x2.ReducesTo [2, 4] S16x64x64) (c0 : Fin 16) (c1 : Fin 64) (c2 : Fin 2)
    (c3 : Fin 64) (c4 : Fin 2) : hh.drop (ix5 c0 c1 c2 c3 c4) = ix3 c0 c1 c3 := by
  funext a
  match a with
  | ⟨0, _⟩ => exact Fin.ext (Shape.ReducesTo.drop_apply_val_of_eq hh _ ⟨0, by decide⟩ ⟨0, by decide⟩)
  | ⟨1, _⟩ => exact Fin.ext (Shape.ReducesTo.drop_apply_val_of_eq hh _ ⟨1, by decide⟩ ⟨1, by decide⟩)
  | ⟨2, _⟩ => exact Fin.ext (Shape.ReducesTo.drop_apply_val_of_eq hh _ ⟨2, by decide⟩ ⟨3, by decide⟩)

/-- The image cut into 2 x 2 blocks: entry (b, h, k1, w, k2) of the five-axis view is entry (b, 2h + k1, 2w + k2). -/
theorem cast5_64 {α : Type} (x : S16x128x128.Idx → α) (hc : S16x128x128.ShapeCasts S16x64x2x64x2) (b : Fin 16)
    (h w : Fin 64) (k1 k2 : Fin 2) :
    shapeCast S16x64x2x64x2 x hc (ix5 b h k1 w k2)
      = x (ix3 b (⟨2 * h.val + k1.val, by omega⟩ : Fin 128) (⟨2 * w.val + k2.val, by omega⟩ : Fin 128)) :=
  shapeCast_apply x hc _ _ (by
    rw [Shape.rowMajor_val_three, Shape.rowMajor_val_five]
    show (b.val * 128 + (2 * h.val + k1.val)) * 128 + (2 * w.val + k2.val)
      = (((b.val * 64 + h.val) * 2 + k1.val) * 64 + w.val) * 2 + k2.val
    omega)

/-- The source indices that drop to (b, h, w) are the four entries of block (h, w) of sample b. -/
theorem fiber5_64 (hh : S16x64x2x64x2.ReducesTo [2, 4] S16x64x64) (b : Fin 16) (h w : Fin 64) :
    (Finset.univ.filter fun i : S16x64x2x64x2.Idx => hh.drop i = ix3 b h w)
      = Finset.univ.image (fun p : Fin 2 × Fin 2 => (ix5 b h p.1 w p.2 : S16x64x2x64x2.Idx)) := by
  ext i
  obtain ⟨c0, c1, c2, c3, c4, rfl⟩ : ∃ (c0 : Fin 16) (c1 : Fin 64) (c2 : Fin 2) (c3 : Fin 64) (c4 : Fin 2),
      i = ix5 c0 c1 c2 c3 c4 := ⟨i 0, i 1, i 2, i 3, i 4, eq_ix5 i⟩
  simp only [Finset.mem_filter, Finset.mem_univ, true_and, Finset.mem_image, Prod.exists]
  rw [drop5_64]
  constructor
  · intro hi
    obtain rfl : c0 = b := congrFun hi (0 : Fin 3)
    obtain rfl : c1 = h := congrFun hi (1 : Fin 3)
    obtain rfl : c3 = w := congrFun hi (2 : Fin 3)
    exact ⟨c2, c4, rfl⟩
  · rintro ⟨p1, p2, hp⟩
    have e0 : b = c0 := congrFun hp (0 : Fin 5)
    have e1 : h = c1 := congrFun hp (1 : Fin 5)
    have e3 : w = c3 := congrFun hp (3 : Fin 5)
    subst e0 e1 e3
    rfl

/-- One level: the maximum over the two block axes, read at (b, h, w), is the 2 x 2 maximum of the source image. -/
theorem pool64_apply (x : FVec Ideal S16x128x128 .f32) (X : Fin 16 → Cert.Spec.Img)
    (hX : ∀ (b : Fin 16) (h w : Fin 128), x (ix3 b h w) = X b h.val w.val) (b : Fin 16) (h w : Fin 64) :
    HRun.pool64 x (ix3 b h w) = Cert.Spec.pool (X b) h.val w.val := by
  unfold HRun.pool64
  refine (Host.reduce_eq_fold _ _ _ _ _ _).trans ?_
  rw [fiber5_64, Finset.fold_image (fun p _ q _ hpq => by
    have e2 : p.1 = q.1 := congrFun hpq (2 : Fin 5)
    have e4 : p.2 = q.2 := congrFun hpq (4 : Fin 5)
    exact Prod.ext e2 e4), fold_four]
  simp only [Function.comp_apply, cast5_64, hX, constant_apply, ofBits_neg_inf, Ideal.maximumf_def]
  rw [max_four_bot]
  rfl

/-! ## Pooling from 64 x 64 to 32 x 32 -/

/-- Dropping the two inner block axes of a five-axis index keeps the sample, block row and block column. -/
theorem drop5_32 (hh : S16x32x2x32x2.ReducesTo [2, 4] S16x32x32) (c0 : Fin 16) (c1 : Fin 32) (c2 : Fin 2)
    (c3 : Fin 32) (c4 : Fin 2) : hh.drop (ix5 c0 c1 c2 c3 c4) = ix3 c0 c1 c3 := by
  funext a
  match a with
  | ⟨0, _⟩ => exact Fin.ext (Shape.ReducesTo.drop_apply_val_of_eq hh _ ⟨0, by decide⟩ ⟨0, by decide⟩)
  | ⟨1, _⟩ => exact Fin.ext (Shape.ReducesTo.drop_apply_val_of_eq hh _ ⟨1, by decide⟩ ⟨1, by decide⟩)
  | ⟨2, _⟩ => exact Fin.ext (Shape.ReducesTo.drop_apply_val_of_eq hh _ ⟨2, by decide⟩ ⟨3, by decide⟩)

/-- The image cut into 2 x 2 blocks: entry (b, h, k1, w, k2) of the five-axis view is entry (b, 2h + k1, 2w + k2). -/
theorem cast5_32 {α : Type} (x : S16x64x64.Idx → α) (hc : S16x64x64.ShapeCasts S16x32x2x32x2) (b : Fin 16)
    (h w : Fin 32) (k1 k2 : Fin 2) :
    shapeCast S16x32x2x32x2 x hc (ix5 b h k1 w k2)
      = x (ix3 b (⟨2 * h.val + k1.val, by omega⟩ : Fin 64) (⟨2 * w.val + k2.val, by omega⟩ : Fin 64)) :=
  shapeCast_apply x hc _ _ (by
    rw [Shape.rowMajor_val_three, Shape.rowMajor_val_five]
    show (b.val * 64 + (2 * h.val + k1.val)) * 64 + (2 * w.val + k2.val)
      = (((b.val * 32 + h.val) * 2 + k1.val) * 32 + w.val) * 2 + k2.val
    omega)

/-- The source indices that drop to (b, h, w) are the four entries of block (h, w) of sample b. -/
theorem fiber5_32 (hh : S16x32x2x32x2.ReducesTo [2, 4] S16x32x32) (b : Fin 16) (h w : Fin 32) :
    (Finset.univ.filter fun i : S16x32x2x32x2.Idx => hh.drop i = ix3 b h w)
      = Finset.univ.image (fun p : Fin 2 × Fin 2 => (ix5 b h p.1 w p.2 : S16x32x2x32x2.Idx)) := by
  ext i
  obtain ⟨c0, c1, c2, c3, c4, rfl⟩ : ∃ (c0 : Fin 16) (c1 : Fin 32) (c2 : Fin 2) (c3 : Fin 32) (c4 : Fin 2),
      i = ix5 c0 c1 c2 c3 c4 := ⟨i 0, i 1, i 2, i 3, i 4, eq_ix5 i⟩
  simp only [Finset.mem_filter, Finset.mem_univ, true_and, Finset.mem_image, Prod.exists]
  rw [drop5_32]
  constructor
  · intro hi
    obtain rfl : c0 = b := congrFun hi (0 : Fin 3)
    obtain rfl : c1 = h := congrFun hi (1 : Fin 3)
    obtain rfl : c3 = w := congrFun hi (2 : Fin 3)
    exact ⟨c2, c4, rfl⟩
  · rintro ⟨p1, p2, hp⟩
    have e0 : b = c0 := congrFun hp (0 : Fin 5)
    have e1 : h = c1 := congrFun hp (1 : Fin 5)
    have e3 : w = c3 := congrFun hp (3 : Fin 5)
    subst e0 e1 e3
    rfl

/-- One level: the maximum over the two block axes, read at (b, h, w), is the 2 x 2 maximum of the source image. -/
theorem pool32_apply (x : FVec Ideal S16x64x64 .f32) (X : Fin 16 → Cert.Spec.Img)
    (hX : ∀ (b : Fin 16) (h w : Fin 64), x (ix3 b h w) = X b h.val w.val) (b : Fin 16) (h w : Fin 32) :
    HRun.pool32 x (ix3 b h w) = Cert.Spec.pool (X b) h.val w.val := by
  unfold HRun.pool32
  refine (Host.reduce_eq_fold _ _ _ _ _ _).trans ?_
  rw [fiber5_32, Finset.fold_image (fun p _ q _ hpq => by
    have e2 : p.1 = q.1 := congrFun hpq (2 : Fin 5)
    have e4 : p.2 = q.2 := congrFun hpq (4 : Fin 5)
    exact Prod.ext e2 e4), fold_four]
  simp only [Function.comp_apply, cast5_32, hX, constant_apply, ofBits_neg_inf, Ideal.maximumf_def]
  rw [max_four_bot]
  rfl

/-! ## The count of a 512 x 512 level -/

/-- Dropping the two spatial axes of a three-axis index keeps the sample. -/
theorem drop3_512 (hh : S16x512x512.ReducesTo [1, 2] S16) (c0 : Fin 16) (c1 c2 : Fin 512) :
    hh.drop (ix3 c0 c1 c2) = ix1 c0 := by
  funext a
  match a with
  | ⟨0, _⟩ => exact Fin.ext (Shape.ReducesTo.drop_apply_val_of_eq hh _ ⟨0, by decide⟩ ⟨0, by decide⟩)

/-- The source indices that drop to sample b are all the entries of sample b. -/
theorem fiber3_512 (hh : S16x512x512.ReducesTo [1, 2] S16) (b : Fin 16) :
    (Finset.univ.filter fun i : S16x512x512.Idx => hh.drop i = ix1 b)
      = Finset.univ.image (fun p : Fin 512 × Fin 512 => (ix3 b p.1 p.2 : S16x512x512.Idx)) := by
  ext i
  obtain ⟨c0, c1, c2, rfl⟩ : ∃ (c0 : Fin 16) (c1 c2 : Fin 512), i = ix3 c0 c1 c2 := ⟨i 0, i 1, i 2, eq_ix3 i⟩
  simp only [Finset.mem_filter, Finset.mem_univ, true_and, Finset.mem_image, Prod.exists]
  rw [drop3_512]
  constructor
  · intro hi
    obtain rfl : c0 = b := congrFun hi (0 : Fin 1)
    exact ⟨c1, c2, rfl⟩
  · rintro ⟨p1, p2, hp⟩
    have e0 : b = c0 := congrFun hp (0 : Fin 3)
    subst e0
    rfl

/-- The sum over the two spatial axes, as a column entry: the sum of the 512 x 512 entries of the sample's image. -/
theorem cnt512_apply (p : FVec Ideal S16x512x512 .f32) (Y : Fin 16 → Cert.Spec.Img)
    (hY : ∀ (b : Fin 16) (h w : Fin 512), p (ix3 b h w) = Y b h.val w.val) (b : Fin 16) (u : Fin 1) :
    HRun.cnt512 p (ix2 b u) = ∑ h ∈ Finset.range 512, ∑ w ∈ Finset.range 512, Y b h w := by
  unfold HRun.cnt512
  refine (broadcastInDim_apply _ _ _ _ (ix1 b) (fun a => by
    match a with
    | ⟨0, _⟩ => rfl)).trans ?_
  rw [hostReduceAdd_apply]
  unfold Ideal.hostReduceAdd
  rw [fiber3_512, Finset.sum_image (fun p _ q _ hpq => by
    have e1 : p.1 = q.1 := congrFun hpq (1 : Fin 3)
    have e2 : p.2 = q.2 := congrFun hpq (2 : Fin 3)
    exact Prod.ext e1 e2), Fintype.sum_prod_type, constant_apply, Ideal.ofBits_zero_f32, zero_add]
  simp only [hY]
  rw [← Fin.sum_univ_eq_sum_range (fun h => ∑ w ∈ Finset.range 512, Y b h w) 512]
  refine Finset.sum_congr rfl fun h _ => ?_
  rw [← Fin.sum_univ_eq_sum_range (fun w => Y b h.val w) 512]

/-! ## The count of a 256 x 256 level -/

/-- Dropping the two spatial axes of a three-axis index keeps the sample. -/
theorem drop3_256 (hh : S16x256x256.ReducesTo [1, 2] S16) (c0 : Fin 16) (c1 c2 : Fin 256) :
    hh.drop (ix3 c0 c1 c2) = ix1 c0 := by
  funext a
  match a with
  | ⟨0, _⟩ => exact Fin.ext (Shape.ReducesTo.drop_apply_val_of_eq hh _ ⟨0, by decide⟩ ⟨0, by decide⟩)

/-- The source indices that drop to sample b are all the entries of sample b. -/
theorem fiber3_256 (hh : S16x256x256.ReducesTo [1, 2] S16) (b : Fin 16) :
    (Finset.univ.filter fun i : S16x256x256.Idx => hh.drop i = ix1 b)
      = Finset.univ.image (fun p : Fin 256 × Fin 256 => (ix3 b p.1 p.2 : S16x256x256.Idx)) := by
  ext i
  obtain ⟨c0, c1, c2, rfl⟩ : ∃ (c0 : Fin 16) (c1 c2 : Fin 256), i = ix3 c0 c1 c2 := ⟨i 0, i 1, i 2, eq_ix3 i⟩
  simp only [Finset.mem_filter, Finset.mem_univ, true_and, Finset.mem_image, Prod.exists]
  rw [drop3_256]
  constructor
  · intro hi
    obtain rfl : c0 = b := congrFun hi (0 : Fin 1)
    exact ⟨c1, c2, rfl⟩
  · rintro ⟨p1, p2, hp⟩
    have e0 : b = c0 := congrFun hp (0 : Fin 3)
    subst e0
    rfl

/-- The sum over the two spatial axes, as a column entry: the sum of the 256 x 256 entries of the sample's image. -/
theorem cnt256_apply (p : FVec Ideal S16x256x256 .f32) (Y : Fin 16 → Cert.Spec.Img)
    (hY : ∀ (b : Fin 16) (h w : Fin 256), p (ix3 b h w) = Y b h.val w.val) (b : Fin 16) (u : Fin 1) :
    HRun.cnt256 p (ix2 b u) = ∑ h ∈ Finset.range 256, ∑ w ∈ Finset.range 256, Y b h w := by
  unfold HRun.cnt256
  refine (broadcastInDim_apply _ _ _ _ (ix1 b) (fun a => by
    match a with
    | ⟨0, _⟩ => rfl)).trans ?_
  rw [hostReduceAdd_apply]
  unfold Ideal.hostReduceAdd
  rw [fiber3_256, Finset.sum_image (fun p _ q _ hpq => by
    have e1 : p.1 = q.1 := congrFun hpq (1 : Fin 3)
    have e2 : p.2 = q.2 := congrFun hpq (2 : Fin 3)
    exact Prod.ext e1 e2), Fintype.sum_prod_type, constant_apply, Ideal.ofBits_zero_f32, zero_add]
  simp only [hY]
  rw [← Fin.sum_univ_eq_sum_range (fun h => ∑ w ∈ Finset.range 256, Y b h w) 256]
  refine Finset.sum_congr rfl fun h _ => ?_
  rw [← Fin.sum_univ_eq_sum_range (fun w => Y b h.val w) 256]

/-! ## The count of a 128 x 128 level -/

/-- Dropping the two spatial axes of a three-axis index keeps the sample. -/
theorem drop3_128 (hh : S16x128x128.ReducesTo [1, 2] S16) (c0 : Fin 16) (c1 c2 : Fin 128) :
    hh.drop (ix3 c0 c1 c2) = ix1 c0 := by
  funext a
  match a with
  | ⟨0, _⟩ => exact Fin.ext (Shape.ReducesTo.drop_apply_val_of_eq hh _ ⟨0, by decide⟩ ⟨0, by decide⟩)

/-- The source indices that drop to sample b are all the entries of sample b. -/
theorem fiber3_128 (hh : S16x128x128.ReducesTo [1, 2] S16) (b : Fin 16) :
    (Finset.univ.filter fun i : S16x128x128.Idx => hh.drop i = ix1 b)
      = Finset.univ.image (fun p : Fin 128 × Fin 128 => (ix3 b p.1 p.2 : S16x128x128.Idx)) := by
  ext i
  obtain ⟨c0, c1, c2, rfl⟩ : ∃ (c0 : Fin 16) (c1 c2 : Fin 128), i = ix3 c0 c1 c2 := ⟨i 0, i 1, i 2, eq_ix3 i⟩
  simp only [Finset.mem_filter, Finset.mem_univ, true_and, Finset.mem_image, Prod.exists]
  rw [drop3_128]
  constructor
  · intro hi
    obtain rfl : c0 = b := congrFun hi (0 : Fin 1)
    exact ⟨c1, c2, rfl⟩
  · rintro ⟨p1, p2, hp⟩
    have e0 : b = c0 := congrFun hp (0 : Fin 3)
    subst e0
    rfl

/-- The sum over the two spatial axes, as a column entry: the sum of the 128 x 128 entries of the sample's image. -/
theorem cnt128_apply (p : FVec Ideal S16x128x128 .f32) (Y : Fin 16 → Cert.Spec.Img)
    (hY : ∀ (b : Fin 16) (h w : Fin 128), p (ix3 b h w) = Y b h.val w.val) (b : Fin 16) (u : Fin 1) :
    HRun.cnt128 p (ix2 b u) = ∑ h ∈ Finset.range 128, ∑ w ∈ Finset.range 128, Y b h w := by
  unfold HRun.cnt128
  refine (broadcastInDim_apply _ _ _ _ (ix1 b) (fun a => by
    match a with
    | ⟨0, _⟩ => rfl)).trans ?_
  rw [hostReduceAdd_apply]
  unfold Ideal.hostReduceAdd
  rw [fiber3_128, Finset.sum_image (fun p _ q _ hpq => by
    have e1 : p.1 = q.1 := congrFun hpq (1 : Fin 3)
    have e2 : p.2 = q.2 := congrFun hpq (2 : Fin 3)
    exact Prod.ext e1 e2), Fintype.sum_prod_type, constant_apply, Ideal.ofBits_zero_f32, zero_add]
  simp only [hY]
  rw [← Fin.sum_univ_eq_sum_range (fun h => ∑ w ∈ Finset.range 128, Y b h w) 128]
  refine Finset.sum_congr rfl fun h _ => ?_
  rw [← Fin.sum_univ_eq_sum_range (fun w => Y b h.val w) 128]

/-! ## The count of a 64 x 64 level -/

/-- Dropping the two spatial axes of a three-axis index keeps the sample. -/
theorem drop3_64 (hh : S16x64x64.ReducesTo [1, 2] S16) (c0 : Fin 16) (c1 c2 : Fin 64) :
    hh.drop (ix3 c0 c1 c2) = ix1 c0 := by
  funext a
  match a with
  | ⟨0, _⟩ => exact Fin.ext (Shape.ReducesTo.drop_apply_val_of_eq hh _ ⟨0, by decide⟩ ⟨0, by decide⟩)

/-- The source indices that drop to sample b are all the entries of sample b. -/
theorem fiber3_64 (hh : S16x64x64.ReducesTo [1, 2] S16) (b : Fin 16) :
    (Finset.univ.filter fun i : S16x64x64.Idx => hh.drop i = ix1 b)
      = Finset.univ.image (fun p : Fin 64 × Fin 64 => (ix3 b p.1 p.2 : S16x64x64.Idx)) := by
  ext i
  obtain ⟨c0, c1, c2, rfl⟩ : ∃ (c0 : Fin 16) (c1 c2 : Fin 64), i = ix3 c0 c1 c2 := ⟨i 0, i 1, i 2, eq_ix3 i⟩
  simp only [Finset.mem_filter, Finset.mem_univ, true_and, Finset.mem_image, Prod.exists]
  rw [drop3_64]
  constructor
  · intro hi
    obtain rfl : c0 = b := congrFun hi (0 : Fin 1)
    exact ⟨c1, c2, rfl⟩
  · rintro ⟨p1, p2, hp⟩
    have e0 : b = c0 := congrFun hp (0 : Fin 3)
    subst e0
    rfl

/-- The sum over the two spatial axes, as a column entry: the sum of the 64 x 64 entries of the sample's image. -/
theorem cnt64_apply (p : FVec Ideal S16x64x64 .f32) (Y : Fin 16 → Cert.Spec.Img)
    (hY : ∀ (b : Fin 16) (h w : Fin 64), p (ix3 b h w) = Y b h.val w.val) (b : Fin 16) (u : Fin 1) :
    HRun.cnt64 p (ix2 b u) = ∑ h ∈ Finset.range 64, ∑ w ∈ Finset.range 64, Y b h w := by
  unfold HRun.cnt64
  refine (broadcastInDim_apply _ _ _ _ (ix1 b) (fun a => by
    match a with
    | ⟨0, _⟩ => rfl)).trans ?_
  rw [hostReduceAdd_apply]
  unfold Ideal.hostReduceAdd
  rw [fiber3_64, Finset.sum_image (fun p _ q _ hpq => by
    have e1 : p.1 = q.1 := congrFun hpq (1 : Fin 3)
    have e2 : p.2 = q.2 := congrFun hpq (2 : Fin 3)
    exact Prod.ext e1 e2), Fintype.sum_prod_type, constant_apply, Ideal.ofBits_zero_f32, zero_add]
  simp only [hY]
  rw [← Fin.sum_univ_eq_sum_range (fun h => ∑ w ∈ Finset.range 64, Y b h w) 64]
  refine Finset.sum_congr rfl fun h _ => ?_
  rw [← Fin.sum_univ_eq_sum_range (fun w => Y b h.val w) 64]

/-! ## The count of a 32 x 32 level -/

/-- Dropping the two spatial axes of a three-axis index keeps the sample. -/
theorem drop3_32 (hh : S16x32x32.ReducesTo [1, 2] S16) (c0 : Fin 16) (c1 c2 : Fin 32) :
    hh.drop (ix3 c0 c1 c2) = ix1 c0 := by
  funext a
  match a with
  | ⟨0, _⟩ => exact Fin.ext (Shape.ReducesTo.drop_apply_val_of_eq hh _ ⟨0, by decide⟩ ⟨0, by decide⟩)

/-- The source indices that drop to sample b are all the entries of sample b. -/
theorem fiber3_32 (hh : S16x32x32.ReducesTo [1, 2] S16) (b : Fin 16) :
    (Finset.univ.filter fun i : S16x32x32.Idx => hh.drop i = ix1 b)
      = Finset.univ.image (fun p : Fin 32 × Fin 32 => (ix3 b p.1 p.2 : S16x32x32.Idx)) := by
  ext i
  obtain ⟨c0, c1, c2, rfl⟩ : ∃ (c0 : Fin 16) (c1 c2 : Fin 32), i = ix3 c0 c1 c2 := ⟨i 0, i 1, i 2, eq_ix3 i⟩
  simp only [Finset.mem_filter, Finset.mem_univ, true_and, Finset.mem_image, Prod.exists]
  rw [drop3_32]
  constructor
  · intro hi
    obtain rfl : c0 = b := congrFun hi (0 : Fin 1)
    exact ⟨c1, c2, rfl⟩
  · rintro ⟨p1, p2, hp⟩
    have e0 : b = c0 := congrFun hp (0 : Fin 3)
    subst e0
    rfl

/-- The sum over the two spatial axes, as a column entry: the sum of the 32 x 32 entries of the sample's image. -/
theorem cnt32_apply (p : FVec Ideal S16x32x32 .f32) (Y : Fin 16 → Cert.Spec.Img)
    (hY : ∀ (b : Fin 16) (h w : Fin 32), p (ix3 b h w) = Y b h.val w.val) (b : Fin 16) (u : Fin 1) :
    HRun.cnt32 p (ix2 b u) = ∑ h ∈ Finset.range 32, ∑ w ∈ Finset.range 32, Y b h w := by
  unfold HRun.cnt32
  refine (broadcastInDim_apply _ _ _ _ (ix1 b) (fun a => by
    match a with
    | ⟨0, _⟩ => rfl)).trans ?_
  rw [hostReduceAdd_apply]
  unfold Ideal.hostReduceAdd
  rw [fiber3_32, Finset.sum_image (fun p _ q _ hpq => by
    have e1 : p.1 = q.1 := congrFun hpq (1 : Fin 3)
    have e2 : p.2 = q.2 := congrFun hpq (2 : Fin 3)
    exact Prod.ext e1 e2), Fintype.sum_prod_type, constant_apply, Ideal.ofBits_zero_f32, zero_add]
  simp only [hY]
  rw [← Fin.sum_univ_eq_sum_range (fun h => ∑ w ∈ Finset.range 32, Y b h w) 32]
  refine Finset.sum_congr rfl fun h _ => ?_
  rw [← Fin.sum_univ_eq_sum_range (fun w => Y b h.val w) 32]

/-! ## The thresholded picture -/

/-- The sum over the channel axis, read at (b, h, w): the three channel entries added. -/
theorem chanSum_apply (a : FVec Ideal S16x3x1024x1024 .f32) (hh : S16x3x1024x1024.ReducesTo [1] S16x1024x1024)
    (hu : 0 < S_.numel) (b : Fin 16) (h w : Fin 1024) :
    Host.reduceAdd a (constant S_ .f32 0x00000000#32) hh hu (ix3 b h w) = ∑ k : Fin 3, a (ix4 b k h w) := by
  rw [hostReduceAdd_apply, constant_apply, Ideal.ofBits_zero_f32]
  refine (Ideal.hostReduceAdd_single hh (by decide) a 0 (ix3 b h w)).trans ?_
  rw [zero_add]
  exact Finset.sum_congr rfl fun k _ => congrArg a (funext fun c => by
    match c with
    | ⟨0, _⟩ => rfl
    | ⟨1, _⟩ => rfl
    | ⟨2, _⟩ => rfl
    | ⟨3, _⟩ => rfl)

/-- The mask with its unit channel axis removed, read at (b, h, w): the mask at (b, 0, h, w). -/
theorem maskCast_apply (mk : FVec Ideal S16x1x1024x1024 .f32) (hc : S16x1x1024x1024.ShapeCasts S16x1024x1024)
    (b : Fin 16) (h w : Fin 1024) :
    shapeCast S16x1024x1024 mk hc (ix3 b h w) = mk (ix4 b (0 : Fin 1) h w) :=
  shapeCast_apply mk hc _ _ (by
    rw [Shape.rowMajor_val_four, Shape.rowMajor_val_three]
    show ((b.val * 1 + 0) * 1024 + h.val) * 1024 + w.val = (b.val * 1024 + h.val) * 1024 + w.val
    omega)

/-- The masked channel mean at (b, h, w). -/
theorem region_apply (a : FVec Ideal S16x3x1024x1024 .f32) (mk : FVec Ideal S16x1x1024x1024 .f32) (b : Fin 16)
    (h w : Fin 1024) :
    HRun.region a mk (ix3 b h w)
      = Ideal.div (∑ k : Fin 3, a (ix4 b k h w)) (Ideal.ofBits .f32 0x40400000#32) * mk (ix4 b (0 : Fin 1) h w) := by
  unfold HRun.region
  rw [mulf_apply, hostDivf_apply, broadcastInDim_scalar_apply, constant_apply, chanSum_apply, maskCast_apply]

/-- The indicator of the masked channel mean above one half is the specification's picture. -/
theorem binar_region_apply (a : FVec Ideal S16x3x1024x1024 .f32) (mk : FVec Ideal S16x1x1024x1024 .f32) (b : Fin 16)
    (h w : Fin 1024) :
    HRun.binar (HRun.region a mk) (ix3 b h w) = Cert.Spec.pixel a mk b h.val w.val := by
  unfold Cert.Spec.pixel
  rw [dif_pos ⟨h.isLt, w.isLt⟩]
  unfold HRun.binar Cert.Spec.thr
  show FloatOps.uitofp (F := Ideal) .f32 (FloatOps.cmpf (F := Ideal) (φ := .f32) .ogt (HRun.region a mk (ix3 b h w))
    (broadcastInDim S16x1024x1024 ![] _ (constant S_ .f32 0x3F000000#32) (ix3 b h w))) = _
  rw [region_apply, broadcastInDim_scalar_apply, constant_apply]

end Cert.ReferenceIdeal.Counts

end
-- ==== Proof.RefCounts.lean ====
/-
  The reference's table of occupied-box counts is the specification's.

  The thresholded picture of a sample is the specification's picture entry by entry; each pooling step of the reference
  turns level L of the picture's pyramid into level L + 1; the count at scale l is the sum of the entries of level l + 1,
  a column of the five-column table; so entry (b, l) of the table is the number of occupied boxes of side 2^(l+1) of
  sample b's picture.
-/
import proofs.«150682_j40690520163157_2_alg».proof.Proof.RefStages
import proofs.«150682_j40690520163157_2_alg».proof.Proof.Spec
import proofs.«150682_j40690520163157_2_alg».proof.Proof.RefLevels
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.PureOps.Reduce

noncomputable section

open scoped BigOperators

namespace Cert.ReferenceIdeal.Counts

open Cert.ReferenceIdeal Idealize.ShloMosaic Idealize.ShloMosaic.ValueIdx

/-! ## The table of counts -/

/-- Column 0 of the five-column table is piece 0. -/
theorem cat5_apply0 (u0 u1 u2 u3 u4 : FVec Ideal S16x1 .f32) (b : Fin 16) :
    HRun.cat5 u0 u1 u2 u3 u4 (ix2 b (0 : Fin 5)) = u0 (ix2 b (0 : Fin 1)) := by
  unfold HRun.cat5
  refine concatenate_apply_piece _ _ _ _ 0 ?hk S16x1 u0 ?hxk ?hr 0 ?hpre (ix2 b (0 : Fin 1)) ?hi ?ha
  case hk =>
    show (0 : ℕ) < 5
    omega
  case hxk => rfl
  case hr => rfl
  case hpre => rfl
  case hi =>
    intro b' hb
    match b', hb with
    | ⟨0, _⟩, _ => rfl
    | ⟨1, _⟩, hb => exact absurd rfl hb
  case ha => rfl

/-- Column 1 of the five-column table is piece 1. -/
theorem cat5_apply1 (u0 u1 u2 u3 u4 : FVec Ideal S16x1 .f32) (b : Fin 16) :
    HRun.cat5 u0 u1 u2 u3 u4 (ix2 b (1 : Fin 5)) = u1 (ix2 b (0 : Fin 1)) := by
  unfold HRun.cat5
  refine concatenate_apply_piece _ _ _ _ 1 ?hk S16x1 u1 ?hxk ?hr 1 ?hpre (ix2 b (0 : Fin 1)) ?hi ?ha
  case hk =>
    show (1 : ℕ) < 5
    omega
  case hxk => rfl
  case hr => rfl
  case hpre => rfl
  case hi =>
    intro b' hb
    match b', hb with
    | ⟨0, _⟩, _ => rfl
    | ⟨1, _⟩, hb => exact absurd rfl hb
  case ha => rfl

/-- Column 2 of the five-column table is piece 2. -/
theorem cat5_apply2 (u0 u1 u2 u3 u4 : FVec Ideal S16x1 .f32) (b : Fin 16) :
    HRun.cat5 u0 u1 u2 u3 u4 (ix2 b (2 : Fin 5)) = u2 (ix2 b (0 : Fin 1)) := by
  unfold HRun.cat5
  refine concatenate_apply_piece _ _ _ _ 2 ?hk S16x1 u2 ?hxk ?hr 2 ?hpre (ix2 b (0 : Fin 1)) ?hi ?ha
  case hk =>
    show (2 : ℕ) < 5
    omega
  case hxk => rfl
  case hr => rfl
  case hpre => rfl
  case hi =>
    intro b' hb
    match b', hb with
    | ⟨0, _⟩, _ => rfl
    | ⟨1, _⟩, hb => exact absurd rfl hb
  case ha => rfl

/-- Column 3 of the five-column table is piece 3. -/
theorem cat5_apply3 (u0 u1 u2 u3 u4 : FVec Ideal S16x1 .f32) (b : Fin 16) :
    HRun.cat5 u0 u1 u2 u3 u4 (ix2 b (3 : Fin 5)) = u3 (ix2 b (0 : Fin 1)) := by
  unfold HRun.cat5
  refine concatenate_apply_piece _ _ _ _ 3 ?hk S16x1 u3 ?hxk ?hr 3 ?hpre (ix2 b (0 : Fin 1)) ?hi ?ha
  case hk =>
    show (3 : ℕ) < 5
    omega
  case hxk => rfl
  case hr => rfl
  case hpre => rfl
  case hi =>
    intro b' hb
    match b', hb with
    | ⟨0, _⟩, _ => rfl
    | ⟨1, _⟩, hb => exact absurd rfl hb
  case ha => rfl

/-- Column 4 of the five-column table is piece 4. -/
theorem cat5_apply4 (u0 u1 u2 u3 u4 : FVec Ideal S16x1 .f32) (b : Fin 16) :
    HRun.cat5 u0 u1 u2 u3 u4 (ix2 b (4 : Fin 5)) = u4 (ix2 b (0 : Fin 1)) := by
  unfold HRun.cat5
  refine concatenate_apply_piece _ _ _ _ 4 ?hk S16x1 u4 ?hxk ?hr 4 ?hpre (ix2 b (0 : Fin 1)) ?hi ?ha
  case hk =>
    show (4 : ℕ) < 5
    omega
  case hxk => rfl
  case hr => rfl
  case hpre => rfl
  case hi =>
    intro b' hb
    match b', hb with
    | ⟨0, _⟩, _ => rfl
    | ⟨1, _⟩, hb => exact absurd rfl hb
  case ha => rfl

/-! ## The levels of the pyramid -/

/-- After 1 step of pooling the array holds level 1 of the picture's pyramid. -/
theorem level1 (a : FVec Ideal S16x3x1024x1024 .f32) (mk : FVec Ideal S16x1x1024x1024 .f32) (b : Fin 16) (h w : Fin 512) :
    HRun.pool512 (HRun.binar (HRun.region a mk)) (ix3 b h w) = Cert.Spec.pyr (Cert.Spec.pixel a mk b) 1 h.val w.val :=
  pool512_apply _ (fun b => Cert.Spec.pixel a mk b) (binar_region_apply a mk) b h w

/-- After 2 steps of pooling the array holds level 2 of the picture's pyramid. -/
theorem level2 (a : FVec Ideal S16x3x1024x1024 .f32) (mk : FVec Ideal S16x1x1024x1024 .f32) (b : Fin 16) (h w : Fin 256) :
    HRun.pool256 (HRun.pool512 (HRun.binar (HRun.region a mk))) (ix3 b h w) = Cert.Spec.pyr (Cert.Spec.pixel a mk b) 2 h.val w.val :=
  pool256_apply _ (fun b => Cert.Spec.pyr (Cert.Spec.pixel a mk b) 1) (level1 a mk) b h w

/-- After 3 steps of pooling the array holds level 3 of the picture's pyramid. -/
theorem level3 (a : FVec Ideal S16x3x1024x1024 .f32) (mk : FVec Ideal S16x1x1024x1024 .f32) (b : Fin 16) (h w : Fin 128) :
    HRun.pool128 (HRun.pool256 (HRun.pool512 (HRun.binar (HRun.region a mk)))) (ix3 b h w) = Cert.Spec.pyr (Cert.Spec.pixel a mk b) 3 h.val w.val :=
  pool128_apply _ (fun b => Cert.Spec.pyr (Cert.Spec.pixel a mk b) 2) (level2 a mk) b h w

/-- After 4 steps of pooling the array holds level 4 of the picture's pyramid. -/
theorem level4 (a : FVec Ideal S16x3x1024x1024 .f32) (mk : FVec Ideal S16x1x1024x1024 .f32) (b : Fin 16) (h w : Fin 64) :
    HRun.pool64 (HRun.pool128 (HRun.pool256 (HRun.pool512 (HRun.binar (HRun.region a mk))))) (ix3 b h w) = Cert.Spec.pyr (Cert.Spec.pixel a mk b) 4 h.val w.val :=
  pool64_apply _ (fun b => Cert.Spec.pyr (Cert.Spec.pixel a mk b) 3) (level3 a mk) b h w

/-- After 5 steps of pooling the array holds level 5 of the picture's pyramid. -/
theorem level5 (a : FVec Ideal S16x3x1024x1024 .f32) (mk : FVec Ideal S16x1x1024x1024 .f32) (b : Fin 16) (h w : Fin 32) :
    HRun.pool32 (HRun.pool64 (HRun.pool128 (HRun.pool256 (HRun.pool512 (HRun.binar (HRun.region a mk)))))) (ix3 b h w) = Cert.Spec.pyr (Cert.Spec.pixel a mk b) 5 h.val w.val :=
  pool32_apply _ (fun b => Cert.Spec.pyr (Cert.Spec.pixel a mk b) 4) (level4 a mk) b h w

/-! ## The specification's entries, written out -/

/-- The specification's count of sample b at scale l, written out as the double sum over the level's entries. -/
theorem spec_counts (a : FVec Ideal S16x3x1024x1024 .f32) (mk : FVec Ideal S16x1x1024x1024 .f32) (b : Fin 16) (l : Fin 5)
    (n L : ℕ) (hn : 512 / 2 ^ l.val = n) (hL : l.val + 1 = L) :
    Cert.Spec.counts a mk (ix2 b l)
      = ∑ h ∈ Finset.range n, ∑ w ∈ Finset.range n, Cert.Spec.pyr (Cert.Spec.pixel a mk b) L h w := by
  subst hn hL
  rfl

/-- The reference's table of counts is the specification's: entry (b, l) is the number of occupied boxes of side
    2^(l+1) of sample b's picture. -/
theorem counts_eq (a : FVec Ideal S16x3x1024x1024 .f32) (mk : FVec Ideal S16x1x1024x1024 .f32) :
    HRun.counts (HRun.binar (HRun.region a mk)) = Cert.Spec.counts a mk := by
  funext j
  obtain ⟨b, l, rfl⟩ : ∃ (b : Fin 16) (l : Fin 5), j = ix2 b l := ⟨j 0, j 1, eq_ix2 j⟩
  unfold HRun.counts
  match l with
  | ⟨0, _⟩ =>
    refine (cat5_apply0 _ _ _ _ _ b).trans ?_
    refine (cnt512_apply _ (fun b => Cert.Spec.pyr (Cert.Spec.pixel a mk b) 1) (level1 a mk) b 0).trans ?_
    exact (spec_counts a mk b _ 512 1 (by norm_num) (by norm_num)).symm
  | ⟨1, _⟩ =>
    refine (cat5_apply1 _ _ _ _ _ b).trans ?_
    refine (cnt256_apply _ (fun b => Cert.Spec.pyr (Cert.Spec.pixel a mk b) 2) (level2 a mk) b 0).trans ?_
    exact (spec_counts a mk b _ 256 2 (by norm_num) (by norm_num)).symm
  | ⟨2, _⟩ =>
    refine (cat5_apply2 _ _ _ _ _ b).trans ?_
    refine (cnt128_apply _ (fun b => Cert.Spec.pyr (Cert.Spec.pixel a mk b) 3) (level3 a mk) b 0).trans ?_
    exact (spec_counts a mk b _ 128 3 (by norm_num) (by norm_num)).symm
  | ⟨3, _⟩ =>
    refine (cat5_apply3 _ _ _ _ _ b).trans ?_
    refine (cnt64_apply _ (fun b => Cert.Spec.pyr (Cert.Spec.pixel a mk b) 4) (level4 a mk) b 0).trans ?_
    exact (spec_counts a mk b _ 64 4 (by norm_num) (by norm_num)).symm
  | ⟨4, _⟩ =>
    refine (cat5_apply4 _ _ _ _ _ b).trans ?_
    refine (cnt32_apply _ (fun b => Cert.Spec.pyr (Cert.Spec.pixel a mk b) 5) (level5 a mk) b 0).trans ?_
    exact (spec_counts a mk b _ 32 5 (by norm_num) (by norm_num)).symm

end Cert.ReferenceIdeal.Counts

end
-- ==== Proof.lean ====
/-
  The certificate: box-counting fractal dimension, tiled kernel against whole-image reference.

  Both programs threshold, for each of the 16 samples, the channel mean of an image times a mask at one half, count at
  five scales the boxes of side 2, 4, 8, 16, 32 that contain a set pixel (five rounds of 2 × 2 maxima, each followed by
  a sum), fit by least squares the slope of log(count + ε) against log(side), and return the mean absolute difference
  of the slopes of two images. The reference pools and sums whole 1024 × 1024 pictures. The kernel cuts the pictures
  into an 8 × 8 grid of 128 × 128 tiles, pools and sums inside each tile, and adds the 64 partial counts on the host.

  The one law joining them: 128 is a multiple of every box side, so no box straddles two tiles, pooling a tile is
  pooling the picture seen from the tile's corner, and the boxes of the picture are the boxes of its tiles. Sums are
  reordered freely — addition of extended reals is commutative and associative — and nothing else is rearranged, so
  the finiteness of the inputs is never used. Maxima against -∞ disappear (it is the least element), the two orders
  in which the programs take the four-fold maxima agree because max is associative and commutative, and the slope
  computation is the same sequence of operations in both programs.

  Frames: the kernel's two programs run through the pipeline library's frame theorem around one region followed by
  host operations; the reference is a straight line of host operations. No rewrite was made by the ideal pass, so there
  is nothing to preserve.
-/
import proofs.«150682_j40690520163157_2_alg».proof.Defs
import proofs.«150682_j40690520163157_2_alg».proof.Proof.Gen.Kernel
import proofs.«150682_j40690520163157_2_alg».proof.Proof.Gen.KernelIdeal
import proofs.«150682_j40690520163157_2_alg».proof.Proof.Gen.ReferenceIdeal
import proofs.«150682_j40690520163157_2_alg».proof.Proof.Gen.Pre_finite_inputs
import proofs.«150682_j40690520163157_2_alg».proof.Proof.FrameKernel
import proofs.«150682_j40690520163157_2_alg».proof.Proof.FrameKernelIdeal
import proofs.«150682_j40690520163157_2_alg».proof.Proof.KernelTile
import proofs.«150682_j40690520163157_2_alg».proof.Proof.KernelValue
import proofs.«150682_j40690520163157_2_alg».proof.Proof.RefRun
import proofs.«150682_j40690520163157_2_alg».proof.Proof.RefCounts
import Idealize.ShloMosaic.Adequacy
import Idealize.ShloMosaic.Init

noncomputable section

namespace Cert.Proof

open Idealize.ShloMosaic Idealize.ShloMosaic.TcCoe Idealize.SL.Sem

/-- The slope computation is spelt by the two programs with the same operations in the same order, over tables holding
    the same five words: the two spellings are one term. -/
theorem tails_agree (X Y : FVec Ideal ⟨2, ![16, 5]⟩ .f32) :
    Cert.KernelIdeal.Tail.final (Cert.KernelIdeal.Tail.fd (Cert.KernelIdeal.Val.tab Cert.KernelIdeal.lit0) X)
        (Cert.KernelIdeal.Tail.fd (Cert.KernelIdeal.Val.tab Cert.KernelIdeal.lit1) Y)
      = Cert.ReferenceIdeal.HRun.final (Cert.ReferenceIdeal.HRun.fd Cert.ReferenceIdeal.lit0 X)
        (Cert.ReferenceIdeal.HRun.fd Cert.ReferenceIdeal.lit1 Y) := rfl

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ => Cert.ReferenceIdeal.HRun.frame m ρ

/-- From memories agreeing on the three arguments, the kernel's result buffer ends at the slope computation of the
    specification's counts (the kernel's value run) and the reference's at the same computation of its own counts, which
    are the specification's. -/
theorem algebraic : Cert.algebraic_KernelIdeal_ReferenceIdeal := by
  intro m ρ m' ρ' _ hagree
  refine ⟨_, Cert.KernelIdeal.Val.run m ρ
    (fun x0 x2 P hP b l => Cert.KernelIdeal.Tile.payF_apply x0 x2 P hP b l)
    (fun x1 x2 P hP b l => Cert.KernelIdeal.Tile.payT_apply x1 x2 P hP b l), ?_⟩
  refine (θ_run Cert.ReferenceIdeal.defs _ _).mono (fun _ h c => ⟨(h c).1.trans ?_, (h c).2⟩)
    (Cert.ReferenceIdeal.HRun.run (F := Ideal) m' ρ')
  rw [(hagree c).1, (hagree c).2.1, (hagree c).2.2]
  unfold Cert.ReferenceIdeal.HRun.out
  rw [Cert.ReferenceIdeal.Counts.counts_eq, Cert.ReferenceIdeal.Counts.counts_eq]
  exact (tails_agree _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
